-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v304) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1x128x128 : Shape := ⟨4, ![256, 1, 128, 128]⟩
abbrev S256x3x128x128 : Shape := ⟨4, ![256, 3, 128, 128]⟩
abbrev S_ : Shape := ⟨0, ![]⟩

class Facts : Prop where
  bcast_S_S256x1x128x128 : S_.BroadcastsInDim S256x1x128x128 (![] : Fin 0 → Fin S256x1x128x128.rank)
  reducesTo_S256x1x128x128_S_d0_1_2_3 : S256x1x128x128.ReducesTo [0, 1, 2, 3] S_
  h_S_ : 0 < S_.numel
  bcast_S_S256x3x128x128 : S_.BroadcastsInDim S256x3x128x128 (![] : Fin 0 → Fin S256x3x128x128.rank)
  reducesTo_S256x3x128x128_S_d0_1_2_3 : S256x3x128x128.ReducesTo [0, 1, 2, 3] S_

variable [Facts]

def fn {F : FTy → Type} [FloatOps F] (main_arg0 : FVec F S256x1x128x128 .f32) (main_arg1 : FVec F S256x3x128x128 .f32) (main_arg2 : FVec F S256x3x128x128 .f32) : IVec S_ 1 :=
  let main_v0 : FVec F S256x1x128x128 .f32 := Host.absf main_arg0
  let main_cst : FVec F S_ .f32 := constant S_ .f32 0x7F800000#32
  let main_v1 : FVec F S256x1x128x128 .f32 := broadcastInDim S256x1x128x128 ![] bcast_S_S256x1x128x128 main_cst
  let main_v2 : IVec S256x1x128x128 1 := cmpf .olt main_v0 main_v1
  let main_c : IVec S_ 1 := constantI S_ 1 1#1
  let main_v3 : IVec S_ 1 := (fun x v => Host.reduce IntOp.andi x v reducesTo_S256x1x128x128_S_d0_1_2_3 h_S_) main_v2 main_c
  let main_v4 : FVec F S256x3x128x128 .f32 := Host.absf main_arg1
  let main_cst_0 : FVec F S_ .f32 := constant S_ .f32 0x7F800000#32
  let main_v5 : FVec F S256x3x128x128 .f32 := broadcastInDim S256x3x128x128 ![] bcast_S_S256x3x128x128 main_cst_0
  let main_v6 : IVec S256x3x128x128 1 := cmpf .olt main_v4 main_v5
  let main_c_1 : IVec S_ 1 := constantI S_ 1 1#1
  let main_v7 : IVec S_ 1 := (fun x v => Host.reduce IntOp.andi x v reducesTo_S256x3x128x128_S_d0_1_2_3 h_S_) main_v6 main_c_1
  let main_v8 : IVec S_ 1 := andi main_v3 main_v7
  let main_v9 : FVec F S256x3x128x128 .f32 := Host.absf main_arg2
  let main_cst_2 : FVec F S_ .f32 := constant S_ .f32 0x7F800000#32
  let main_v10 : FVec F S256x3x128x128 .f32 := broadcastInDim S256x3x128x128 ![] bcast_S_S256x3x128x128 main_cst_2
  let main_v11 : IVec S256x3x128x128 1 := cmpf .olt main_v9 main_v10
  let main_c_3 : IVec S_ 1 := constantI S_ 1 1#1
  let main_v12 : IVec S_ 1 := (fun x v => Host.reduce IntOp.andi x v reducesTo_S256x3x128x128_S_d0_1_2_3 h_S_) main_v11 main_c_3
  let main_v13 : IVec S_ 1 := andi main_v8 main_v12
  main_v13
-- ==== Kernel.lean ====
abbrev S256x1x128x128 : Shape := ⟨4, ![256, 1, 128, 128]⟩
abbrev S256x3x128x128 : Shape := ⟨4, ![256, 3, 128, 128]⟩
abbrev S1x1 : Shape := ⟨2, ![1, 1]⟩
abbrev S8x1x128x128 : Shape := ⟨4, ![8, 1, 128, 128]⟩
abbrev S8x3x128x128 : Shape := ⟨4, ![8, 3, 128, 128]⟩
abbrev S3x128x128 : Shape := ⟨3, ![3, 128, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S8x1x18x1 : Shape := ⟨4, ![8, 1, 18, 1]⟩
abbrev S8x18 : Shape := ⟨2, ![8, 18]⟩
abbrev S8 : Shape := ⟨1, ![8]⟩
abbrev S8x1 : Shape := ⟨2, ![8, 1]⟩
abbrev S8x1x1x128 : Shape := ⟨4, ![8, 1, 1, 128]⟩
abbrev S8x128 : Shape := ⟨2, ![8, 128]⟩
abbrev S8x1x55x1 : Shape := ⟨4, ![8, 1, 55, 1]⟩
abbrev S8x55 : Shape := ⟨2, ![8, 55]⟩
abbrev S8x1x126x126 : Shape := ⟨4, ![8, 1, 126, 126]⟩
abbrev S8x3x126x126 : Shape := ⟨4, ![8, 3, 126, 126]⟩
abbrev S8x126x126 : Shape := ⟨3, ![8, 126, 126]⟩
abbrev S8x126x1 : Shape := ⟨3, ![8, 126, 1]⟩
abbrev S8x126x124 : Shape := ⟨3, ![8, 126, 124]⟩
abbrev S8x1x126 : Shape := ⟨3, ![8, 1, 126]⟩
abbrev S8x124x126 : Shape := ⟨3, ![8, 124, 126]⟩
abbrev S126x126 : Shape := ⟨2, ![126, 126]⟩
abbrev S126 : Shape := ⟨1, ![126]⟩
abbrev S126x1 : Shape := ⟨2, ![126, 1]⟩
abbrev S_ : Shape := ⟨0, ![]⟩

abbrev nBuf : Space → Nat
  | .hbm => 43
  | .vmem => 11
  | .smem => 0
  | _ => 0

abbrev bufTy : (tb : Table) → Fin (tcTables nBuf tb) → BufTy
  | .hbm, ⟨0, _⟩ => ⟨S256x1x128x128, .f32⟩
  | .hbm, ⟨1, _⟩ => ⟨S256x3x128x128, .f32⟩
  | .hbm, ⟨2, _⟩ => ⟨S256x3x128x128, .f32⟩
  | .hbm, ⟨3, _⟩ => ⟨S1x1, .f32⟩
  | .hbm, ⟨4, _⟩ => ⟨S1x1, .f32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S8x1x128x128, .f32⟩
  | .local _ .vmem, ⟨1, _⟩ => ⟨S8x1x128x128, .f32⟩
  | .local _ .vmem, ⟨2, _⟩ => ⟨S8x3x128x128, .f32⟩
  | .local _ .vmem, ⟨3, _⟩ => ⟨S8x3x128x128, .f32⟩
  | .local _ .vmem, ⟨4, _⟩ => ⟨S8x3x128x128, .f32⟩
  | .local _ .vmem, ⟨5, _⟩ => ⟨S8x3x128x128, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S256x1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩
abbrev main_cst_8 : Ref sig .tc := ⟨.hbm, 32, rfl⟩
abbrev main_v16 : Ref sig .tc := ⟨.hbm, 33, rfl⟩
abbrev main_cst_9 : Ref sig .tc := ⟨.hbm, 34, rfl⟩
abbrev main_v17 : Ref sig .tc := ⟨.hbm, 35, rfl⟩
abbrev main_v18 : Ref sig .tc := ⟨.hbm, 36, rfl⟩
abbrev main_cst_10 : Ref sig .tc := ⟨.hbm, 37, rfl⟩
abbrev main_v19 : Ref sig .tc := ⟨.hbm, 38, rfl⟩
abbrev main_v20 : Ref sig .tc := ⟨.hbm, 39, rfl⟩
abbrev main_cst_11 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S8x3x128x128_S8x3x128x128_0_0_0_0 : ∀ a, (![0, 0, 0, 0] : Fin 4 → Nat) a + S8x3x128x128.size a ≤ S8x3x128x128.size a
  h_S8x3x128x128 : 0 < S8x3x128x128.numel
  inb_S8x1x128x128_S8x1x128x128_0_0_0_0 : ∀ a, (![0, 0, 0, 0] : Fin 4 → Nat) a + S8x1x128x128.size a ≤ S8x1x128x128.size a
  h_S8x1x128x128 : 0 < S8x1x128x128.numel
  reduces_S8x3x128x128_S3x128x128 : S8x3x128x128.Reduces [0] S3x128x128
  reduces_S3x128x128_S128x128 : S3x128x128.Reduces [0] S128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  slices_S8x3x128x128_o0_1_55_0_S8x1x18x1 : S8x3x128x128.Slices ![0, 1, 55, 0] S8x1x18x1
  shapeCasts_S8x1x18x1_S8x18 : S8x1x18x1.ShapeCasts S8x18
  slices_S8x3x128x128_o0_0_55_127_S8x1x18x1 : S8x3x128x128.Slices ![0, 0, 55, 127] S8x1x18x1
  reduces_S8x18_S8 : S8x18.Reduces [1] S8
  shapeCasts_S8_S8x1 : S8.ShapeCasts S8x1
  reduces_S8x1_S1 : S8x1.Reduces [0] S1
  slices_S8x3x128x128_o0_1_0_0_S8x1x1x128 : S8x3x128x128.Slices ![0, 1, 0, 0] S8x1x1x128
  shapeCasts_S8x1x1x128_S8x128 : S8x1x1x128.ShapeCasts S8x128
  slices_S8x3x128x128_o0_1_73_0_S8x1x55x1 : S8x3x128x128.Slices ![0, 1, 73, 0] S8x1x55x1
  shapeCasts_S8x1x55x1_S8x55 : S8x1x55x1.ShapeCasts S8x55
  slices_S8x3x128x128_o0_1_0_0_S8x1x55x1 : S8x3x128x128.Slices ![0, 1, 0, 0] S8x1x55x1
  reduces_S8x128_S8 : S8x128.Reduces [1] S8
  reduces_S8x55_S8 : S8x55.Reduces [1] S8
  slices_S8x3x128x128_o0_1_127_0_S8x1x1x128 : S8x3x128x128.Slices ![0, 1, 127, 0] S8x1x1x128
  slices_S8x3x128x128_o0_1_73_127_S8x1x55x1 : S8x3x128x128.Slices ![0, 1, 73, 127] S8x1x55x1
  slices_S8x3x128x128_o0_1_0_127_S8x1x55x1 : S8x3x128x128.Slices ![0, 1, 0, 127] S8x1x55x1
  slices_S8x3x128x128_o0_2_0_0_S8x1x1x128 : S8x3x128x128.Slices ![0, 2, 0, 0] S8x1x1x128
  slices_S8x3x128x128_o0_2_73_0_S8x1x55x1 : S8x3x128x128.Slices ![0, 2, 73, 0] S8x1x55x1
  slices_S8x3x128x128_o0_2_0_0_S8x1x55x1 : S8x3x128x128.Slices ![0, 2, 0, 0] S8x1x55x1
  slices_S8x3x128x128_o0_2_127_0_S8x1x1x128 : S8x3x128x128.Slices ![0, 2, 127, 0] S8x1x1x128
  slices_S8x3x128x128_o0_2_73_127_S8x1x55x1 : S8x3x128x128.Slices ![0, 2, 73, 127] S8x1x55x1
  slices_S8x3x128x128_o0_2_0_127_S8x1x55x1 : S8x3x128x128.Slices ![0, 2, 0, 127] S8x1x55x1
  slices_S8x1x128x128_o0_0_1_1_S8x1x126x126 : S8x1x128x128.Slices ![0, 0, 1, 1] S8x1x126x126
  slices_S8x3x128x128_o0_0_1_1_S8x3x126x126 : S8x3x128x128.Slices ![0, 0, 1, 1] S8x3x126x126
  slices_S8x3x126x126_o0_0_0_0_S8x1x126x126 : S8x3x126x126.Slices ![0, 0, 0, 0] S8x1x126x126
  shapeCasts_S8x1x126x126_S8x126x126 : S8x1x126x126.ShapeCasts S8x126x126
  slices_S8x3x126x126_o0_1_0_0_S8x1x126x126 : S8x3x126x126.Slices ![0, 1, 0, 0] S8x1x126x126
  slices_S8x3x126x126_o0_2_0_0_S8x1x126x126 : S8x3x126x126.Slices ![0, 2, 0, 0] S8x1x126x126
  slices_S8x126x126_o0_0_1_S8x126x1 : S8x126x126.Slices ![0, 0, 1] S8x126x1
  slices_S8x126x126_o0_0_0_S8x126x1 : S8x126x126.Slices ![0, 0, 0] S8x126x1
  slices_S8x126x126_o0_0_2_S8x126x124 : S8x126x126.Slices ![0, 0, 2] S8x126x124
  slices_S8x126x126_o0_0_0_S8x126x124 : S8x126x126.Slices ![0, 0, 0] S8x126x124
  slices_S8x126x126_o0_0_125_S8x126x1 : S8x126x126.Slices ![0, 0, 125] S8x126x1
  slices_S8x126x126_o0_0_124_S8x126x1 : S8x126x126.Slices ![0, 0, 124] S8x126x1
  concatenates_S8x126x1_S8x126x124_S8x126x1_S8x126x126_d2 : Shape.Concatenates [S8x126x1, S8x126x124, S8x126x1] S8x126x126 2
  slices_S8x126x126_o0_1_0_S8x1x126 : S8x126x126.Slices ![0, 1, 0] S8x1x126
  slices_S8x126x126_o0_0_0_S8x1x126 : S8x126x126.Slices ![0, 0, 0] S8x1x126
  slices_S8x126x126_o0_2_0_S8x124x126 : S8x126x126.Slices ![0, 2, 0] S8x124x126
  slices_S8x126x126_o0_0_0_S8x124x126 : S8x126x126.Slices ![0, 0, 0] S8x124x126
  slices_S8x126x126_o0_125_0_S8x1x126 : S8x126x126.Slices ![0, 125, 0] S8x1x126
  slices_S8x126x126_o0_124_0_S8x1x126 : S8x126x126.Slices ![0, 124, 0] S8x1x126
  concatenates_S8x1x126_S8x124x126_S8x1x126_S8x126x126_d1 : Shape.Concatenates [S8x1x126, S8x124x126, S8x1x126] S8x126x126 1
  reduces_S8x126x126_S126x126 : S8x126x126.Reduces [0] S126x126
  reduces_S126x126_S126 : S126x126.Reduces [1] S126
  shapeCasts_S126_S126x1 : S126.ShapeCasts S126x1
  reduces_S126x1_S1 : S126x1.Reduces [0] S1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x128x128.size a ≤ S256x1x128x128.size a
  hwx0_0 : ∀ i : grid0.Coords, EltTy.bits .f32 = 32 ∨ (Rect.block (s := S256x1x128x128) S8x1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x128x128.size a ≤ S256x3x128x128.size a
  hwx0_1 : ∀ i : grid0.Coords, EltTy.bits .f32 = 32 ∨ (Rect.block (s := S256x3x128x128) S8x3x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3x128x128.size a ≤ S256x3x128x128.size a
  hwx0_2 : ∀ i : grid0.Coords, EltTy.bits .f32 = 32 ∨ (Rect.block (s := S256x3x128x128) S8x3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

abbrev win0_0 : Pipeline.Window sig grid0 :=
  Pipeline.Window.ofSpec (Memref.whole main_arg0) S8x1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x3x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x1x128x128 : Shape := ⟨4, ![256, 1, 128, 128]⟩
abbrev S256x3x128x128 : Shape := ⟨4, ![256, 3, 128, 128]⟩
abbrev S4 : Shape := ⟨1, ![4]⟩
abbrev S_ : Shape := ⟨0, ![]⟩
abbrev S1 : Shape := ⟨1, ![1]⟩
abbrev S1x1x1x1 : Shape := ⟨4, ![1, 1, 1, 1]⟩
abbrev S3 : Shape := ⟨1, ![3]⟩
abbrev S1x3x1x1 : Shape := ⟨4, ![1, 3, 1, 1]⟩
abbrev S256x1x18x1 : Shape := ⟨4, ![256, 1, 18, 1]⟩
abbrev S256x18 : Shape := ⟨2, ![256, 18]⟩
abbrev S4608 : Shape := ⟨1, ![4608]⟩
abbrev S256x1x1x128 : Shape := ⟨4, ![256, 1, 1, 128]⟩
abbrev S256x128 : Shape := ⟨2, ![256, 128]⟩
abbrev S32768 : Shape := ⟨1, ![32768]⟩
abbrev S256x1x55x1 : Shape := ⟨4, ![256, 1, 55, 1]⟩
abbrev S256x55 : Shape := ⟨2, ![256, 55]⟩
abbrev S14080 : Shape := ⟨1, ![14080]⟩
abbrev S252928 : Shape := ⟨1, ![252928]⟩
abbrev S256x1x126x126 : Shape := ⟨4, ![256, 1, 126, 126]⟩
abbrev S256x3x126x126 : Shape := ⟨4, ![256, 3, 126, 126]⟩
abbrev S256x126x126 : Shape := ⟨3, ![256, 126, 126]⟩
abbrev S256x126x1 : Shape := ⟨3, ![256, 126, 1]⟩
abbrev S256x126x124 : Shape := ⟨3, ![256, 126, 124]⟩
abbrev S256 : Shape := ⟨1, ![256]⟩

abbrev nBuf : Space → Nat
  | .hbm => 369
  | .vmem => 0
  | .smem => 0
  | _ => 0

abbrev hbmTy0_0 (i : Nat) : BufTy := match i % 128 with
  | 0 => ⟨S256x1x128x128, .f32⟩
  | 1 => ⟨S256x3x128x128, .f32⟩
  | 2 => ⟨S256x3x128x128, .f32⟩
  | 3 => ⟨S4, .f32⟩
  | 4 => ⟨S4, .f32⟩
  | 5 => ⟨S256x3x128x128, .f32⟩
  | 6 => ⟨S256x3x128x128, .f32⟩
  | 7 => ⟨S_, .f32⟩
  | 8 => ⟨S_, .f32⟩
  | 9 => ⟨S_, .f32⟩
  | 10 => ⟨S_, .f32⟩
  | 11 => ⟨S1, .f32⟩
  | 12 => ⟨S1x1x1x1, .f32⟩
  | 13 => ⟨S256x1x128x128, .f32⟩
  | 14 => ⟨S256x1x128x128, .f32⟩
  | 15 => ⟨S1, .f32⟩
  | 16 => ⟨S1x1x1x1, .f32⟩
  | 17 => ⟨S256x1x128x128, .f32⟩
  | 18 => ⟨S256x1x128x128, .f32⟩
  | 19 => ⟨S3, .f32⟩
  | 20 => ⟨S1x3x1x1, .f32⟩
  | 21 => ⟨S256x3x128x128, .f32⟩
  | 22 => ⟨S256x3x128x128, .f32⟩
  | 23 => ⟨S3, .f32⟩
  | 24 => ⟨S1x3x1x1, .f32⟩
  | 25 => ⟨S256x3x128x128, .f32⟩
  | 26 => ⟨S256x3x128x128, .f32⟩
  | 27 => ⟨S256x1x18x1, .f32⟩
  | 28 => ⟨S256x18, .f32⟩
  | 29 => ⟨S4608, .f32⟩
  | 30 => ⟨S_, .f32⟩
  | 31 => ⟨S4608, .f32⟩
  | 32 => ⟨S4608, .f32⟩
  | 33 => ⟨S256x1x18x1, .f32⟩
  | 34 => ⟨S256x18, .f32⟩
  | 35 => ⟨S4608, .f32⟩
  | 36 => ⟨S256x1x1x128, .f32⟩
  | 37 => ⟨S256x128, .f32⟩
  | 38 => ⟨S32768, .f32⟩
  | 39 => ⟨S256x1x55x1, .f32⟩
  | 40 => ⟨S256x55, .f32⟩
  | 41 => ⟨S14080, .f32⟩
  | 42 => ⟨S256x1x55x1, .f32⟩
  | 43 => ⟨S256x55, .f32⟩
  | 44 => ⟨S14080, .f32⟩
  | 45 => ⟨S256x1x1x128, .f32⟩
  | 46 => ⟨S256x128, .f32⟩
  | 47 => ⟨S32768, .f32⟩
  | 48 => ⟨S256x1x55x1, .f32⟩
  | 49 => ⟨S256x55, .f32⟩
  | 50 => ⟨S14080, .f32⟩
  | 51 => ⟨S256x1x55x1, .f32⟩
  | 52 => ⟨S256x55, .f32⟩
  | 53 => ⟨S14080, .f32⟩
  | 54 => ⟨S256x1x1x128, .f32⟩
  | 55 => ⟨S256x128, .f32⟩
  | 56 => ⟨S32768, .f32⟩
  | 57 => ⟨S256x1x55x1, .f32⟩
  | 58 => ⟨S256x55, .f32⟩
  | 59 => ⟨S14080, .f32⟩
  | 60 => ⟨S256x1x55x1, .f32⟩
  | 61 => ⟨S256x55, .f32⟩
  | 62 => ⟨S14080, .f32⟩
  | 63 => ⟨S256x1x1x128, .f32⟩
  | 64 => ⟨S256x128, .f32⟩
  | 65 => ⟨S32768, .f32⟩
  | 66 => ⟨S256x1x55x1, .f32⟩
  | 67 => ⟨S256x55, .f32⟩
  | 68 => ⟨S14080, .f32⟩
  | 69 => ⟨S256x1x55x1, .f32⟩
  | 70 => ⟨S256x55, .f32⟩
  | 71 => ⟨S14080, .f32⟩
  | 72 => ⟨S252928, .f32⟩
  | 73 => ⟨S256x1x126x126, .f32⟩
  | 74 => ⟨S256x3x126x126, .f32⟩
  | 75 => ⟨S256x1x126x126, .f32⟩
  | 76 => ⟨S256x126x126, .f32⟩
  | 77 => ⟨S256x1x126x126, .f32⟩
  | 78 => ⟨S256x126x126, .f32⟩
  | 79 => ⟨S256x1x126x126, .f32⟩
  | 80 => ⟨S256x126x126, .f32⟩
  | 81 => ⟨S256x126x126, .f32⟩
  | 82 => ⟨S256x126x1, .f32⟩
  | 83 => ⟨S256x126x1, .f32⟩
  | 84 => ⟨S256x126x1, .f32⟩
  | 85 => ⟨S_, .f32⟩
  | 86 => ⟨S256x126x1, .f32⟩
  | 87 => ⟨S256x126x1, .f32⟩
  | 88 => ⟨S256x126x124, .f32⟩
  | 89 => ⟨S256x126x124, .f32⟩
  | 90 => ⟨S256x126x124, .f32⟩
  | 91 => ⟨S_, .f32⟩
  | 92 => ⟨S256x126x124, .f32⟩
  | 93 => ⟨S256x126x124, .f32⟩
  | 94 => ⟨S256x126x1, .f32⟩
  | 95 => ⟨S256x126x1, .f32⟩
  | 96 => ⟨S256x126x1, .f32⟩
  | 97 => ⟨S_, .f32⟩
  | 98 => ⟨S256x126x1, .f32⟩
  | 99 => ⟨S256x126x1, .f32⟩
  | 100 => ⟨S256x126x126, .f32⟩
  | 101 => ⟨S256x126x126, .f32⟩
  | 102 => ⟨S256x126x1, .f32⟩
  | 103 => ⟨S256x126x1, .f32⟩
  | 104 => ⟨S256x126x1, .f32⟩
  | 105 => ⟨S_, .f32⟩
  | 106 => ⟨S256x126x1, .f32⟩
  | 107 => ⟨S256x126x1, .f32⟩
  | 108 => ⟨S256x126x124, .f32⟩
  | 109 => ⟨S256x126x124, .f32⟩
  | 110 => ⟨S256x126x124, .f32⟩
  | 111 => ⟨S_, .f32⟩
  | 112 => ⟨S256x126x124, .f32⟩
  | 113 => ⟨S256x126x124, .f32⟩
  | 114 => ⟨S256x126x1, .f32⟩
  | 115 => ⟨S256x126x1, .f32⟩
  | 116 => ⟨S256x126x1, .f32⟩
  | 117 => ⟨S_, .f32⟩
  | 118 => ⟨S256x126x1, .f32⟩
  | 119 => ⟨S256x126x1, .f32⟩
  | 120 => ⟨S256x126x126, .f32⟩
  | 121 => ⟨S256x126x126, .f32⟩
  | 122 => ⟨S256x126x1, .f32⟩
  | 123 => ⟨S256x126x1, .f32⟩
  | 124 => ⟨S256x126x1, .f32⟩
  | 125 => ⟨S_, .f32⟩
  | 126 => ⟨S256x126x1, .f32⟩
  | 127 => ⟨S256x126x1, .f32⟩
  | _ => ⟨S256x1x128x128, .f32⟩

abbrev hbmTy0_1 (i : Nat) : BufTy := match i % 128 with
  | 0 => ⟨S256x126x124, .f32⟩
  | 1 => ⟨S256x126x124, .f32⟩
  | 2 => ⟨S256x126x124, .f32⟩
  | 3 => ⟨S_, .f32⟩
  | 4 => ⟨S256x126x124, .f32⟩
  | 5 => ⟨S256x126x124, .f32⟩
  | 6 => ⟨S256x126x1, .f32⟩
  | 7 => ⟨S256x126x1, .f32⟩
  | 8 => ⟨S256x126x1, .f32⟩
  | 9 => ⟨S_, .f32⟩
  | 10 => ⟨S256x126x1, .f32⟩
  | 11 => ⟨S256x126x1, .f32⟩
  | 12 => ⟨S256x126x126, .f32⟩
  | 13 => ⟨S256x126x126, .f32⟩
  | 14 => ⟨S256x126x1, .f32⟩
  | 15 => ⟨S256x126x1, .f32⟩
  | 16 => ⟨S256x126x1, .f32⟩
  | 17 => ⟨S_, .f32⟩
  | 18 => ⟨S256x126x1, .f32⟩
  | 19 => ⟨S256x126x1, .f32⟩
  | 20 => ⟨S256x126x124, .f32⟩
  | 21 => ⟨S256x126x124, .f32⟩
  | 22 => ⟨S256x126x124, .f32⟩
  | 23 => ⟨S_, .f32⟩
  | 24 => ⟨S256x126x124, .f32⟩
  | 25 => ⟨S256x126x124, .f32⟩
  | 26 => ⟨S256x126x1, .f32⟩
  | 27 => ⟨S256x126x1, .f32⟩
  | 28 => ⟨S256x126x1, .f32⟩
  | 29 => ⟨S_, .f32⟩
  | 30 => ⟨S256x126x1, .f32⟩
  | 31 => ⟨S256x126x1, .f32⟩
  | 32 => ⟨S256x126x126, .f32⟩
  | 33 => ⟨S256x126x126, .f32⟩
  | 34 => ⟨S256x126x1, .f32⟩
  | 35 => ⟨S256x126x1, .f32⟩
  | 36 => ⟨S256x126x1, .f32⟩
  | 37 => ⟨S_, .f32⟩
  | 38 => ⟨S256x126x1, .f32⟩
  | 39 => ⟨S256x126x1, .f32⟩
  | 40 => ⟨S256x126x124, .f32⟩
  | 41 => ⟨S256x126x124, .f32⟩
  | 42 => ⟨S256x126x124, .f32⟩
  | 43 => ⟨S_, .f32⟩
  | 44 => ⟨S256x126x124, .f32⟩
  | 45 => ⟨S256x126x124, .f32⟩
  | 46 => ⟨S256x126x1, .f32⟩
  | 47 => ⟨S256x126x1, .f32⟩
  | 48 => ⟨S256x126x1, .f32⟩
  | 49 => ⟨S_, .f32⟩
  | 50 => ⟨S256x126x1, .f32⟩
  | 51 => ⟨S256x126x1, .f32⟩
  | 52 => ⟨S256x126x126, .f32⟩
  | 53 => ⟨S256x126x126, .f32⟩
  | 54 => ⟨S256x126x1, .f32⟩
  | 55 => ⟨S256x126x1, .f32⟩
  | 56 => ⟨S256x126x1, .f32⟩
  | 57 => ⟨S_, .f32⟩
  | 58 => ⟨S256x126x1, .f32⟩
  | 59 => ⟨S256x126x1, .f32⟩
  | 60 => ⟨S256x126x124, .f32⟩
  | 61 => ⟨S256x126x124, .f32⟩
  | 62 => ⟨S256x126x124, .f32⟩
  | 63 => ⟨S_, .f32⟩
  | 64 => ⟨S256x126x124, .f32⟩
  | 65 => ⟨S256x126x124, .f32⟩
  | 66 => ⟨S256x126x1, .f32⟩
  | 67 => ⟨S256x126x1, .f32⟩
  | 68 => ⟨S256x126x1, .f32⟩
  | 69 => ⟨S_, .f32⟩
  | 70 => ⟨S256x126x1, .f32⟩
  | 71 => ⟨S256x126x1, .f32⟩
  | 72 => ⟨S256x126x126, .f32⟩
  | 73 => ⟨S256x126x126, .f32⟩
  | 74 => ⟨S256x126x1, .f32⟩
  | 75 => ⟨S256x126x1, .f32⟩
  | 76 => ⟨S256x126x1, .f32⟩
  | 77 => ⟨S_, .f32⟩
  | 78 => ⟨S256x126x1, .f32⟩
  | 79 => ⟨S256x126x1, .f32⟩
  | 80 => ⟨S256x126x124, .f32⟩
  | 81 => ⟨S256x126x124, .f32⟩
  | 82 => ⟨S256x126x124, .f32⟩
  | 83 => ⟨S_, .f32⟩
  | 84 => ⟨S256x126x124, .f32⟩
  | 85 => ⟨S256x126x124, .f32⟩
  | 86 => ⟨S256x126x1, .f32⟩
  | 87 => ⟨S256x126x1, .f32⟩
  | 88 => ⟨S256x126x1, .f32⟩
  | 89 => ⟨S_, .f32⟩
  | 90 => ⟨S256x126x1, .f32⟩
  | 91 => ⟨S256x126x1, .f32⟩
  | 92 => ⟨S256x126x126, .f32⟩
  | 93 => ⟨S256x126x126, .f32⟩
  | 94 => ⟨S256x126x1, .f32⟩
  | 95 => ⟨S256x126x1, .f32⟩
  | 96 => ⟨S256x126x1, .f32⟩
  | 97 => ⟨S_, .f32⟩
  | 98 => ⟨S256x126x1, .f32⟩
  | 99 => ⟨S256x126x1, .f32⟩
  | 100 => ⟨S256x126x124, .f32⟩
  | 101 => ⟨S256x126x124, .f32⟩
  | 102 => ⟨S256x126x124, .f32⟩
  | 103 => ⟨S_, .f32⟩
  | 104 => ⟨S256x126x124, .f32⟩
  | 105 => ⟨S256x126x124, .f32⟩
  | 106 => ⟨S256x126x1, .f32⟩
  | 107 => ⟨S256x126x1, .f32⟩
  | 108 => ⟨S256x126x1, .f32⟩
  | 109 => ⟨S_, .f32⟩
  | 110 => ⟨S256x126x1, .f32⟩
  | 111 => ⟨S256x126x1, .f32⟩
  | 112 => ⟨S256x126x126, .f32⟩
  | 113 => ⟨S256x126x126, .f32⟩
  | 114 => ⟨S256x126x1, .f32⟩
  | 115 => ⟨S256x126x1, .f32⟩
  | 116 => ⟨S256x126x1, .f32⟩
  | 117 => ⟨S_, .f32⟩
  | 118 => ⟨S256x126x1, .f32⟩
  | 119 => ⟨S256x126x1, .f32⟩
  | 120 => ⟨S256x126x124, .f32⟩
  | 121 => ⟨S256x126x124, .f32⟩
  | 122 => ⟨S256x126x124, .f32⟩
  | 123 => ⟨S_, .f32⟩
  | 124 => ⟨S256x126x124, .f32⟩
  | 125 => ⟨S256x126x124, .f32⟩
  | 126 => ⟨S256x126x1, .f32⟩
  | 127 => ⟨S256x126x1, .f32⟩
  | _ => ⟨S256x1x128x128, .f32⟩

abbrev hbmTy0_2 (i : Nat) : BufTy := match i % 128 with
  | 0 => ⟨S256x126x1, .f32⟩
  | 1 => ⟨S_, .f32⟩
  | 2 => ⟨S256x126x1, .f32⟩
  | 3 => ⟨S256x126x1, .f32⟩
  | 4 => ⟨S256x126x126, .f32⟩
  | 5 => ⟨S256x126x126, .f32⟩
  | 6 => ⟨S256x126x1, .f32⟩
  | 7 => ⟨S256x126x1, .f32⟩
  | 8 => ⟨S256x126x1, .f32⟩
  | 9 => ⟨S_, .f32⟩
  | 10 => ⟨S256x126x1, .f32⟩
  | 11 => ⟨S256x126x1, .f32⟩
  | 12 => ⟨S256x126x124, .f32⟩
  | 13 => ⟨S256x126x124, .f32⟩
  | 14 => ⟨S256x126x124, .f32⟩
  | 15 => ⟨S_, .f32⟩
  | 16 => ⟨S256x126x124, .f32⟩
  | 17 => ⟨S256x126x124, .f32⟩
  | 18 => ⟨S256x126x1, .f32⟩
  | 19 => ⟨S256x126x1, .f32⟩
  | 20 => ⟨S256x126x1, .f32⟩
  | 21 => ⟨S_, .f32⟩
  | 22 => ⟨S256x126x1, .f32⟩
  | 23 => ⟨S256x126x1, .f32⟩
  | 24 => ⟨S256x126x126, .f32⟩
  | 25 => ⟨S256x126x126, .f32⟩
  | 26 => ⟨S256x126x126, .f32⟩
  | 27 => ⟨S256x126x126, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S256x126x126, .f32⟩
  | 35 => ⟨S256x126x126, .f32⟩
  | 36 => ⟨S256x126x126, .f32⟩
  | 37 => ⟨S_, .f32⟩
  | 38 => ⟨S256x126x126, .f32⟩
  | 39 => ⟨S256x126x126, .f32⟩
  | 40 => ⟨S256x126x126, .f32⟩
  | 41 => ⟨S256x126x126, .f32⟩
  | 42 => ⟨S_, .f32⟩
  | 43 => ⟨S256x126x126, .f32⟩
  | 44 => ⟨S256x126x126, .f32⟩
  | 45 => ⟨S_, .f32⟩
  | 46 => ⟨S256x126x126, .f32⟩
  | 47 => ⟨S256x126x126, .f32⟩
  | 48 => ⟨S256x126x126, .f32⟩
  | 49 => ⟨S256x126x126, .f32⟩
  | 50 => ⟨S_, .f32⟩
  | 51 => ⟨S256x126x126, .f32⟩
  | 52 => ⟨S256x126x126, .f32⟩
  | 53 => ⟨S256x126x126, .f32⟩
  | 54 => ⟨S256x126x126, .f32⟩
  | 55 => ⟨S256x126x126, .f32⟩
  | 56 => ⟨S256x126x126, .f32⟩
  | 57 => ⟨S_, .f32⟩
  | 58 => ⟨S256x126x126, .f32⟩
  | 59 => ⟨S256x126x126, .f32⟩
  | 60 => ⟨S256x126x126, .f32⟩
  | 61 => ⟨S256x126x126, .f32⟩
  | 62 => ⟨S_, .f32⟩
  | 63 => ⟨S256x126x126, .f32⟩
  | 64 => ⟨S256x126x126, .f32⟩
  | 65 => ⟨S_, .f32⟩
  | 66 => ⟨S256x126x126, .f32⟩
  | 67 => ⟨S256x126x126, .f32⟩
  | 68 => ⟨S256x126x126, .f32⟩
  | 69 => ⟨S256x126x126, .f32⟩
  | 70 => ⟨S_, .f32⟩
  | 71 => ⟨S256x126x126, .f32⟩
  | 72 => ⟨S256x126x126, .f32⟩
  | 73 => ⟨S256x126x126, .f32⟩
  | 74 => ⟨S256x126x126, .f32⟩
  | 75 => ⟨S_, .f32⟩
  | 76 => ⟨S256, .f32⟩
  | 77 => ⟨S_, .f32⟩
  | 78 => ⟨S256, .f32⟩
  | 79 => ⟨S256, .f32⟩
  | 80 => ⟨S256x126x126, .f32⟩
  | 81 => ⟨S_, .f32⟩
  | 82 => ⟨S256, .f32⟩
  | 83 => ⟨S_, .f32⟩
  | 84 => ⟨S256, .f32⟩
  | 85 => ⟨S256, .f32⟩
  | 86 => ⟨S256, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S252928, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | _ => ⟨S256x1x128x128, .f32⟩

abbrev hbmTy (i : Nat) : BufTy := match i / 128 with
  | 0 => hbmTy0_0 i
  | 1 => hbmTy0_1 i
  | 2 => hbmTy0_2 i
  | _ => ⟨S256x1x128x128, .f32⟩

abbrev bufTy : (tb : Table) → Fin (tcTables nBuf tb) → BufTy
  | .hbm, ⟨i, _⟩ => hbmTy i
  | _, _ => ⟨S256x1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_4 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_cst_5 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_6 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_7 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_8 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_9 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_cst_10 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_cst_11 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_cst_12 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_cst_13 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_cst_14 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_15 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_cst_16 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_cst_17 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_cst_18 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_cst_19 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_cst_20 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_cst_21 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_cst_22 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_cst_23 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_cst_24 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_cst_25 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_cst_26 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_cst_27 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_cst_28 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_cst_29 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_cst_30 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_cst_31 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_cst_32 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_cst_33 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_cst_34 : Ref sig .tc := ⟨.hbm, 284, rfl⟩
abbrev main_v246 : Ref sig .tc := ⟨.hbm, 285, rfl⟩
abbrev main_cst_35 : Ref sig .tc := ⟨.hbm, 286, rfl⟩
abbrev main_v247 : Ref sig .tc := ⟨.hbm, 287, rfl⟩
abbrev main_cst_36 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_cst_37 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_cst_38 : Ref sig .tc := ⟨.hbm, 298, rfl⟩
abbrev main_v256 : Ref sig .tc := ⟨.hbm, 299, rfl⟩
abbrev main_v257 : Ref sig .tc := ⟨.hbm, 300, rfl⟩
abbrev main_cst_39 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_cst_40 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_cst_41 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_cst_42 : Ref sig .tc := ⟨.hbm, 318, rfl⟩
abbrev main_v272 : Ref sig .tc := ⟨.hbm, 319, rfl⟩
abbrev main_v273 : Ref sig .tc := ⟨.hbm, 320, rfl⟩
abbrev main_cst_43 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_cst_44 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_cst_45 : Ref sig .tc := ⟨.hbm, 331, rfl⟩
abbrev main_v282 : Ref sig .tc := ⟨.hbm, 332, rfl⟩
abbrev main_cst_46 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_cst_47 : Ref sig .tc := ⟨.hbm, 337, rfl⟩
abbrev main_v286 : Ref sig .tc := ⟨.hbm, 338, rfl⟩
abbrev main_cst_48 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_cst_49 : Ref sig .tc := ⟨.hbm, 343, rfl⟩
abbrev main_v290 : Ref sig .tc := ⟨.hbm, 344, rfl⟩
abbrev main_cst_50 : Ref sig .tc := ⟨.hbm, 345, rfl⟩
abbrev main_v291 : Ref sig .tc := ⟨.hbm, 346, rfl⟩
abbrev main_cst_51 : Ref sig .tc := ⟨.hbm, 347, rfl⟩
abbrev main_v292 : Ref sig .tc := ⟨.hbm, 348, rfl⟩
abbrev main_cst_52 : Ref sig .tc := ⟨.hbm, 349, rfl⟩
abbrev main_v293 : Ref sig .tc := ⟨.hbm, 350, rfl⟩
abbrev main_v294 : Ref sig .tc := ⟨.hbm, 351, rfl⟩
abbrev main_cst_53 : Ref sig .tc := ⟨.hbm, 352, rfl⟩
abbrev main_v295 : Ref sig .tc := ⟨.hbm, 353, rfl⟩
abbrev main_cst_54 : Ref sig .tc := ⟨.hbm, 354, rfl⟩
abbrev main_v296 : Ref sig .tc := ⟨.hbm, 355, rfl⟩
abbrev main_cst_55 : Ref sig .tc := ⟨.hbm, 356, rfl⟩
abbrev main_v297 : Ref sig .tc := ⟨.hbm, 357, rfl⟩
abbrev main_cst_56 : Ref sig .tc := ⟨.hbm, 358, rfl⟩
abbrev main_v298 : Ref sig .tc := ⟨.hbm, 359, rfl⟩
abbrev main_cst_57 : Ref sig .tc := ⟨.hbm, 360, rfl⟩
abbrev main_v299 : Ref sig .tc := ⟨.hbm, 361, rfl⟩
abbrev main_v300 : Ref sig .tc := ⟨.hbm, 362, rfl⟩
abbrev main_cst_58 : Ref sig .tc := ⟨.hbm, 363, rfl⟩
abbrev main_v301 : Ref sig .tc := ⟨.hbm, 364, rfl⟩
abbrev main_v302 : Ref sig .tc := ⟨.hbm, 365, rfl⟩
abbrev main_cst_59 : Ref sig .tc := ⟨.hbm, 366, rfl⟩
abbrev main_v303 : Ref sig .tc := ⟨.hbm, 367, rfl⟩
abbrev main_v304 : Ref sig .tc := ⟨.hbm, 368, rfl⟩

abbrev nD : Nat := 1
abbrev τ : Topo := Topo.v7x

variable {F : FTy → Type} [FloatOps F]

class Facts₀ : Prop where
  reducesTo_S256x3x128x128_S_d0_1_2_3 : S256x3x128x128.ReducesTo [0, 1, 2, 3] S_
  h_S_ : 0 < S_.numel
  slices_S4_S1_0 : S4.Slices ![0] S1
  bcast_S1_S1x1x1x1_1 : S1.BroadcastsInDim S1x1x1x1 (![1] : Fin 1 → Fin S1x1x1x1.rank)
  bcast_S1x1x1x1_S256x1x128x128_0_1_2_3 : S1x1x1x1.BroadcastsInDim S256x1x128x128 (![0, 1, 2, 3] : Fin 4 → Fin S256x1x128x128.rank)
  slices_S4_S3_1 : S4.Slices ![1] S3
  bcast_S3_S1x3x1x1_1 : S3.BroadcastsInDim S1x3x1x1 (![1] : Fin 1 → Fin S1x3x1x1.rank)
  bcast_S1x3x1x1_S256x3x128x128_0_1_2_3 : S1x3x1x1.BroadcastsInDim S256x3x128x128 (![0, 1, 2, 3] : Fin 4 → Fin S256x3x128x128.rank)
  slices_S256x3x128x128_S256x1x18x1_0_1_55_0 : S256x3x128x128.Slices ![0, 1, 55, 0] S256x1x18x1
  shapeCasts_S256x1x18x1_S256x18 : S256x1x18x1.ShapeCasts S256x18
  shapeCasts_S256x18_S4608 : S256x18.ShapeCasts S4608
  bcast_S_S4608 : S_.BroadcastsInDim S4608 (![] : Fin 0 → Fin S4608.rank)
  slices_S256x3x128x128_S256x1x18x1_0_0_55_127 : S256x3x128x128.Slices ![0, 0, 55, 127] S256x1x18x1
  slices_S256x3x128x128_S256x1x1x128_0_1_0_0 : S256x3x128x128.Slices ![0, 1, 0, 0] S256x1x1x128
  shapeCasts_S256x1x1x128_S256x128 : S256x1x1x128.ShapeCasts S256x128
  shapeCasts_S256x128_S32768 : S256x128.ShapeCasts S32768
  slices_S256x3x128x128_S256x1x55x1_0_1_73_0 : S256x3x128x128.Slices ![0, 1, 73, 0] S256x1x55x1
  shapeCasts_S256x1x55x1_S256x55 : S256x1x55x1.ShapeCasts S256x55
  shapeCasts_S256x55_S14080 : S256x55.ShapeCasts S14080
  slices_S256x3x128x128_S256x1x55x1_0_1_0_0 : S256x3x128x128.Slices ![0, 1, 0, 0] S256x1x55x1
  slices_S256x3x128x128_S256x1x1x128_0_1_127_0 : S256x3x128x128.Slices ![0, 1, 127, 0] S256x1x1x128
  slices_S256x3x128x128_S256x1x55x1_0_1_73_127 : S256x3x128x128.Slices ![0, 1, 73, 127] S256x1x55x1
  slices_S256x3x128x128_S256x1x55x1_0_1_0_127 : S256x3x128x128.Slices ![0, 1, 0, 127] S256x1x55x1
  slices_S256x3x128x128_S256x1x1x128_0_2_0_0 : S256x3x128x128.Slices ![0, 2, 0, 0] S256x1x1x128
  slices_S256x3x128x128_S256x1x55x1_0_2_73_0 : S256x3x128x128.Slices ![0, 2, 73, 0] S256x1x55x1
  slices_S256x3x128x128_S256x1x55x1_0_2_0_0 : S256x3x128x128.Slices ![0, 2, 0, 0] S256x1x55x1
  slices_S256x3x128x128_S256x1x1x128_0_2_127_0 : S256x3x128x128.Slices ![0, 2, 127, 0] S256x1x1x128
  slices_S256x3x128x128_S256x1x55x1_0_2_73_127 : S256x3x128x128.Slices ![0, 2, 73, 127] S256x1x55x1
  slices_S256x3x128x128_S256x1x55x1_0_2_0_127 : S256x3x128x128.Slices ![0, 2, 0, 127] S256x1x55x1
  concatenates_S4608_S4608_S32768_S14080_S14080_S32768_S14080_S14080_S32768_S14080_S14080_S32768_S14080_S14080_S252928_d0 : Shape.Concatenates [S4608, S4608, S32768, S14080, S14080, S32768, S14080, S14080, S32768, S14080, S14080, S32768, S14080, S14080] S252928 0
  slices_S256x1x128x128_S256x1x126x126_0_0_1_1 : S256x1x128x128.Slices ![0, 0, 1, 1] S256x1x126x126
  slices_S256x3x128x128_S256x3x126x126_0_0_1_1 : S256x3x128x128.Slices ![0, 0, 1, 1] S256x3x126x126
  slices_S256x3x126x126_S256x1x126x126_0_0_0_0 : S256x3x126x126.Slices ![0, 0, 0, 0] S256x1x126x126
  shapeCasts_S256x1x126x126_S256x126x126 : S256x1x126x126.ShapeCasts S256x126x126
  slices_S256x3x126x126_S256x1x126x126_0_1_0_0 : S256x3x126x126.Slices ![0, 1, 0, 0] S256x1x126x126
  slices_S256x3x126x126_S256x1x126x126_0_2_0_0 : S256x3x126x126.Slices ![0, 2, 0, 0] S256x1x126x126
  slices_S256x126x126_S256x126x1_0_0_1 : S256x126x126.Slices ![0, 0, 1] S256x126x1
  slices_S256x126x126_S256x126x1_0_0_0 : S256x126x126.Slices ![0, 0, 0] S256x126x1
  bcast_S_S256x126x1 : S_.BroadcastsInDim S256x126x1 (![] : Fin 0 → Fin S256x126x1.rank)
  slices_S256x126x126_S256x126x124_0_0_2 : S256x126x126.Slices ![0, 0, 2] S256x126x124
  slices_S256x126x126_S256x126x124_0_0_0 : S256x126x126.Slices ![0, 0, 0] S256x126x124
  bcast_S_S256x126x124 : S_.BroadcastsInDim S256x126x124 (![] : Fin 0 → Fin S256x126x124.rank)
  slices_S256x126x126_S256x126x1_0_0_125 : S256x126x126.Slices ![0, 0, 125] S256x126x1
  slices_S256x126x126_S256x126x1_0_0_124 : S256x126x126.Slices ![0, 0, 124] S256x126x1
  concatenates_S256x126x1_S256x126x124_S256x126x1_S256x126x126_d2 : Shape.Concatenates [S256x126x1, S256x126x124, S256x126x1] S256x126x126 2
  transposes_S256x126x126_S256x126x126_0_2_1 : S256x126x126.Transposes [0, 2, 1] S256x126x126
  reducesTo_S256x126x126_S_d0_1_2 : S256x126x126.ReducesTo [0, 1, 2] S_
  bcast_S_S256x126x126 : S_.BroadcastsInDim S256x126x126 (![] : Fin 0 → Fin S256x126x126.rank)
  reducesTo_S256x126x126_S256_d1_2 : S256x126x126.ReducesTo [1, 2] S256
  bcast_S_S256 : S_.BroadcastsInDim S256 (![] : Fin 0 → Fin S256.rank)
  reducesTo_S256_S_d0 : S256.ReducesTo [0] S_
  reducesTo_S252928_S_d0 : S252928.ReducesTo [0] S_

variable [Facts₀]

class Facts : Prop extends Facts₀ where

variable [Facts]
-- ==== Proof.KernelTerms.lean ====
/-
  The kernel body's arithmetic, assembled: the value each of its five accumulating stores writes, as ONE pure
  function of the three input blocks of a grid point (eight samples of the batch) and of the running total the
  store reads back. The body computes, from the outputs block, the targets block and the inputs block, five partial
  sums (squared error, boundary residual, continuity, the two momentum residuals) and adds each to its total.
  The pieces are the generated payload functions, composed here along the body's data flow.
-/
import proofs.«121105_j56899726737553_2_alg».proof.Proof.Gen.KernelIdeal.Skeleton

noncomputable section

namespace Cert.KTerms

open Idealize.ShloMosaic Cert.KernelIdeal Cert.KernelIdeal.Gen

variable {F : FTy → Type} [FloatOps F]

/-- The interior crops: the inputs' one channel, the outputs' three channels, and the pressure channel. -/
def cropA (x0 : Vec F S8x1x128x128 .f32) : FVec F S8x1x126x126 .f32 := k0_pay15 x0
def cropO (x1 : Vec F S8x3x128x128 .f32) : FVec F S8x3x126x126 .f32 := k0_pay16 x1
def fP (x1 : Vec F S8x3x128x128 .f32) : FVec F S8x126x126 .f32 := k0_pay17 x1
def fU (x1 : Vec F S8x3x128x128 .f32) : FVec F S8x126x126 .f32 := k0_pay18 (cropO x1)
def fV (x1 : Vec F S8x3x128x128 .f32) : FVec F S8x126x126 .f32 := k0_pay19 (cropO x1)
def fA (x0 : Vec F S8x1x128x128 .f32) : FVec F S8x126x126 .f32 := k0_pay20 (cropA x0)

/-- The first derivatives (x along a row, y along a column). -/
def dPx (x1 : Vec F S8x3x128x128 .f32) : FVec F S8x126x126 .f32 := k0_pay21 (fP x1)
def dPy (x1 : Vec F S8x3x128x128 .f32) : FVec F S8x126x126 .f32 := k0_pay22 (fP x1)
def dUx (x1 : Vec F S8x3x128x128 .f32) : FVec F S8x126x126 .f32 :=
  k0_pay27 (k0_pay23 (cropO x1)) (k0_pay24 (cropO x1)) (k0_pay25 (cropO x1)) k0_pay26
def dUy (x1 : Vec F S8x3x128x128 .f32) : FVec F S8x126x126 .f32 := k0_pay28 (fU x1)
def dVx (x1 : Vec F S8x3x128x128 .f32) : FVec F S8x126x126 .f32 := k0_pay29 (fV x1)
def dVy (x1 : Vec F S8x3x128x128 .f32) : FVec F S8x126x126 .f32 := k0_pay30 (fV x1)

/-- The second derivatives. -/
def dUxx (x1 : Vec F S8x3x128x128 .f32) : FVec F S8x126x126 .f32 :=
  k0_pay32 (dUx x1) (k0_pay31 (k0_pay23 (cropO x1)) (k0_pay24 (cropO x1)) (k0_pay25 (cropO x1)) k0_pay26)
def dUyy (x1 : Vec F S8x3x128x128 .f32) : FVec F S8x126x126 .f32 := k0_pay33 (dUy x1)
def dVxx (x1 : Vec F S8x3x128x128 .f32) : FVec F S8x126x126 .f32 := k0_pay34 (dVx x1)

/-- The x-momentum residual, and the y-momentum residual short of its last term. -/
def resX (x0 : Vec F S8x1x128x128 .f32) (x1 : Vec F S8x3x128x128 .f32) : FVec F S8x126x126 .f32 :=
  k0_pay37 (fU x1) (fV x1) (fA x0) (dPx x1) (dUx x1) (dUy x1) (dUxx x1) (dUyy x1)
def resY0 (x1 : Vec F S8x3x128x128 .f32) : FVec F S8x126x126 .f32 :=
  k0_pay38 (fU x1) (fV x1) (dPy x1) (dVx x1) (dVy x1) (dVxx x1) (k0_pay35 (dVy x1)) (Scalar.ofBits .f32 0x3BCE69A0#32)

/-- The five partial sums of a grid point. -/
def pSq (x1 x2 : Vec F S8x3x128x128 .f32) : FVec F S1x1 .f32 := k0_pay7 x1 x2
def pBnd (x1 : Vec F S8x3x128x128 .f32) : FVec F S1x1 .f32 :=
  k0_pay14 x1 (k0_pay11 x1 (k0_pay8 x1) (k0_pay9 x1) (k0_pay10 x1)) (k0_pay12 x1) (k0_pay13 x1)
def pCont (x1 : Vec F S8x3x128x128 .f32) : FVec F S1x1 .f32 := k0_pay36 (dUx x1) (dVy x1)
def pNsy (x0 : Vec F S8x1x128x128 .f32) (x1 : Vec F S8x3x128x128 .f32) : FVec F S1x1 .f32 :=
  k0_pay39 (fV x1) (fA x0) (resY0 x1)

/-- What the five accumulating stores write: the total read back plus the point's partial sum. -/
def stSq (x1 x2 : Vec F S8x3x128x128 .f32) (xo : Vec F S1x1 .f32) : FVec F S1x1 .f32 := k0_pay40 (pSq x1 x2) xo
def stBnd (x1 : Vec F S8x3x128x128 .f32) (xo : Vec F S1x1 .f32) : FVec F S1x1 .f32 := k0_pay41 (pBnd x1) xo
def stCont (x1 : Vec F S8x3x128x128 .f32) (xo : Vec F S1x1 .f32) : FVec F S1x1 .f32 := k0_pay42 (pCont x1) xo
def stNsx (x0 : Vec F S8x1x128x128 .f32) (x1 : Vec F S8x3x128x128 .f32) (xo : Vec F S1x1 .f32) : FVec F S1x1 .f32 :=
  k0_pay43 (resX x0 x1) xo
def stNsy (x0 : Vec F S8x1x128x128 .f32) (x1 : Vec F S8x3x128x128 .f32) (xo : Vec F S1x1 .f32) : FVec F S1x1 .f32 :=
  k0_pay1 (pNsy x0 x1) xo

end Cert.KTerms

end
-- ==== Proof.KOut.lean ====
/-
  What one run of the kernel body leaves in each of the five one-entry totals. At the first grid point the body first
  stores a zero into every total and reads it back, so it leaves `0 + partial`; at every later point it reads the
  total the point before left and leaves `total + partial`. Here the body's stores, as the generated runs found them,
  are read back as those values: each total is covered by one whole-buffer store whose payload is the composed
  arithmetic of `KernelTerms` applied to the loaded blocks.
-/
import proofs.«121105_j56899726737553_2_alg».proof.Proof.Gen.KernelIdeal.Frame
import proofs.«121105_j56899726737553_2_alg».proof.Proof.KernelTerms
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KOut

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The zero the first point stores into each total. -/
abbrev zero : Vec F S1x1 .f32 := broadcast S1x1 (Scalar.ofBits .f32 0x00000000#32)

/-- A later point leaves, in total 0, the total it found plus its partial sum. -/
theorem outB3 (c : Dev nD) (i : grid0.Coords) (arg1 : Memref sig .tc .vmem S8x1x128x128 .f32) (harg1 : arg1.IsWhole) (arg2 : Memref sig .tc .vmem S8x3x128x128 .f32) (harg2 : arg2.IsWhole) (arg3 : Memref sig .tc .vmem S8x3x128x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i)
    (x0 : Vec F S8x1x128x128 .f32) (x1 : Vec F S8x3x128x128 .f32) (x2 : Vec F S8x3x128x128 .f32) (xo3 xo4 xo5 xo6 xo7 : Vec F S1x1 .f32) :
    out0_B_3 c i arg1 harg1 arg2 harg2 arg3 harg3 arg4 harg4 arg5 harg5 arg6 harg6 arg7 harg7 arg8 harg8 hc0 x0 x1 x2 xo3 xo4 xo5 xo6 xo7 = Cert.KTerms.stSq x1 x2 xo3 := by
  unfold out0_B_3
  rw [View.read_writes_eq_canon _ _ _ (cover0_B_3 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x1) hz2]
  simp only [View.readAt_eq_ld, harg1.read_unread, harg2.read_unread, harg3.read_unread, harg4.read_unread, harg5.read_unread,
    harg6.read_unread, harg7.read_unread, harg8.read_unread, View.ld_unit_zero (S := S8x3x128x128) hz4,
    View.ld_unit_zero (S := S8x1x128x128) hz4, View.ld_unit_zero (S := S1x1) hz2]
  rfl

/-- The first point leaves, in total 0, zero plus its partial sum. -/
theorem outA3 (c : Dev nD) (i : grid0.Coords) (arg1 : Memref sig .tc .vmem S8x1x128x128 .f32) (harg1 : arg1.IsWhole) (arg2 : Memref sig .tc .vmem S8x3x128x128 .f32) (harg2 : arg2.IsWhole) (arg3 : Memref sig .tc .vmem S8x3x128x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i)
    (x0 : Vec F S8x1x128x128 .f32) (x1 : Vec F S8x3x128x128 .f32) (x2 : Vec F S8x3x128x128 .f32) :
    out0_A_3 c i arg1 harg1 arg2 harg2 arg3 harg3 arg4 harg4 arg5 harg5 arg6 harg6 arg7 harg7 arg8 harg8 hc0 x0 x1 x2 = Cert.KTerms.stSq x1 x2 zero := by
  unfold out0_A_3
  rw [View.read_writes_eq_canon _ _ _ (cover0_A_3 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1) hz2]
  simp only [View.readCov_unit_zero (S := S1x1) _ hz2, View.readAt_eq_ld, harg1.read_unread, harg2.read_unread, harg3.read_unread,
    View.ld_unit_zero (S := S8x3x128x128) hz4, View.ld_unit_zero (S := S8x1x128x128) hz4]
  rfl

/-- A later point leaves, in total 1, the total it found plus its partial sum. -/
theorem outB4 (c : Dev nD) (i : grid0.Coords) (arg1 : Memref sig .tc .vmem S8x1x128x128 .f32) (harg1 : arg1.IsWhole) (arg2 : Memref sig .tc .vmem S8x3x128x128 .f32) (harg2 : arg2.IsWhole) (arg3 : Memref sig .tc .vmem S8x3x128x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i)
    (x0 : Vec F S8x1x128x128 .f32) (x1 : Vec F S8x3x128x128 .f32) (x2 : Vec F S8x3x128x128 .f32) (xo3 xo4 xo5 xo6 xo7 : Vec F S1x1 .f32) :
    out0_B_4 c i arg1 harg1 arg2 harg2 arg3 harg3 arg4 harg4 arg5 harg5 arg6 harg6 arg7 harg7 arg8 harg8 hc0 x0 x1 x2 xo3 xo4 xo5 xo6 xo7 = Cert.KTerms.stBnd x1 xo4 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x1) hz2]
  simp only [View.readAt_eq_ld, harg1.read_unread, harg2.read_unread, harg3.read_unread, harg4.read_unread, harg5.read_unread,
    harg6.read_unread, harg7.read_unread, harg8.read_unread, View.ld_unit_zero (S := S8x3x128x128) hz4,
    View.ld_unit_zero (S := S8x1x128x128) hz4, View.ld_unit_zero (S := S1x1) hz2]
  rfl

/-- The first point leaves, in total 1, zero plus its partial sum. -/
theorem outA4 (c : Dev nD) (i : grid0.Coords) (arg1 : Memref sig .tc .vmem S8x1x128x128 .f32) (harg1 : arg1.IsWhole) (arg2 : Memref sig .tc .vmem S8x3x128x128 .f32) (harg2 : arg2.IsWhole) (arg3 : Memref sig .tc .vmem S8x3x128x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i)
    (x0 : Vec F S8x1x128x128 .f32) (x1 : Vec F S8x3x128x128 .f32) (x2 : Vec F S8x3x128x128 .f32) :
    out0_A_4 c i arg1 harg1 arg2 harg2 arg3 harg3 arg4 harg4 arg5 harg5 arg6 harg6 arg7 harg7 arg8 harg8 hc0 x0 x1 x2 = Cert.KTerms.stBnd x1 zero := by
  unfold out0_A_4
  rw [View.read_writes_eq_canon _ _ _ (cover0_A_4 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1) hz2]
  simp only [View.readCov_unit_zero (S := S1x1) _ hz2, View.readAt_eq_ld, harg1.read_unread, harg2.read_unread, harg3.read_unread,
    View.ld_unit_zero (S := S8x3x128x128) hz4, View.ld_unit_zero (S := S8x1x128x128) hz4]
  rfl

/-- A later point leaves, in total 2, the total it found plus its partial sum. -/
theorem outB5 (c : Dev nD) (i : grid0.Coords) (arg1 : Memref sig .tc .vmem S8x1x128x128 .f32) (harg1 : arg1.IsWhole) (arg2 : Memref sig .tc .vmem S8x3x128x128 .f32) (harg2 : arg2.IsWhole) (arg3 : Memref sig .tc .vmem S8x3x128x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i)
    (x0 : Vec F S8x1x128x128 .f32) (x1 : Vec F S8x3x128x128 .f32) (x2 : Vec F S8x3x128x128 .f32) (xo3 xo4 xo5 xo6 xo7 : Vec F S1x1 .f32) :
    out0_B_5 c i arg1 harg1 arg2 harg2 arg3 harg3 arg4 harg4 arg5 harg5 arg6 harg6 arg7 harg7 arg8 harg8 hc0 x0 x1 x2 xo3 xo4 xo5 xo6 xo7 = Cert.KTerms.stCont x1 xo5 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x1) hz2]
  simp only [View.readAt_eq_ld, harg1.read_unread, harg2.read_unread, harg3.read_unread, harg4.read_unread, harg5.read_unread,
    harg6.read_unread, harg7.read_unread, harg8.read_unread, View.ld_unit_zero (S := S8x3x128x128) hz4,
    View.ld_unit_zero (S := S8x1x128x128) hz4, View.ld_unit_zero (S := S1x1) hz2]
  rfl

/-- The first point leaves, in total 2, zero plus its partial sum. -/
theorem outA5 (c : Dev nD) (i : grid0.Coords) (arg1 : Memref sig .tc .vmem S8x1x128x128 .f32) (harg1 : arg1.IsWhole) (arg2 : Memref sig .tc .vmem S8x3x128x128 .f32) (harg2 : arg2.IsWhole) (arg3 : Memref sig .tc .vmem S8x3x128x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i)
    (x0 : Vec F S8x1x128x128 .f32) (x1 : Vec F S8x3x128x128 .f32) (x2 : Vec F S8x3x128x128 .f32) :
    out0_A_5 c i arg1 harg1 arg2 harg2 arg3 harg3 arg4 harg4 arg5 harg5 arg6 harg6 arg7 harg7 arg8 harg8 hc0 x0 x1 x2 = Cert.KTerms.stCont x1 zero := by
  unfold out0_A_5
  rw [View.read_writes_eq_canon _ _ _ (cover0_A_5 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1) hz2]
  simp only [View.readCov_unit_zero (S := S1x1) _ hz2, View.readAt_eq_ld, harg1.read_unread, harg2.read_unread, harg3.read_unread,
    View.ld_unit_zero (S := S8x3x128x128) hz4, View.ld_unit_zero (S := S8x1x128x128) hz4]
  rfl

/-- A later point leaves, in total 3, the total it found plus its partial sum. -/
theorem outB6 (c : Dev nD) (i : grid0.Coords) (arg1 : Memref sig .tc .vmem S8x1x128x128 .f32) (harg1 : arg1.IsWhole) (arg2 : Memref sig .tc .vmem S8x3x128x128 .f32) (harg2 : arg2.IsWhole) (arg3 : Memref sig .tc .vmem S8x3x128x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i)
    (x0 : Vec F S8x1x128x128 .f32) (x1 : Vec F S8x3x128x128 .f32) (x2 : Vec F S8x3x128x128 .f32) (xo3 xo4 xo5 xo6 xo7 : Vec F S1x1 .f32) :
    out0_B_6 c i arg1 harg1 arg2 harg2 arg3 harg3 arg4 harg4 arg5 harg5 arg6 harg6 arg7 harg7 arg8 harg8 hc0 x0 x1 x2 xo3 xo4 xo5 xo6 xo7 = Cert.KTerms.stNsx x0 x1 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x1) hz2]
  simp only [View.readAt_eq_ld, harg1.read_unread, harg2.read_unread, harg3.read_unread, harg4.read_unread, harg5.read_unread,
    harg6.read_unread, harg7.read_unread, harg8.read_unread, View.ld_unit_zero (S := S8x3x128x128) hz4,
    View.ld_unit_zero (S := S8x1x128x128) hz4, View.ld_unit_zero (S := S1x1) hz2]
  rfl

/-- The first point leaves, in total 3, zero plus its partial sum. -/
theorem outA6 (c : Dev nD) (i : grid0.Coords) (arg1 : Memref sig .tc .vmem S8x1x128x128 .f32) (harg1 : arg1.IsWhole) (arg2 : Memref sig .tc .vmem S8x3x128x128 .f32) (harg2 : arg2.IsWhole) (arg3 : Memref sig .tc .vmem S8x3x128x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i)
    (x0 : Vec F S8x1x128x128 .f32) (x1 : Vec F S8x3x128x128 .f32) (x2 : Vec F S8x3x128x128 .f32) :
    out0_A_6 c i arg1 harg1 arg2 harg2 arg3 harg3 arg4 harg4 arg5 harg5 arg6 harg6 arg7 harg7 arg8 harg8 hc0 x0 x1 x2 = Cert.KTerms.stNsx x0 x1 zero := by
  unfold out0_A_6
  rw [View.read_writes_eq_canon _ _ _ (cover0_A_6 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1) hz2]
  simp only [View.readCov_unit_zero (S := S1x1) _ hz2, View.readAt_eq_ld, harg1.read_unread, harg2.read_unread, harg3.read_unread,
    View.ld_unit_zero (S := S8x3x128x128) hz4, View.ld_unit_zero (S := S8x1x128x128) hz4]
  rfl

/-- A later point leaves, in total 4, the total it found plus its partial sum. -/
theorem outB7 (c : Dev nD) (i : grid0.Coords) (arg1 : Memref sig .tc .vmem S8x1x128x128 .f32) (harg1 : arg1.IsWhole) (arg2 : Memref sig .tc .vmem S8x3x128x128 .f32) (harg2 : arg2.IsWhole) (arg3 : Memref sig .tc .vmem S8x3x128x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i)
    (x0 : Vec F S8x1x128x128 .f32) (x1 : Vec F S8x3x128x128 .f32) (x2 : Vec F S8x3x128x128 .f32) (xo3 xo4 xo5 xo6 xo7 : Vec F S1x1 .f32) :
    out0_B_7 c i arg1 harg1 arg2 harg2 arg3 harg3 arg4 harg4 arg5 harg5 arg6 harg6 arg7 harg7 arg8 harg8 hc0 x0 x1 x2 xo3 xo4 xo5 xo6 xo7 = Cert.KTerms.stNsy x0 x1 xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x1) hz2]
  simp only [View.readAt_eq_ld, harg1.read_unread, harg2.read_unread, harg3.read_unread, harg4.read_unread, harg5.read_unread,
    harg6.read_unread, harg7.read_unread, harg8.read_unread, View.ld_unit_zero (S := S8x3x128x128) hz4,
    View.ld_unit_zero (S := S8x1x128x128) hz4, View.ld_unit_zero (S := S1x1) hz2]
  rfl

/-- The first point leaves, in total 4, zero plus its partial sum. -/
theorem outA7 (c : Dev nD) (i : grid0.Coords) (arg1 : Memref sig .tc .vmem S8x1x128x128 .f32) (harg1 : arg1.IsWhole) (arg2 : Memref sig .tc .vmem S8x3x128x128 .f32) (harg2 : arg2.IsWhole) (arg3 : Memref sig .tc .vmem S8x3x128x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i)
    (x0 : Vec F S8x1x128x128 .f32) (x1 : Vec F S8x3x128x128 .f32) (x2 : Vec F S8x3x128x128 .f32) :
    out0_A_7 c i arg1 harg1 arg2 harg2 arg3 harg3 arg4 harg4 arg5 harg5 arg6 harg6 arg7 harg7 arg8 harg8 hc0 x0 x1 x2 = Cert.KTerms.stNsy x0 x1 zero := by
  unfold out0_A_7
  rw [View.read_writes_eq_canon _ _ _ (cover0_A_7 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1) hz2]
  simp only [View.readCov_unit_zero (S := S1x1) _ hz2, View.readAt_eq_ld, harg1.read_unread, harg2.read_unread, harg3.read_unread,
    View.ld_unit_zero (S := S8x3x128x128) hz4, View.ld_unit_zero (S := S8x1x128x128) hz4]
  rfl

end Cert.KOut

end
-- ==== Proof.KAccum.lean ====
/-
  The five totals across the grid. After the first point total `k` holds `0 + partialₖ(0)`; after point `n + 1` it
  holds what it held after point `n` plus `partialₖ(n + 1)`: a left fold over the 32 points, each point's partial
  sum a function of that point's three input blocks. The generated run states the totals by recursion on the point
  over the cases its execution found; by induction on the point they are these folds. Only the last point writes
  the totals back, each total's one-entry block being its whole one-entry array, so the five result arrays end at the
  folds after point 31.
-/
import proofs.«121105_j56899726737553_2_alg».proof.Proof.KOut

noncomputable section

open Idealize.ShloMosaic Idealize.ShloMosaic.TcCoe Idealize.SL.Sem
open Idealize.ShloMosaic.Pipeline (Dat)

namespace Cert.KAcc

open Cert.KernelIdeal Cert.KernelIdeal.Gen Cert.KTerms Cert.KOut

variable {F : FTy → Type} [FloatOps F]
variable (m : (ℓ : Loc nD τ sig) → Buf (Elt F) ℓ) (ρ : Dev nD → PrngReg)

/-- Total 0 after point `n`. -/
def acc3 (c : Dev nD) : (n : ℕ) → n < cfg0.N → Vec F S1x1 .f32
  | 0, h => stSq (iblk m c 1 ⟨0, h⟩) (iblk m c 2 ⟨0, h⟩) zero
  | n + 1, h => stSq (iblk m c 1 ⟨n + 1, h⟩) (iblk m c 2 ⟨n + 1, h⟩) (acc3 c n (Nat.lt_of_succ_lt h))

/-- Total 1 after point `n`. -/
def acc4 (c : Dev nD) : (n : ℕ) → n < cfg0.N → Vec F S1x1 .f32
  | 0, h => stBnd (iblk m c 1 ⟨0, h⟩) zero
  | n + 1, h => stBnd (iblk m c 1 ⟨n + 1, h⟩) (acc4 c n (Nat.lt_of_succ_lt h))

/-- Total 2 after point `n`. -/
def acc5 (c : Dev nD) : (n : ℕ) → n < cfg0.N → Vec F S1x1 .f32
  | 0, h => stCont (iblk m c 1 ⟨0, h⟩) zero
  | n + 1, h => stCont (iblk m c 1 ⟨n + 1, h⟩) (acc5 c n (Nat.lt_of_succ_lt h))

/-- Total 3 after point `n`. -/
def acc6 (c : Dev nD) : (n : ℕ) → n < cfg0.N → Vec F S1x1 .f32
  | 0, h => stNsx (iblk m c 0 ⟨0, h⟩) (iblk m c 1 ⟨0, h⟩) zero
  | n + 1, h => stNsx (iblk m c 0 ⟨n + 1, h⟩) (iblk m c 1 ⟨n + 1, h⟩) (acc6 c n (Nat.lt_of_succ_lt h))

/-- Total 4 after point `n`. -/
def acc7 (c : Dev nD) : (n : ℕ) → n < cfg0.N → Vec F S1x1 .f32
  | 0, h => stNsy (iblk m c 0 ⟨0, h⟩) (iblk m c 1 ⟨0, h⟩) zero
  | n + 1, h => stNsy (iblk m c 0 ⟨n + 1, h⟩) (iblk m c 1 ⟨n + 1, h⟩) (acc7 c n (Nat.lt_of_succ_lt h))

/-- The totals the generated run states, point by point, are the folds. -/
theorem outsAt_eq (c : Dev nD) : ∀ (n : ℕ) (h : n < cfg0.N),
    outsAt0 m c n h = (acc3 m c n h, acc4 m c n h, acc5 m c n h, acc6 m c n h, acc7 m c n h)
  | 0, h => by
    rw [outsAt0_A m c ⟨0, h⟩ rfl, outA3, outA4, outA5, outA6, outA7]
    rfl
  | n + 1, h => by
    have hN : cfg0.N = 32 := N_0
    have hB : ¬(⟨n + 1, h⟩ : Fin cfg0.N).val % 32 = 0 := by dsimp only; omega
    rw [outsAt0_B m c ⟨n + 1, h⟩ hB, outB3, outB4, outB5, outB6, outB7]
    have ih := outsAt_eq c n (Nat.lt_of_succ_lt h)
    show (stSq _ _ (outsAt0 m c n _).1, stBnd _ (outsAt0 m c n _).2.1, stCont _ (outsAt0 m c n _).2.2.1,
      stNsx _ _ (outsAt0 m c n _).2.2.2.1, stNsy _ _ (outsAt0 m c n _).2.2.2.2) = _
    rw [ih]
    rfl

end Cert.KAcc

end
-- ==== Proof.KFinal.lean ====
/-
  The five result arrays of the region. Each total's window has one block, the whole one-entry array, written back at
  the last grid point only; so each result array ends holding its total after point 31.
-/
import proofs.«121105_j56899726737553_2_alg».proof.Proof.KAccum

noncomputable section

open Idealize.ShloMosaic Idealize.ShloMosaic.TcCoe Idealize.SL.Sem
open Idealize.ShloMosaic.Pipeline (Dat)

namespace Cert.KAcc

open Cert.KernelIdeal Cert.KernelIdeal.Gen Cert.KTerms Cert.KOut

variable {F : FTy → Type} [FloatOps F]
variable (m : (ℓ : Loc nD τ sig) → Buf (Elt F) ℓ) (ρ : Dev nD → PrngReg)

theorem h31 : 31 < cfg0.N := by rw [show cfg0.N = 32 from N_0]; decide
/-- The last grid point. -/
abbrev tLast : Fin cfg0.N := ⟨31, h31⟩

/-- Total 0 after the last point, as contents of its result array. -/
abbrev res3 (c : Dev nD) : Buf (Elt F) ((c : Thread nD τ).loc main_v0_0) := acc3 m c 31 h31

theorem flushed_eq3 (c : Dev nD) (t : Fin cfg0.N) (hf : (cfg0.win 3).flush t = true) :
    (dats m 0 c).flushed 3 t = ((cfg0.win 3).blk t).view.read (Elt F) (res3 m c) := by
  have hN : cfg0.N = 32 := N_0
  have h : t.val = 31 := by have := (flush0_3 t).mp hf; have := t.isLt; omega
  obtain rfl : t = tLast := Fin.ext h
  show (cfg0.win 3).cut (grid0.coords tLast) ((dats m 0 c).after 3 tLast) = _
  rw [after0_3, outsAt_eq]
  have hz' : (fun a => win0_3.index tLast a * (main_v0_0 : Ref sig .tc).ty.shape.size a) = fun _ => 0 :=
    funext fun a => by fin_cases a <;> decide
  exact (Memref.read_access_unit_zero (Elt F) main_v0_0 hz' (fun a => by rw [congrFun hz' a]; simp) (res3 m c)).symm

theorem final3 (c : Dev nD) : (dats m 0 c).arrAt 3 cfg0.N = res3 m c :=
  (dats m 0 c).arrAt_eq_of_cover 3 (res3 m c) (flushed_eq3 m c) fun i =>
    ⟨tLast, (flush0_3 tLast).mpr rfl, by
      show i ∈ ((View.whole main_v0_0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- Total 1 after the last point, as contents of its result array. -/
abbrev res4 (c : Dev nD) : Buf (Elt F) ((c : Thread nD τ).loc main_v0_1) := acc4 m c 31 h31

theorem flushed_eq4 (c : Dev nD) (t : Fin cfg0.N) (hf : (cfg0.win 4).flush t = true) :
    (dats m 0 c).flushed 4 t = ((cfg0.win 4).blk t).view.read (Elt F) (res4 m c) := by
  have hN : cfg0.N = 32 := N_0
  have h : t.val = 31 := by have := (flush0_4 t).mp hf; have := t.isLt; omega
  obtain rfl : t = tLast := Fin.ext h
  show (cfg0.win 4).cut (grid0.coords tLast) ((dats m 0 c).after 4 tLast) = _
  rw [after0_4, outsAt_eq]
  have hz' : (fun a => win0_4.index tLast a * (main_v0_1 : Ref sig .tc).ty.shape.size a) = fun _ => 0 :=
    funext fun a => by fin_cases a <;> decide
  exact (Memref.read_access_unit_zero (Elt F) main_v0_1 hz' (fun a => by rw [congrFun hz' a]; simp) (res4 m c)).symm

theorem final4 (c : Dev nD) : (dats m 0 c).arrAt 4 cfg0.N = res4 m c :=
  (dats m 0 c).arrAt_eq_of_cover 4 (res4 m c) (flushed_eq4 m c) fun i =>
    ⟨tLast, (flush0_4 tLast).mpr rfl, by
      show i ∈ ((View.whole main_v0_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- Total 2 after the last point, as contents of its result array. -/
abbrev res5 (c : Dev nD) : Buf (Elt F) ((c : Thread nD τ).loc main_v0_2) := acc5 m c 31 h31

theorem flushed_eq5 (c : Dev nD) (t : Fin cfg0.N) (hf : (cfg0.win 5).flush t = true) :
    (dats m 0 c).flushed 5 t = ((cfg0.win 5).blk t).view.read (Elt F) (res5 m c) := by
  have hN : cfg0.N = 32 := N_0
  have h : t.val = 31 := by have := (flush0_5 t).mp hf; have := t.isLt; omega
  obtain rfl : t = tLast := Fin.ext h
  show (cfg0.win 5).cut (grid0.coords tLast) ((dats m 0 c).after 5 tLast) = _
  rw [after0_5, outsAt_eq]
  have hz' : (fun a => win0_5.index tLast a * (main_v0_2 : Ref sig .tc).ty.shape.size a) = fun _ => 0 :=
    funext fun a => by fin_cases a <;> decide
  exact (Memref.read_access_unit_zero (Elt F) main_v0_2 hz' (fun a => by rw [congrFun hz' a]; simp) (res5 m c)).symm

theorem final5 (c : Dev nD) : (dats m 0 c).arrAt 5 cfg0.N = res5 m c :=
  (dats m 0 c).arrAt_eq_of_cover 5 (res5 m c) (flushed_eq5 m c) fun i =>
    ⟨tLast, (flush0_5 tLast).mpr rfl, by
      show i ∈ ((View.whole main_v0_2).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- Total 3 after the last point, as contents of its result array. -/
abbrev res6 (c : Dev nD) : Buf (Elt F) ((c : Thread nD τ).loc main_v0_3) := acc6 m c 31 h31

theorem flushed_eq6 (c : Dev nD) (t : Fin cfg0.N) (hf : (cfg0.win 6).flush t = true) :
    (dats m 0 c).flushed 6 t = ((cfg0.win 6).blk t).view.read (Elt F) (res6 m c) := by
  have hN : cfg0.N = 32 := N_0
  have h : t.val = 31 := by have := (flush0_6 t).mp hf; have := t.isLt; omega
  obtain rfl : t = tLast := Fin.ext h
  show (cfg0.win 6).cut (grid0.coords tLast) ((dats m 0 c).after 6 tLast) = _
  rw [after0_6, outsAt_eq]
  have hz' : (fun a => win0_6.index tLast a * (main_v0_3 : Ref sig .tc).ty.shape.size a) = fun _ => 0 :=
    funext fun a => by fin_cases a <;> decide
  exact (Memref.read_access_unit_zero (Elt F) main_v0_3 hz' (fun a => by rw [congrFun hz' a]; simp) (res6 m c)).symm

theorem final6 (c : Dev nD) : (dats m 0 c).arrAt 6 cfg0.N = res6 m c :=
  (dats m 0 c).arrAt_eq_of_cover 6 (res6 m c) (flushed_eq6 m c) fun i =>
    ⟨tLast, (flush0_6 tLast).mpr rfl, by
      show i ∈ ((View.whole main_v0_3).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-- Total 4 after the last point, as contents of its result array. -/
abbrev res7 (c : Dev nD) : Buf (Elt F) ((c : Thread nD τ).loc main_v0_4) := acc7 m c 31 h31

theorem flushed_eq7 (c : Dev nD) (t : Fin cfg0.N) (hf : (cfg0.win 7).flush t = true) :
    (dats m 0 c).flushed 7 t = ((cfg0.win 7).blk t).view.read (Elt F) (res7 m c) := by
  have hN : cfg0.N = 32 := N_0
  have h : t.val = 31 := by have := (flush0_7 t).mp hf; have := t.isLt; omega
  obtain rfl : t = tLast := Fin.ext h
  show (cfg0.win 7).cut (grid0.coords tLast) ((dats m 0 c).after 7 tLast) = _
  rw [after0_7, outsAt_eq]
  have hz' : (fun a => win0_7.index tLast a * (main_v0_4 : Ref sig .tc).ty.shape.size a) = fun _ => 0 :=
    funext fun a => by fin_cases a <;> decide
  exact (Memref.read_access_unit_zero (Elt F) main_v0_4 hz' (fun a => by rw [congrFun hz' a]; simp) (res7 m c)).symm

theorem final7 (c : Dev nD) : (dats m 0 c).arrAt 7 cfg0.N = res7 m c :=
  (dats m 0 c).arrAt_eq_of_cover 7 (res7 m c) (flushed_eq7 m c) fun i =>
    ⟨tLast, (flush0_7 tLast).mpr rfl, by
      show i ∈ ((View.whole main_v0_4).slice (win0_7.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 1 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 1 from by decide +kernel]; omega⟩

end Cert.KAcc

end
-- ==== Proof.Spec.lean ====
/-
  The mathematics both programs compute, per sample of the batch.

  A sample is a field of three channels `o c y x` (pressure, two velocity components) on a 128 × 128 grid, a
  one-channel field `a y x` (a drag coefficient) and a target field `g c y x`. From them five sums are formed:
  * the squared error against the target over every entry;
  * the squared boundary residual: fourteen segments of the grid's border, one of them shifted by a constant;
  * on the 126 × 126 interior (the grid with its outermost ring removed), with `p, u, v` the three channels and
    `α` the coefficient there, the squares of the continuity residual `∂ₓu + ∂ᵧv` and of the two momentum
    residuals, where `∂ₓ` and `∂ᵧ` are the three-point difference quotients of a line of 126 samples
    (one-sided at the two ends, central in between) and the second derivatives are the quotient applied twice.
  Everything is stated on the extended reals with the exact operations; the float literals stay the words the
  programs print, so that no literal is ever evaluated.
-/
import Idealize.ShloMosaic.PureOps.Ideal
import Idealize.ShloMosaic.Lib.ValueIdx

noncomputable section

namespace Cert.Spec

open Idealize.ShloMosaic

/-- The grid spacings (and their doubles) as the words both programs print, the shift of the inlet segment, and one. -/
abbrev hX : EReal := Ideal.ofBits .f32 0x3C1ACF38#32
abbrev hX2 : EReal := Ideal.ofBits .f32 0x3C9ACF38#32
abbrev hY : EReal := Ideal.ofBits .f32 0x3BCE69A0#32
abbrev hY2 : EReal := Ideal.ofBits .f32 0x3C4E69A0#32
abbrev cIn : EReal := Ideal.ofBits .f32 0x3C23D70A#32
abbrev one : EReal := Ideal.ofBits .f32 0x3F800000#32

/-- The difference quotient of a line of 126 samples: one-sided with spacing `h` at the two ends, central with
    spacing `h2` (twice `h`) in between. -/
def grad1 (h h2 : EReal) (f : Fin 126 → EReal) (k : Fin 126) : EReal :=
  if k.val = 0 then Ideal.div (f ⟨1, by omega⟩ - f ⟨0, by omega⟩) h
  else if h1 : k.val = 125 then Ideal.div (f ⟨125, by omega⟩ - f ⟨124, by omega⟩) h
  else Ideal.div (f ⟨k.val + 1, by omega⟩ - f ⟨k.val - 1, by omega⟩) h2

/-- A field on the interior, indexed (row, column). -/
abbrev Fld := Fin 126 → Fin 126 → EReal

/-- The quotient along a row (the column index varies). -/
def gx (f : Fld) : Fld := fun y x => grad1 hX hX2 (f y) x
/-- The quotient along a column (the row index varies). -/
def gy (f : Fld) : Fld := fun y x => grad1 hY hY2 (fun y' => f y' x) y

/-- A channel of a sample restricted to the interior. -/
def inner (f : Fin 128 → Fin 128 → EReal) : Fld := fun y x => f ⟨y.val + 1, by omega⟩ ⟨x.val + 1, by omega⟩

/-- The continuity residual. -/
def cont (u v : Fld) : Fld := fun y x => gx u y x + gy v y x

/-- A momentum residual: `u·∂ₓw + v·∂ᵧw + ∂p/1 − (1·(∂ₓ∂ₓw + ∂ᵧ∂ᵧw))/1 + (α·w)/1`, the operations in the order
    both programs apply them (`dp` is the pressure's quotient along the residual's own axis). -/
def mom (u v α w dp : Fld) : Fld := fun y x =>
  (u y x * gx w y x + v y x * gy w y x + Ideal.div (dp y x) one
    - Ideal.div (one * (gx (gx w) y x + gy (gy w) y x)) one) + Ideal.div (α y x * w y x) one

/-- The sum of a field's squares. -/
def sqSum (f : Fld) : EReal := ∑ y : Fin 126, ∑ x : Fin 126, f y x * f y x

/-- The five sums of one sample. -/
def sqB (o g : Fin 3 → Fin 128 → Fin 128 → EReal) : EReal :=
  ∑ c : Fin 3, ∑ y : Fin 128, ∑ x : Fin 128, (o c y x - g c y x) * (o c y x - g c y x)

def contB (o : Fin 3 → Fin 128 → Fin 128 → EReal) : EReal :=
  sqSum (cont (inner (o 1)) (inner (o 2)))

def nsxB (o : Fin 3 → Fin 128 → Fin 128 → EReal) (a : Fin 128 → Fin 128 → EReal) : EReal :=
  sqSum (mom (inner (o 1)) (inner (o 2)) (inner a) (inner (o 1)) (gx (inner (o 0))))

def nsyB (o : Fin 3 → Fin 128 → Fin 128 → EReal) (a : Fin 128 → Fin 128 → EReal) : EReal :=
  sqSum (mom (inner (o 1)) (inner (o 2)) (inner a) (inner (o 2)) (gy (inner (o 0))))

/-- A border segment's sum of squares: `n` entries of a line starting at `s`. -/
def rowSq (f : Fin 128 → EReal) : EReal := ∑ x : Fin 128, f x * f x
def segSq (n s : Nat) (hs : s + n ≤ 128) (f : Fin 128 → EReal) : EReal :=
  ∑ j : Fin n, f ⟨s + j.val, by omega⟩ * f ⟨s + j.val, by omega⟩

/-- The boundary residual of one sample: the inlet segment of the first velocity component on the left edge shifted by
    the inlet value, the pressure's segment on the right edge, and for each velocity component and each of the two
    opposite sides `k` the whole row `k` and the column `k` above row 73 and below row 55 — fourteen segments, added
    one after the other in the order both programs take them. -/
def bndB (o : Fin 3 → Fin 128 → Fin 128 → EReal) : EReal :=
  (∑ j : Fin 18, (o 1 ⟨55 + j.val, by omega⟩ 0 - cIn) * (o 1 ⟨55 + j.val, by omega⟩ 0 - cIn))
  + segSq 18 55 (by omega) (fun y => o 0 y 127)
  + rowSq (o 1 0) + segSq 55 73 (by omega) (fun y => o 1 y 0) + segSq 55 0 (by omega) (fun y => o 1 y 0)
  + rowSq (o 1 127) + segSq 55 73 (by omega) (fun y => o 1 y 127) + segSq 55 0 (by omega) (fun y => o 1 y 127)
  + rowSq (o 2 0) + segSq 55 73 (by omega) (fun y => o 2 y 0) + segSq 55 0 (by omega) (fun y => o 2 y 0)
  + rowSq (o 2 127) + segSq 55 73 (by omega) (fun y => o 2 y 127) + segSq 55 0 (by omega) (fun y => o 2 y 127)

/-! ## The loss from the sums -/

/-- The literals of the final combination, as printed. -/
abbrev wBase : EReal := Ideal.ofBits .f32 0x3DCCCCCD#32
abbrev wRes : EReal := Ideal.ofBits .f32 0x3E99999A#32
abbrev sBase : EReal := Ideal.ofBits .f32 0x48927C00#32
abbrev nInt : EReal := Ideal.ofBits .f32 0x4A781000#32
abbrev sDiv : EReal := Ideal.ofBits .f32 0x3727C5AC#32
abbrev two : EReal := Ideal.ofBits .f32 0x40000000#32
abbrev sNs : EReal := Ideal.ofBits .f32 0x3C23D70A#32
abbrev nBnd : EReal := Ideal.ofBits .f32 0x48770000#32
abbrev nPix : EReal := Ideal.ofBits .f32 0x46781000#32
abbrev nBatch : EReal := Ideal.ofBits .f32 0x43800000#32

/-- The weighted loss from the four normalised terms, in the order both programs add them. -/
def loss (base cont ns bc : EReal) : EReal :=
  wBase * Ideal.div base sBase + wRes * Ideal.div cont sDiv + wRes * Ideal.div ns sNs + wRes * Ideal.div bc one

/-- The loss as the kernel's host lines form it from the five totals. -/
def lossK (sq bnd cn nx ny : EReal) : EReal :=
  loss sq (Ideal.div cn nInt) (Ideal.div (Ideal.div nx nInt + Ideal.div ny nInt) two) (Ideal.div bnd nBnd)

/-- The loss as the reference forms it: the momentum term is the mean over the batch of the per-sample means. -/
def lossR (sq bnd cn : EReal) (ns : EReal) : EReal :=
  loss sq (Ideal.div cn nInt) (Ideal.div (Ideal.div ns nBatch) two) (Ideal.div bnd nBnd)

end Cert.Spec

end
-- ==== Proof.KTail.lean ====
/-
  The host lines after the region, and the kernel's run read as a value. The host reshapes each one-entry total to a
  scalar and forms the weighted loss from them; so the program's result is the specification's loss of the five
  totals after the last grid point, and its argument arrays end unchanged.
-/
import proofs.«121105_j56899726737553_2_alg».proof.Proof.KFinal
import proofs.«121105_j56899726737553_2_alg».proof.Proof.Spec
import Idealize.ShloMosaic.Lib.StableHlo.Run

noncomputable section

open Idealize.ShloMosaic Idealize.ShloMosaic.TcCoe Idealize.SL.Sem
open Idealize.ShloMosaic.Pipeline (Dat)

namespace Cert.KAcc

open Cert.KernelIdeal Cert.KernelIdeal.Gen Cert.KTerms Cert.KOut Idealize.ShloMosaic.StableHlo

variable (m : (ℓ : Loc nD τ sig) → Buf (Elt Ideal) ℓ) (ρ : Dev nD → PrngReg)

/-- A one-entry array has one index. -/
theorem idx11 (k : S1x1.Idx) : k = ValueIdx.ix2 0 0 := by
  funext a
  match a with
  | ⟨0, _⟩ => exact Fin.ext (by have h : (k 0).val < 1 := (k 0).isLt; show (k 0).val = 0; omega)
  | ⟨1, _⟩ => exact Fin.ext (by have h : (k 1).val < 1 := (k 1).isLt; show (k 1).val = 0; omega)

/-- Reshaped to a scalar it is its one entry. -/
theorem scalar_of (v : S1x1.Idx → EReal) (i : S_.Idx) : shapeCast S_ v shapeCasts_S1x1_S_ i = v (ValueIdx.ix2 0 0) := by
  unfold shapeCast
  exact congrArg v (idx11 _)

/-- The kernel's result: the loss of the five totals. -/
def kval (c : Dev nD) : EReal :=
  Cert.Spec.lossK (res3 m c (ValueIdx.ix2 0 0)) (res4 m c (ValueIdx.ix2 0 0)) (res5 m c (ValueIdx.ix2 0 0))
    (res6 m c (ValueIdx.ix2 0 0)) (res7 m c (ValueIdx.ix2 0 0))

set_option maxHeartbeats 2000000 in
theorem tail_value (c : Dev nD) :
    Pipeline.afterTail₀ cfgs (dats m) 0 (V0 m) [hostOps1] c main_v22 = fun _ => kval m c := by
  unfold Pipeline.afterTail₀
  show StableHlo.after hostOps1 _ (Proc.devRef .tc main_v22) = _
  after_results_simp
  have e3 := (Pipeline.withArrays_arr spec0 launch0.win.arr_inj c (V0 m c) (fun w => (dats m 0 c).arrAt w (cfgs 0).N) 3).trans (final3 m c)
  have e4 := (Pipeline.withArrays_arr spec0 launch0.win.arr_inj c (V0 m c) (fun w => (dats m 0 c).arrAt w (cfgs 0).N) 4).trans (final4 m c)
  have e5 := (Pipeline.withArrays_arr spec0 launch0.win.arr_inj c (V0 m c) (fun w => (dats m 0 c).arrAt w (cfgs 0).N) 5).trans (final5 m c)
  have e6 := (Pipeline.withArrays_arr spec0 launch0.win.arr_inj c (V0 m c) (fun w => (dats m 0 c).arrAt w (cfgs 0).N) 6).trans (final6 m c)
  have e7 := (Pipeline.withArrays_arr spec0 launch0.win.arr_inj c (V0 m c) (fun w => (dats m 0 c).arrAt w (cfgs 0).N) 7).trans (final7 m c)
  rw [show Pipeline.withArrays (cfgs 0).spec c (V0 m c) (fun w => (dats m 0 c).arrAt w (cfgs 0).N) (Proc.devRef .tc main_v0_0) = res3 m c from e3,
    show Pipeline.withArrays (cfgs 0).spec c (V0 m c) (fun w => (dats m 0 c).arrAt w (cfgs 0).N) (Proc.devRef .tc main_v0_1) = res4 m c from e4,
    show Pipeline.withArrays (cfgs 0).spec c (V0 m c) (fun w => (dats m 0 c).arrAt w (cfgs 0).N) (Proc.devRef .tc main_v0_2) = res5 m c from e5,
    show Pipeline.withArrays (cfgs 0).spec c (V0 m c) (fun w => (dats m 0 c).arrAt w (cfgs 0).N) (Proc.devRef .tc main_v0_3) = res6 m c from e6,
    show Pipeline.withArrays (cfgs 0).spec c (V0 m c) (fun w => (dats m 0 c).arrAt w (cfgs 0).N) (Proc.devRef .tc main_v0_4) = res7 m c from e7]
  have s3 : ∀ i, shapeCast main_v1.ty.shape (res3 m c) shapeCasts_S1x1_S_ i = res3 m c (ValueIdx.ix2 0 0) := scalar_of _
  have s4 : ∀ i, shapeCast main_v13.ty.shape (res4 m c) shapeCasts_S1x1_S_ i = res4 m c (ValueIdx.ix2 0 0) := scalar_of _
  have s5 : ∀ i, shapeCast main_v3.ty.shape (res5 m c) shapeCasts_S1x1_S_ i = res5 m c (ValueIdx.ix2 0 0) := scalar_of _
  have s6 : ∀ i, shapeCast main_v6.ty.shape (res6 m c) shapeCasts_S1x1_S_ i = res6 m c (ValueIdx.ix2 0 0) := scalar_of _
  have s7 : ∀ i, shapeCast main_v8.ty.shape (res7 m c) shapeCasts_S1x1_S_ i = res7 m c (ValueIdx.ix2 0 0) := scalar_of _
  simp only [s3, s4, s5, s6, s7]
  rfl

end Cert.KAcc

end
-- ==== Proof.KRun.lean ====
/-
  The kernel program's run, read as a value: every weakly fair execution terminates with the result at the loss of
  the five totals after the last grid point, the argument arrays unchanged.
-/
import proofs.«121105_j56899726737553_2_alg».proof.Proof.KTail

noncomputable section

open Idealize.ShloMosaic Idealize.ShloMosaic.TcCoe Idealize.SL.Sem
open Idealize.ShloMosaic.Pipeline (Dat)

namespace Cert.KAcc

open Cert.KernelIdeal Cert.KernelIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v22) = (fun _ => kval m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 rfl (fun w => by fin_cases w <;> decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KAcc

end
-- ==== Proof.Samples.lean ====
/-
  One sample of the batch, cut out of a batched array: the three-channel field and the one-channel field of sample
  `B` as functions of (channel,) row and column. Stated for any batch extent, since one program sees the whole
  batch of 256 and the other a block of 8 samples at a time.
-/
import proofs.«121105_j56899726737553_2_alg».proof.Proof.Spec

noncomputable section

namespace Cert.Spec

open Idealize.ShloMosaic

/-- Sample `B` of a [n, 3, 128, 128] array. -/
def smp3 {n : Nat} (A : (⟨4, ![n, 3, 128, 128]⟩ : Shape).Idx → EReal) (B : Fin n) : Fin 3 → Fin 128 → Fin 128 → EReal :=
  fun c y x => A (ValueIdx.ix4 B c y x)

/-- Sample `B` of a [n, 1, 128, 128] array. -/
def smp1 {n : Nat} (A : (⟨4, ![n, 1, 128, 128]⟩ : Shape).Idx → EReal) (B : Fin n) : Fin 128 → Fin 128 → EReal :=
  fun y x => A (ValueIdx.ix4 B 0 y x)

end Cert.Spec

end
-- ==== Proof.KBlocks.lean ====
/-
  The blocks the body sees. At grid point `t` each of the three input windows stages the eight samples
  `8t, …, 8t + 7` of its argument array, whole in the other three axes: entry `(b, c, y, x)` of the block is entry
  `(8t + b, c, y, x)` of the array. Hence sample `b` of the block at point `t` is sample `8t + b` of the batch.
-/
import proofs.«121105_j56899726737553_2_alg».proof.Proof.Gen.KernelIdeal.Frame
import proofs.«121105_j56899726737553_2_alg».proof.Proof.Samples
import Idealize.ShloMosaic.Lib.Pipeline.Value

noncomputable section

open Idealize.ShloMosaic Idealize.ShloMosaic.TcCoe Idealize.SL.Sem

namespace Cert.KBlocks

open Cert.KernelIdeal Cert.KernelIdeal.Gen Cert.Spec

variable (m : (ℓ : Loc nD τ sig) → Buf (Elt Ideal) ℓ)

/-- The windows' block indices over the grid: the point's number on the batch axis, zero elsewhere. -/
theorem idx_facts : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = t.val ∧ win0_2.index t 1 = 0 ∧ win0_2.index t 2 = 0 ∧ win0_2.index t 3 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = t.val ∧ win0_2.index t 1 = 0 ∧ win0_2.index t 2 = 0 ∧ win0_2.index t 3 = 0))

theorem lt256 (t : Fin cfg0.N) (b : Fin 8) : 8 * t.val + b.val < 256 := by
  have h : t.val < 32 := lt_of_lt_of_eq t.isLt (show cfg0.N = 32 from N_0)
  have := b.isLt; omega

/-- The batch's sample that block sample `b` of point `t` is. -/
abbrev smpOf (t : Fin cfg0.N) (b : Fin 8) : Fin 256 := ⟨8 * t.val + b.val, lt256 t b⟩

/-- The argument arrays as the region finds them. -/
abbrev A0 (c : Dev nD) : S256x1x128x128.Idx → EReal := V m c main_arg0
abbrev A1 (c : Dev nD) : S256x3x128x128.Idx → EReal := V m c main_arg1
abbrev A2 (c : Dev nD) : S256x3x128x128.Idx → EReal := V m c main_arg2

theorem iblk0_apply (c : Dev nD) (t : Fin cfg0.N) (b : Fin 8) (y x : Fin 128) :
    (iblk m c 0 t : S8x1x128x128.Idx → EReal) (ValueIdx.ix4 b 0 y x) = A0 m c (ValueIdx.ix4 (smpOf t b) 0 y x) := by
  have hi := (idx_facts t).1
  unfold iblk
  rw [View.read_apply]
  show V m c main_arg0 _ = V m c main_arg0 _
  congr 1
  funext a
  apply Fin.ext
  match a with
  | ⟨0, _⟩ => show win0_0.index t 0 * 8 + 1 * b.val = 8 * t.val + b.val; rw [hi.1]; omega
  | ⟨1, _⟩ => show win0_0.index t 1 * 1 + 1 * 0 = 0; rw [hi.2.1]
  | ⟨2, _⟩ => show win0_0.index t 2 * 128 + 1 * y.val = y.val; rw [hi.2.2.1]; omega
  | ⟨3, _⟩ => show win0_0.index t 3 * 128 + 1 * x.val = x.val; rw [hi.2.2.2]; omega

theorem iblk1_apply (c : Dev nD) (t : Fin cfg0.N) (b : Fin 8) (ch : Fin 3) (y x : Fin 128) :
    (iblk m c 1 t : S8x3x128x128.Idx → EReal) (ValueIdx.ix4 b ch y x) = A1 m c (ValueIdx.ix4 (smpOf t b) ch y x) := by
  have hi := (idx_facts t).2.1
  unfold iblk
  rw [View.read_apply]
  show V m c main_arg1 _ = V m c main_arg1 _
  congr 1
  funext a
  apply Fin.ext
  match a with
  | ⟨0, _⟩ => show win0_1.index t 0 * 8 + 1 * b.val = 8 * t.val + b.val; rw [hi.1]; omega
  | ⟨1, _⟩ => show win0_1.index t 1 * 3 + 1 * ch.val = ch.val; rw [hi.2.1]; omega
  | ⟨2, _⟩ => show win0_1.index t 2 * 128 + 1 * y.val = y.val; rw [hi.2.2.1]; omega
  | ⟨3, _⟩ => show win0_1.index t 3 * 128 + 1 * x.val = x.val; rw [hi.2.2.2]; omega

theorem iblk2_apply (c : Dev nD) (t : Fin cfg0.N) (b : Fin 8) (ch : Fin 3) (y x : Fin 128) :
    (iblk m c 2 t : S8x3x128x128.Idx → EReal) (ValueIdx.ix4 b ch y x) = A2 m c (ValueIdx.ix4 (smpOf t b) ch y x) := by
  have hi := (idx_facts t).2.2
  unfold iblk
  rw [View.read_apply]
  show V m c main_arg2 _ = V m c main_arg2 _
  congr 1
  funext a
  apply Fin.ext
  match a with
  | ⟨0, _⟩ => show win0_2.index t 0 * 8 + 1 * b.val = 8 * t.val + b.val; rw [hi.1]; omega
  | ⟨1, _⟩ => show win0_2.index t 1 * 3 + 1 * ch.val = ch.val; rw [hi.2.1]; omega
  | ⟨2, _⟩ => show win0_2.index t 2 * 128 + 1 * y.val = y.val; rw [hi.2.2.1]; omega
  | ⟨3, _⟩ => show win0_2.index t 3 * 128 + 1 * x.val = x.val; rw [hi.2.2.2]; omega

/-- Sample `b` of the block at point `t` is sample `8t + b` of the batch. -/
theorem smp_in (c : Dev nD) (t : Fin cfg0.N) (b : Fin 8) :
    smp1 (iblk m c 0 t : S8x1x128x128.Idx → EReal) b = smp1 (A0 m c) (smpOf t b) :=
  funext fun y => funext fun x => iblk0_apply m c t b y x
theorem smp_out (c : Dev nD) (t : Fin cfg0.N) (b : Fin 8) :
    smp3 (iblk m c 1 t : S8x3x128x128.Idx → EReal) b = smp3 (A1 m c) (smpOf t b) :=
  funext fun ch => funext fun y => funext fun x => iblk1_apply m c t b ch y x
theorem smp_tgt (c : Dev nD) (t : Fin cfg0.N) (b : Fin 8) :
    smp3 (iblk m c 2 t : S8x3x128x128.Idx → EReal) b = smp3 (A2 m c) (smpOf t b) :=
  funext fun ch => funext fun y => funext fun x => iblk2_apply m c t b ch y x

end Cert.KBlocks

end
-- ==== Proof.KSum.lean ====
/-
  Two facts about sums of extended reals. A left fold `a₀ = 0 + g₀`, `aₙ₊₁ = aₙ + gₙ₊₁` is the sum of the `g`'s; and a sum
  over the 256 samples of the batch is the sum over the 32 grid points of the sums over each point's 8 samples,
  sample `b` of point `t` being sample `8t + b` of the batch.
-/
import Mathlib.Algebra.BigOperators.Fin
import Mathlib.Data.EReal.Basic
import Mathlib.Logic.Equiv.Fin.Basic

namespace Cert.KSum

theorem fold_eq_sum {N : ℕ} (a g : (n : ℕ) → n < N → EReal)
    (h0 : ∀ h, a 0 h = 0 + g 0 h) (hs : ∀ n h, a (n + 1) h = a n (Nat.lt_of_succ_lt h) + g (n + 1) h) :
    ∀ (n : ℕ) (h : n < N), a n h = ∑ t : Fin (n + 1), g t.val (lt_of_lt_of_le t.isLt h)
  | 0, h => by rw [h0, zero_add, Fin.sum_univ_one]; rfl
  | n + 1, h => by
    rw [hs, fold_eq_sum a g h0 hs n (Nat.lt_of_succ_lt h)]
    exact (Fin.sum_univ_castSucc (fun t : Fin (n + 1 + 1) => g t.val (lt_of_lt_of_le t.isLt h))).symm

theorem sum_grid (f : Fin 256 → EReal) :
    ∑ t : Fin 32, ∑ b : Fin 8, f ⟨8 * t.val + b.val, by have := t.isLt; have := b.isLt; omega⟩ = ∑ B : Fin 256, f B := by
  rw [← Fintype.sum_prod_type']
  refine Fintype.sum_equiv (finProdFinEquiv (m := 32) (n := 8)) _ _ fun x => ?_
  congr 1
  apply Fin.ext
  show 8 * x.1.val + x.2.val = x.2.val + 8 * x.1.val
  omega

end Cert.KSum
-- ==== Proof.KTotal.lean ====
/-
  The five totals as sums over the batch. Each store adds to the total it finds the sum, over the eight samples of
  its point's blocks, of the sample's quantity (the body's arithmetic read at the samples: the hypothesis `H` of each
  statement below); the fold over the 32 points is therefore the sum over all 256 samples, sample `b` of point `t`
  being sample `8t + b` of the batch.
-/
import proofs.«121105_j56899726737553_2_alg».proof.Proof.KFinal
import proofs.«121105_j56899726737553_2_alg».proof.Proof.KBlocks
import proofs.«121105_j56899726737553_2_alg».proof.Proof.KSum
import Idealize.ShloMosaic.PureOps.Ideal.Laws

noncomputable section

open Idealize.ShloMosaic Idealize.ShloMosaic.TcCoe Idealize.SL.Sem

namespace Cert.KAcc

open Cert.KernelIdeal Cert.KernelIdeal.Gen Cert.KTerms Cert.KOut Cert.KBlocks Cert.Spec

variable (m : (ℓ : Loc nD τ sig) → Buf (Elt Ideal) ℓ)

theorem zero_apply (j : S1x1.Idx) : (zero (F := Ideal)) j = 0 := Ideal.ofBits_zero_f32

theorem total3
    (H : ∀ (x1 x2 : Vec Ideal S8x3x128x128 .f32) (xo : Vec Ideal S1x1 .f32) (j : S1x1.Idx),
      stSq x1 x2 xo j = xo j + ∑ b : Fin 8, sqB (smp3 x1 b) (smp3 x2 b))
    (c : Dev nD) :
    res3 m c (ValueIdx.ix2 0 0) = ∑ B : Fin 256, sqB (smp3 (A1 m c) B) (smp3 (A2 m c) B) := by
  have key := Cert.KSum.fold_eq_sum (N := cfg0.N) (fun n h => acc3 m c n h (ValueIdx.ix2 0 0))
    (fun n h => ∑ b : Fin 8, sqB (smp3 (A1 m c) (smpOf ⟨n, h⟩ b)) (smp3 (A2 m c) (smpOf ⟨n, h⟩ b)))
    (fun h => by
      show stSq _ _ zero _ = _
      rw [H, zero_apply]
      simp only [smp_in, smp_out, smp_tgt])
    (fun n h => by
      show stSq _ _ (acc3 m c n _) _ = _
      rw [H]
      simp only [smp_in, smp_out, smp_tgt]) 31 h31
  rw [show res3 m c = acc3 m c 31 h31 from rfl, key]
  exact Cert.KSum.sum_grid (fun B => sqB (smp3 (A1 m c) B) (smp3 (A2 m c) B))

theorem total4
    (H : ∀ (x1 : Vec Ideal S8x3x128x128 .f32) (xo : Vec Ideal S1x1 .f32) (j : S1x1.Idx),
      stBnd x1 xo j = xo j + ∑ b : Fin 8, bndB (smp3 x1 b))
    (c : Dev nD) :
    res4 m c (ValueIdx.ix2 0 0) = ∑ B : Fin 256, bndB (smp3 (A1 m c) B) := by
  have key := Cert.KSum.fold_eq_sum (N := cfg0.N) (fun n h => acc4 m c n h (ValueIdx.ix2 0 0))
    (fun n h => ∑ b : Fin 8, bndB (smp3 (A1 m c) (smpOf ⟨n, h⟩ b)))
    (fun h => by
      show stBnd _ zero _ = _
      rw [H, zero_apply]
      simp only [smp_in, smp_out, smp_tgt])
    (fun n h => by
      show stBnd _ (acc4 m c n _) _ = _
      rw [H]
      simp only [smp_in, smp_out, smp_tgt]) 31 h31
  rw [show res4 m c = acc4 m c 31 h31 from rfl, key]
  exact Cert.KSum.sum_grid (fun B => bndB (smp3 (A1 m c) B))

theorem total5
    (H : ∀ (x1 : Vec Ideal S8x3x128x128 .f32) (xo : Vec Ideal S1x1 .f32) (j : S1x1.Idx),
      stCont x1 xo j = xo j + ∑ b : Fin 8, contB (smp3 x1 b))
    (c : Dev nD) :
    res5 m c (ValueIdx.ix2 0 0) = ∑ B : Fin 256, contB (smp3 (A1 m c) B) := by
  have key := Cert.KSum.fold_eq_sum (N := cfg0.N) (fun n h => acc5 m c n h (ValueIdx.ix2 0 0))
    (fun n h => ∑ b : Fin 8, contB (smp3 (A1 m c) (smpOf ⟨n, h⟩ b)))
    (fun h => by
      show stCont _ zero _ = _
      rw [H, zero_apply]
      simp only [smp_in, smp_out, smp_tgt])
    (fun n h => by
      show stCont _ (acc5 m c n _) _ = _
      rw [H]
      simp only [smp_in, smp_out, smp_tgt]) 31 h31
  rw [show res5 m c = acc5 m c 31 h31 from rfl, key]
  exact Cert.KSum.sum_grid (fun B => contB (smp3 (A1 m c) B))

theorem total6
    (H : ∀ (x0 : Vec Ideal S8x1x128x128 .f32) (x1 : Vec Ideal S8x3x128x128 .f32) (xo : Vec Ideal S1x1 .f32) (j : S1x1.Idx),
      stNsx x0 x1 xo j = xo j + ∑ b : Fin 8, nsxB (smp3 x1 b) (smp1 x0 b))
    (c : Dev nD) :
    res6 m c (ValueIdx.ix2 0 0) = ∑ B : Fin 256, nsxB (smp3 (A1 m c) B) (smp1 (A0 m c) B) := by
  have key := Cert.KSum.fold_eq_sum (N := cfg0.N) (fun n h => acc6 m c n h (ValueIdx.ix2 0 0))
    (fun n h => ∑ b : Fin 8, nsxB (smp3 (A1 m c) (smpOf ⟨n, h⟩ b)) (smp1 (A0 m c) (smpOf ⟨n, h⟩ b)))
    (fun h => by
      show stNsx _ _ zero _ = _
      rw [H, zero_apply]
      simp only [smp_in, smp_out, smp_tgt])
    (fun n h => by
      show stNsx _ _ (acc6 m c n _) _ = _
      rw [H]
      simp only [smp_in, smp_out, smp_tgt]) 31 h31
  rw [show res6 m c = acc6 m c 31 h31 from rfl, key]
  exact Cert.KSum.sum_grid (fun B => nsxB (smp3 (A1 m c) B) (smp1 (A0 m c) B))

theorem total7
    (H : ∀ (x0 : Vec Ideal S8x1x128x128 .f32) (x1 : Vec Ideal S8x3x128x128 .f32) (xo : Vec Ideal S1x1 .f32) (j : S1x1.Idx),
      stNsy x0 x1 xo j = xo j + ∑ b : Fin 8, nsyB (smp3 x1 b) (smp1 x0 b))
    (c : Dev nD) :
    res7 m c (ValueIdx.ix2 0 0) = ∑ B : Fin 256, nsyB (smp3 (A1 m c) B) (smp1 (A0 m c) B) := by
  have key := Cert.KSum.fold_eq_sum (N := cfg0.N) (fun n h => acc7 m c n h (ValueIdx.ix2 0 0))
    (fun n h => ∑ b : Fin 8, nsyB (smp3 (A1 m c) (smpOf ⟨n, h⟩ b)) (smp1 (A0 m c) (smpOf ⟨n, h⟩ b)))
    (fun h => by
      show stNsy _ _ zero _ = _
      rw [H, zero_apply]
      simp only [smp_in, smp_out, smp_tgt])
    (fun n h => by
      show stNsy _ _ (acc7 m c n _) _ = _
      rw [H]
      simp only [smp_in, smp_out, smp_tgt]) 31 h31
  rw [show res7 m c = acc7 m c 31 h31 from rfl, key]
  exact Cert.KSum.sum_grid (fun B => nsyB (smp3 (A1 m c) B) (smp1 (A0 m c) B))

end Cert.KAcc

end
-- ==== Proof.Consts.lean ====
/-
  The float literals whose VALUE the proof uses, as the extended reals their words denote: one, and the three counts
  (entries of a sample's interior, samples of the batch, entries of the batch's interior) whose product relation
  15876 · 256 = 4064256 joins the two programs' means. Every other literal occurs as the same word on both sides
  and is never evaluated. (The zero word is the library's `Ideal.ofBits_zero_f32`.)
-/
import Idealize.ShloMosaic.PureOps.Ideal

noncomputable section

namespace Cert.Consts

open Idealize.ShloMosaic

theorem ofBits_one : Ideal.ofBits .f32 0x3F800000#32 = 1 := by
  simp [Ideal.ofBits, Ideal.ieee, -EReal.coe_mul]; norm_num

theorem ofBits_nPix : Ideal.ofBits .f32 0x46781000#32 = ((15876 : ℝ) : EReal) := by
  simp [Ideal.ofBits, Ideal.ieee, -EReal.coe_mul]; norm_num

theorem ofBits_nBatch : Ideal.ofBits .f32 0x43800000#32 = ((256 : ℝ) : EReal) := by
  simp [Ideal.ofBits, Ideal.ieee, -EReal.coe_mul]; norm_num

theorem ofBits_nInt : Ideal.ofBits .f32 0x4A781000#32 = ((4064256 : ℝ) : EReal) := by
  simp [Ideal.ofBits, Ideal.ieee, -EReal.coe_mul]; norm_num

end Cert.Consts

end
-- ==== Proof.Law.lean ====
/-
  The one law that joins the two programs' momentum terms. The kernel divides the batch's total of each residual by
  the number of interior entries of the whole batch and adds the two quotients; the reference takes, per sample, the
  two means over the sample's interior, adds them, and takes the mean over the batch. With `k = 1/15876`,
  `k' = 1/256` and `K = 1/4064256 = k·k'` both are `∑ x·K + ∑ y·K`: multiplication by a nonnegative real
  distributes over sums of extended reals whatever the summands are, so no finiteness is needed.
-/
import proofs.«121105_j56899726737553_2_alg».proof.Proof.Spec
import proofs.«121105_j56899726737553_2_alg».proof.Proof.Consts

noncomputable section

namespace Cert.Law

open Idealize.ShloMosaic Cert.Spec

/-- Multiplication by a nonnegative real on the right distributes over a finite sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem div_nPix (x : EReal) : Ideal.div x nPix = x * ((1 / 15876 : ℝ) : EReal) := by
  show Ideal.div x (Ideal.ofBits .f32 0x46781000#32) = _
  rw [Cert.Consts.ofBits_nPix, Ideal.div_coe (by norm_num)]
theorem div_nBatch (x : EReal) : Ideal.div x nBatch = x * ((1 / 256 : ℝ) : EReal) := by
  show Ideal.div x (Ideal.ofBits .f32 0x43800000#32) = _
  rw [Cert.Consts.ofBits_nBatch, Ideal.div_coe (by norm_num)]
theorem div_nInt (x : EReal) : Ideal.div x nInt = x * ((1 / 4064256 : ℝ) : EReal) := by
  show Ideal.div x (Ideal.ofBits .f32 0x4A781000#32) = _
  rw [Cert.Consts.ofBits_nInt, Ideal.div_coe (by norm_num)]

/-- The mean over the batch of the per-sample means' sums is the sum of the two batch-wide means. -/
theorem mean_of_means {ι : Type*} [Fintype ι] (x y : ι → EReal) :
    Ideal.div (∑ B, (Ideal.div (x B) nPix + Ideal.div (y B) nPix)) nBatch
      = Ideal.div (∑ B, x B) nInt + Ideal.div (∑ B, y B) nInt := by
  simp only [div_nPix, div_nBatch, div_nInt]
  rw [sum_mul_coe _ _ _ (by norm_num), sum_mul_coe _ _ _ (by norm_num), sum_mul_coe _ _ _ (by norm_num),
    ← Finset.sum_add_distrib]
  refine Finset.sum_congr rfl fun B _ => ?_
  rw [EReal.right_distrib_of_nonneg_of_ne_top (by exact_mod_cast (by norm_num : (0:ℝ) ≤ 1 / 256)) (EReal.coe_ne_top _),
    mul_assoc, mul_assoc, ← EReal.coe_mul]
  norm_num

/-- So the two forms of the loss agree on the same totals. -/
theorem lossK_eq_lossR {ι : Type*} [Fintype ι] (sq bnd cn : EReal) (x y : ι → EReal) :
    lossK sq bnd cn (∑ B, x B) (∑ B, y B) = lossR sq bnd cn (∑ B, (Ideal.div (x B) nPix + Ideal.div (y B) nPix)) := by
  unfold lossK lossR
  rw [mean_of_means]

end Cert.Law

end
-- ==== Proof.Assemble.lean ====
/-
  The two programs return the same value. The kernel's result is the loss of its five totals, each the sum over the
  batch of a per-sample quantity; the reference's result is the reference's form of the loss of the same sums; the
  two forms agree (the mean over the batch of per-sample means is the batch-wide mean). The readings of the two
  programs' arithmetic at the samples enter as hypotheses here and are supplied where the claim is assembled.
-/
import proofs.«121105_j56899726737553_2_alg».proof.Defs
import proofs.«121105_j56899726737553_2_alg».proof.Proof.KRun
import proofs.«121105_j56899726737553_2_alg».proof.Proof.KTotal
import proofs.«121105_j56899726737553_2_alg».proof.Proof.Law
import proofs.«121105_j56899726737553_2_alg».proof.Proof.Gen.ReferenceIdeal.Run

noncomputable section

open Idealize.ShloMosaic Idealize.ShloMosaic.TcCoe Idealize.SL.Sem

namespace Cert.Assemble

open Cert.Spec

/-- The kernel's value as the loss of the five sums over the batch. -/
theorem kval_eq
    (H3 : ∀ (x1 x2 : Vec Ideal Cert.KernelIdeal.S8x3x128x128 .f32) (xo : Vec Ideal Cert.KernelIdeal.S1x1 .f32) (j : Cert.KernelIdeal.S1x1.Idx),
      Cert.KTerms.stSq x1 x2 xo j = xo j + ∑ b : Fin 8, sqB (smp3 x1 b) (smp3 x2 b))
    (H4 : ∀ (x1 : Vec Ideal Cert.KernelIdeal.S8x3x128x128 .f32) (xo : Vec Ideal Cert.KernelIdeal.S1x1 .f32) (j : Cert.KernelIdeal.S1x1.Idx),
      Cert.KTerms.stBnd x1 xo j = xo j + ∑ b : Fin 8, bndB (smp3 x1 b))
    (H5 : ∀ (x1 : Vec Ideal Cert.KernelIdeal.S8x3x128x128 .f32) (xo : Vec Ideal Cert.KernelIdeal.S1x1 .f32) (j : Cert.KernelIdeal.S1x1.Idx),
      Cert.KTerms.stCont x1 xo j = xo j + ∑ b : Fin 8, contB (smp3 x1 b))
    (H6 : ∀ (x0 : Vec Ideal Cert.KernelIdeal.S8x1x128x128 .f32) (x1 : Vec Ideal Cert.KernelIdeal.S8x3x128x128 .f32) (xo : Vec Ideal Cert.KernelIdeal.S1x1 .f32) (j : Cert.KernelIdeal.S1x1.Idx),
      Cert.KTerms.stNsx x0 x1 xo j = xo j + ∑ b : Fin 8, nsxB (smp3 x1 b) (smp1 x0 b))
    (H7 : ∀ (x0 : Vec Ideal Cert.KernelIdeal.S8x1x128x128 .f32) (x1 : Vec Ideal Cert.KernelIdeal.S8x3x128x128 .f32) (xo : Vec Ideal Cert.KernelIdeal.S1x1 .f32) (j : Cert.KernelIdeal.S1x1.Idx),
      Cert.KTerms.stNsy x0 x1 xo j = xo j + ∑ b : Fin 8, nsyB (smp3 x1 b) (smp1 x0 b))
    (m : (ℓ : Loc Cert.KernelIdeal.nD Cert.KernelIdeal.τ Cert.KernelIdeal.sig) → Buf (Elt Ideal) ℓ) (c : Dev Cert.KernelIdeal.nD) :
    Cert.KAcc.kval m c = lossK
      (∑ B : Fin 256, sqB (smp3 (Cert.KBlocks.A1 m c) B) (smp3 (Cert.KBlocks.A2 m c) B))
      (∑ B : Fin 256, bndB (smp3 (Cert.KBlocks.A1 m c) B))
      (∑ B : Fin 256, contB (smp3 (Cert.KBlocks.A1 m c) B))
      (∑ B : Fin 256, nsxB (smp3 (Cert.KBlocks.A1 m c) B) (smp1 (Cert.KBlocks.A0 m c) B))
      (∑ B : Fin 256, nsyB (smp3 (Cert.KBlocks.A1 m c) B) (smp1 (Cert.KBlocks.A0 m c) B)) := by
  unfold Cert.KAcc.kval
  rw [Cert.KAcc.total3 m H3 c, Cert.KAcc.total4 m H4 c, Cert.KAcc.total5 m H5 c, Cert.KAcc.total6 m H6 c, Cert.KAcc.total7 m H7 c]

open Cert.ReferenceIdeal in
/-- The algebraic claim from the two readings. -/
theorem algebraic_of [hKernelIdeal : Cert.KernelIdeal.Facts] [hReferenceIdeal : Cert.ReferenceIdeal.Facts] [hPre_finite_inputs : Cert.Pre_finite_inputs.Facts]
    (H3 : ∀ (x1 x2 : Vec Ideal Cert.KernelIdeal.S8x3x128x128 .f32) (xo : Vec Ideal Cert.KernelIdeal.S1x1 .f32) (j : Cert.KernelIdeal.S1x1.Idx),
      Cert.KTerms.stSq x1 x2 xo j = xo j + ∑ b : Fin 8, sqB (smp3 x1 b) (smp3 x2 b))
    (H4 : ∀ (x1 : Vec Ideal Cert.KernelIdeal.S8x3x128x128 .f32) (xo : Vec Ideal Cert.KernelIdeal.S1x1 .f32) (j : Cert.KernelIdeal.S1x1.Idx),
      Cert.KTerms.stBnd x1 xo j = xo j + ∑ b : Fin 8, bndB (smp3 x1 b))
    (H5 : ∀ (x1 : Vec Ideal Cert.KernelIdeal.S8x3x128x128 .f32) (xo : Vec Ideal Cert.KernelIdeal.S1x1 .f32) (j : Cert.KernelIdeal.S1x1.Idx),
      Cert.KTerms.stCont x1 xo j = xo j + ∑ b : Fin 8, contB (smp3 x1 b))
    (H6 : ∀ (x0 : Vec Ideal Cert.KernelIdeal.S8x1x128x128 .f32) (x1 : Vec Ideal Cert.KernelIdeal.S8x3x128x128 .f32) (xo : Vec Ideal Cert.KernelIdeal.S1x1 .f32) (j : Cert.KernelIdeal.S1x1.Idx),
      Cert.KTerms.stNsx x0 x1 xo j = xo j + ∑ b : Fin 8, nsxB (smp3 x1 b) (smp1 x0 b))
    (H7 : ∀ (x0 : Vec Ideal Cert.KernelIdeal.S8x1x128x128 .f32) (x1 : Vec Ideal Cert.KernelIdeal.S8x3x128x128 .f32) (xo : Vec Ideal Cert.KernelIdeal.S1x1 .f32) (j : Cert.KernelIdeal.S1x1.Idx),
      Cert.KTerms.stNsy x0 x1 xo j = xo j + ∑ b : Fin 8, nsyB (smp3 x1 b) (smp1 x0 b))
    (HR : ∀ V0 : Valuation Cert.ReferenceIdeal.τ Cert.ReferenceIdeal.sig (Elt Ideal),
      Cert.ReferenceIdeal.Value.val7 V0 (Proc.devRef .tc Cert.ReferenceIdeal.main_v304)
        = fun _ => lossR
          (∑ B : Fin 256, sqB (smp3 (V0 (Proc.devRef .tc Cert.ReferenceIdeal.main_arg1)) B) (smp3 (V0 (Proc.devRef .tc Cert.ReferenceIdeal.main_arg2)) B))
          (∑ B : Fin 256, bndB (smp3 (V0 (Proc.devRef .tc Cert.ReferenceIdeal.main_arg1)) B))
          (∑ B : Fin 256, contB (smp3 (V0 (Proc.devRef .tc Cert.ReferenceIdeal.main_arg1)) B))
          (∑ B : Fin 256, (Ideal.div (nsxB (smp3 (V0 (Proc.devRef .tc Cert.ReferenceIdeal.main_arg1)) B) (smp1 (V0 (Proc.devRef .tc Cert.ReferenceIdeal.main_arg0)) B)) nPix
            + Ideal.div (nsyB (smp3 (V0 (Proc.devRef .tc Cert.ReferenceIdeal.main_arg1)) B) (smp1 (V0 (Proc.devRef .tc Cert.ReferenceIdeal.main_arg0)) B)) nPix))) :
    Cert.algebraic_KernelIdeal_ReferenceIdeal := by
  intro m ρ m' ρ' _ hagree
  refine ⟨fun c => fun _ => Cert.KAcc.kval m c, Cert.KAcc.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val7_main_v304 (StableHlo.launchContents m' c)).symm.trans (HR _)).trans ?_
  show _ = (fun _ => Cert.KAcc.kval m c)
  rw [kval_eq H3 H4 H5 H6 H7 m c, Cert.Law.lossK_eq_lossR]
  show (fun _ => lossR
      (∑ B : Fin 256, sqB (smp3 (m' ((c.tc : Thread Cert.ReferenceIdeal.nD Cert.ReferenceIdeal.τ).loc Cert.ReferenceIdeal.main_arg1)) B) (smp3 (m' ((c.tc : Thread Cert.ReferenceIdeal.nD Cert.ReferenceIdeal.τ).loc Cert.ReferenceIdeal.main_arg2)) B))
      (∑ B : Fin 256, bndB (smp3 (m' ((c.tc : Thread Cert.ReferenceIdeal.nD Cert.ReferenceIdeal.τ).loc Cert.ReferenceIdeal.main_arg1)) B))
      (∑ B : Fin 256, contB (smp3 (m' ((c.tc : Thread Cert.ReferenceIdeal.nD Cert.ReferenceIdeal.τ).loc Cert.ReferenceIdeal.main_arg1)) B))
      (∑ B : Fin 256, (Ideal.div (nsxB (smp3 (m' ((c.tc : Thread Cert.ReferenceIdeal.nD Cert.ReferenceIdeal.τ).loc Cert.ReferenceIdeal.main_arg1)) B) (smp1 (m' ((c.tc : Thread Cert.ReferenceIdeal.nD Cert.ReferenceIdeal.τ).loc Cert.ReferenceIdeal.main_arg0)) B)) nPix
        + Ideal.div (nsyB (smp3 (m' ((c.tc : Thread Cert.ReferenceIdeal.nD Cert.ReferenceIdeal.τ).loc Cert.ReferenceIdeal.main_arg1)) B) (smp1 (m' ((c.tc : Thread Cert.ReferenceIdeal.nD Cert.ReferenceIdeal.τ).loc Cert.ReferenceIdeal.main_arg0)) B)) nPix))) = _
  rw [(hagree c).1, (hagree c).2.1, (hagree c).2.2]
  rfl

end Cert.Assemble

end
-- ==== Proof.KStencil.lean ====
/-
  The three-point difference quotient of a stack of 126 × 126 fields, along a row and along a column, as a vector
  unit forms it: three quotients of shifted slices (one-sided, central, one-sided) laid end to end along the axis.
  Read at an entry, it is the difference quotient of the line of 126 samples through that entry.
-/
import proofs.«121105_j56899726737553_2_alg».proof.Proof.Spec
import Idealize.ShloMosaic.Lib.ValueLayout

noncomputable section

open scoped BigOperators

namespace Cert.KStencil

open Idealize.ShloMosaic Idealize.ShloMosaic.ValueIdx

/-! ## A three-piece concatenation read in each of its pieces -/

section Pieces
variable {α : Type} {t s0 s1 s2 : Shape}

/-- In the first piece: the piece at the same coordinates. -/
theorem concat3_piece0 (a : Fin t.rank) (x0 : s0.Idx → α) (x1 : s1.Idx → α) (x2 : s2.Idx → α)
    (h : Shape.Concatenates [s0, s1, s2] t a) (j : t.Idx) (hr : s0.rank = t.rank) (i : s0.Idx)
    (hi : ∀ b : Fin s0.rank, b.cast hr ≠ a → (i b).val = (j (b.cast hr)).val)
    (ha : 0 + (i (a.cast hr.symm)).val = (j a).val) :
    concatenate t a [⟨s0, x0⟩, ⟨s1, x1⟩, ⟨s2, x2⟩] h j = x0 i :=
  concatenate_apply_piece a [⟨s0, x0⟩, ⟨s1, x1⟩, ⟨s2, x2⟩] h j 0 (Nat.succ_pos _) s0 x0 rfl hr 0 rfl i hi ha

/-- In the second piece: the piece at the axis coordinate less the first piece's extent `pre`. -/
theorem concat3_piece1 (a : Fin t.rank) (x0 : s0.Idx → α) (x1 : s1.Idx → α) (x2 : s2.Idx → α)
    (h : Shape.Concatenates [s0, s1, s2] t a) (j : t.Idx) (hr : s1.rank = t.rank) (pre : Nat)
    (hpre : ([s0].map fun s => if h : s.rank = t.rank then s.size (a.cast h.symm) else 0).sum = pre) (i : s1.Idx)
    (hi : ∀ b : Fin s1.rank, b.cast hr ≠ a → (i b).val = (j (b.cast hr)).val)
    (ha : pre + (i (a.cast hr.symm)).val = (j a).val) :
    concatenate t a [⟨s0, x0⟩, ⟨s1, x1⟩, ⟨s2, x2⟩] h j = x1 i :=
  concatenate_apply_piece a [⟨s0, x0⟩, ⟨s1, x1⟩, ⟨s2, x2⟩] h j 1 (Nat.succ_lt_succ (Nat.succ_pos _)) s1 x1 rfl hr pre hpre i hi ha

/-- In the third piece: the piece at the axis coordinate less the first two pieces' extents `pre`. -/
theorem concat3_piece2 (a : Fin t.rank) (x0 : s0.Idx → α) (x1 : s1.Idx → α) (x2 : s2.Idx → α)
    (h : Shape.Concatenates [s0, s1, s2] t a) (j : t.Idx) (hr : s2.rank = t.rank) (pre : Nat)
    (hpre : ([s0, s1].map fun s => if h : s.rank = t.rank then s.size (a.cast h.symm) else 0).sum = pre) (i : s2.Idx)
    (hi : ∀ b : Fin s2.rank, b.cast hr ≠ a → (i b).val = (j (b.cast hr)).val)
    (ha : pre + (i (a.cast hr.symm)).val = (j a).val) :
    concatenate t a [⟨s0, x0⟩, ⟨s1, x1⟩, ⟨s2, x2⟩] h j = x2 i :=
  concatenate_apply_piece a [⟨s0, x0⟩, ⟨s1, x1⟩, ⟨s2, x2⟩] h j 2 (Nat.succ_lt_succ (Nat.succ_lt_succ (Nat.succ_pos _))) s2 x2 rfl hr pre hpre i hi ha

end Pieces

variable {n : Nat}

/-- The difference quotient along the last axis of a stack of 126 × 126 fields: the one-sided quotient in the first
    column, the central quotients in the 124 columns between, the one-sided quotient in the last column, laid side
    by side. -/
def gradX (hw hw2 : Ideal .f32) (v : FVec Ideal ⟨3, ![n, 126, 126]⟩ .f32)
    (s1 : (⟨3, ![n, 126, 126]⟩ : Shape).Slices ![0, 0, 1] ⟨3, ![n, 126, 1]⟩)
    (s0 : (⟨3, ![n, 126, 126]⟩ : Shape).Slices ![0, 0, 0] ⟨3, ![n, 126, 1]⟩)
    (s2 : (⟨3, ![n, 126, 126]⟩ : Shape).Slices ![0, 0, 2] ⟨3, ![n, 126, 124]⟩)
    (s0' : (⟨3, ![n, 126, 126]⟩ : Shape).Slices ![0, 0, 0] ⟨3, ![n, 126, 124]⟩)
    (s125 : (⟨3, ![n, 126, 126]⟩ : Shape).Slices ![0, 0, 125] ⟨3, ![n, 126, 1]⟩)
    (s124 : (⟨3, ![n, 126, 126]⟩ : Shape).Slices ![0, 0, 124] ⟨3, ![n, 126, 1]⟩)
    (hc : Shape.Concatenates [⟨3, ![n, 126, 1]⟩, ⟨3, ![n, 126, 124]⟩, ⟨3, ![n, 126, 1]⟩] ⟨3, ![n, 126, 126]⟩ 2) :
    FVec Ideal ⟨3, ![n, 126, 126]⟩ .f32 :=
  concatenate ⟨3, ![n, 126, 126]⟩ 2
    [⟨⟨3, ![n, 126, 1]⟩, divf (subf (extractStridedSlice ⟨3, ![n, 126, 1]⟩ ![0, 0, 1] v s1)
        (extractStridedSlice ⟨3, ![n, 126, 1]⟩ ![0, 0, 0] v s0)) (broadcast ⟨3, ![n, 126, 1]⟩ hw)⟩,
     ⟨⟨3, ![n, 126, 124]⟩, divf (subf (extractStridedSlice ⟨3, ![n, 126, 124]⟩ ![0, 0, 2] v s2)
        (extractStridedSlice ⟨3, ![n, 126, 124]⟩ ![0, 0, 0] v s0')) (broadcast ⟨3, ![n, 126, 124]⟩ hw2)⟩,
     ⟨⟨3, ![n, 126, 1]⟩, divf (subf (extractStridedSlice ⟨3, ![n, 126, 1]⟩ ![0, 0, 125] v s125)
        (extractStridedSlice ⟨3, ![n, 126, 1]⟩ ![0, 0, 124] v s124)) (broadcast ⟨3, ![n, 126, 1]⟩ hw)⟩] hc

/-- A stack of matrices cut along its last axis from `o` reads, at `(a, e, j)`, the source at `(a, e, k)`, `k = o + j`. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (e : Fin n1) (j : Fin m) (k : Fin n2) (hk : k.val = o + j.val) :
    extractStridedSlice ⟨3, ![n0, n1, m]⟩ ![0, 0, o] X h (ix3 a e j) = X (ix3 a e k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Read at `(b, y, x)`: the difference quotient, at `x`, of row `y` of sample `b`. -/
theorem gradX_apply (hw hw2 : Ideal .f32) (v : FVec Ideal ⟨3, ![n, 126, 126]⟩ .f32)
    (s1 : (⟨3, ![n, 126, 126]⟩ : Shape).Slices ![0, 0, 1] ⟨3, ![n, 126, 1]⟩)
    (s0 : (⟨3, ![n, 126, 126]⟩ : Shape).Slices ![0, 0, 0] ⟨3, ![n, 126, 1]⟩)
    (s2 : (⟨3, ![n, 126, 126]⟩ : Shape).Slices ![0, 0, 2] ⟨3, ![n, 126, 124]⟩)
    (s0' : (⟨3, ![n, 126, 126]⟩ : Shape).Slices ![0, 0, 0] ⟨3, ![n, 126, 124]⟩)
    (s125 : (⟨3, ![n, 126, 126]⟩ : Shape).Slices ![0, 0, 125] ⟨3, ![n, 126, 1]⟩)
    (s124 : (⟨3, ![n, 126, 126]⟩ : Shape).Slices ![0, 0, 124] ⟨3, ![n, 126, 1]⟩)
    (hc : Shape.Concatenates [⟨3, ![n, 126, 1]⟩, ⟨3, ![n, 126, 124]⟩, ⟨3, ![n, 126, 1]⟩] ⟨3, ![n, 126, 126]⟩ 2)
    (b : Fin n) (y x : Fin 126) :
    gradX hw hw2 v s1 s0 s2 s0' s125 s124 hc (ix3 b y x)
      = Cert.Spec.grad1 hw hw2 (fun x' => v (ix3 b y x')) x := by
  unfold gradX Cert.Spec.grad1
  by_cases h0 : x.val = 0
  · rw [if_pos h0]
    refine (concat3_piece0 (s0 := ⟨3, ![n, 126, 1]⟩) (s1 := ⟨3, ![n, 126, 124]⟩) (s2 := ⟨3, ![n, 126, 1]⟩) (2 : Fin 3) _ _ _ hc (ix3 b y x) rfl (ix3 b y (0 : Fin 1)) (fun c hcn => ?_) ?_).trans ?_
    · match c with
      | ⟨0, _⟩ => rfl
      | ⟨1, _⟩ => rfl
      | ⟨2, _⟩ => exact absurd rfl hcn
    · show 0 + 0 = x.val
      omega
    · show Ideal.div (extractStridedSlice ⟨3, ![n, 126, 1]⟩ ![0, 0, 1] v s1 (ix3 b y (0 : Fin 1))
          - extractStridedSlice ⟨3, ![n, 126, 1]⟩ ![0, 0, 0] v s0 (ix3 b y (0 : Fin 1))) hw = _
      rw [slice3_axis2_apply 1 v s1 b y 0 ⟨1, by omega⟩ rfl, slice3_axis2_apply 0 v s0 b y 0 ⟨0, by omega⟩ rfl]
  · rw [if_neg h0]
    by_cases h125 : x.val = 125
    · rw [dif_pos h125]
      refine (concat3_piece2 (s0 := ⟨3, ![n, 126, 1]⟩) (s1 := ⟨3, ![n, 126, 124]⟩) (s2 := ⟨3, ![n, 126, 1]⟩) (2 : Fin 3) _ _ _ hc (ix3 b y x) rfl 125 rfl (ix3 b y (0 : Fin 1)) (fun c hcn => ?_) ?_).trans ?_
      · match c with
        | ⟨0, _⟩ => rfl
        | ⟨1, _⟩ => rfl
        | ⟨2, _⟩ => exact absurd rfl hcn
      · show 125 + 0 = x.val
        omega
      · show Ideal.div (extractStridedSlice ⟨3, ![n, 126, 1]⟩ ![0, 0, 125] v s125 (ix3 b y (0 : Fin 1))
            - extractStridedSlice ⟨3, ![n, 126, 1]⟩ ![0, 0, 124] v s124 (ix3 b y (0 : Fin 1))) hw = _
        rw [slice3_axis2_apply 125 v s125 b y 0 ⟨125, by omega⟩ rfl, slice3_axis2_apply 124 v s124 b y 0 ⟨124, by omega⟩ rfl]
    · rw [dif_neg h125]
      have hx := x.isLt
      refine (concat3_piece1 (s0 := ⟨3, ![n, 126, 1]⟩) (s1 := ⟨3, ![n, 126, 124]⟩) (s2 := ⟨3, ![n, 126, 1]⟩) (2 : Fin 3) _ _ _ hc (ix3 b y x) rfl 1 rfl (ix3 b y (⟨x.val - 1, by omega⟩ : Fin 124)) (fun c hcn => ?_) ?_).trans ?_
      · match c with
        | ⟨0, _⟩ => rfl
        | ⟨1, _⟩ => rfl
        | ⟨2, _⟩ => exact absurd rfl hcn
      · show 1 + (x.val - 1) = x.val
        omega
      · show Ideal.div (extractStridedSlice ⟨3, ![n, 126, 124]⟩ ![0, 0, 2] v s2 (ix3 b y (⟨x.val - 1, by omega⟩ : Fin 124))
            - extractStridedSlice ⟨3, ![n, 126, 124]⟩ ![0, 0, 0] v s0' (ix3 b y (⟨x.val - 1, by omega⟩ : Fin 124))) hw2 = _
        rw [slice3_axis2_apply 2 v s2 b y ⟨x.val - 1, by omega⟩ ⟨x.val + 1, by omega⟩ (by show x.val + 1 = 2 + (x.val - 1); omega),
          slice3_axis2_apply 0 v s0' b y ⟨x.val - 1, by omega⟩ ⟨x.val - 1, by omega⟩ (by show x.val - 1 = 0 + (x.val - 1); omega)]

/-- The difference quotient along the middle axis of a stack of 126 × 126 fields: the one-sided quotient in the first
    row, the central quotients in the 124 rows between, the one-sided quotient in the last row, stacked. -/
def gradY (hw hw2 : Ideal .f32) (v : FVec Ideal ⟨3, ![n, 126, 126]⟩ .f32)
    (s1 : (⟨3, ![n, 126, 126]⟩ : Shape).Slices ![0, 1, 0] ⟨3, ![n, 1, 126]⟩)
    (s0 : (⟨3, ![n, 126, 126]⟩ : Shape).Slices ![0, 0, 0] ⟨3, ![n, 1, 126]⟩)
    (s2 : (⟨3, ![n, 126, 126]⟩ : Shape).Slices ![0, 2, 0] ⟨3, ![n, 124, 126]⟩)
    (s0' : (⟨3, ![n, 126, 126]⟩ : Shape).Slices ![0, 0, 0] ⟨3, ![n, 124, 126]⟩)
    (s125 : (⟨3, ![n, 126, 126]⟩ : Shape).Slices ![0, 125, 0] ⟨3, ![n, 1, 126]⟩)
    (s124 : (⟨3, ![n, 126, 126]⟩ : Shape).Slices ![0, 124, 0] ⟨3, ![n, 1, 126]⟩)
    (hc : Shape.Concatenates [⟨3, ![n, 1, 126]⟩, ⟨3, ![n, 124, 126]⟩, ⟨3, ![n, 1, 126]⟩] ⟨3, ![n, 126, 126]⟩ 1) :
    FVec Ideal ⟨3, ![n, 126, 126]⟩ .f32 :=
  concatenate ⟨3, ![n, 126, 126]⟩ 1
    [⟨⟨3, ![n, 1, 126]⟩, divf (subf (extractStridedSlice ⟨3, ![n, 1, 126]⟩ ![0, 1, 0] v s1)
        (extractStridedSlice ⟨3, ![n, 1, 126]⟩ ![0, 0, 0] v s0)) (broadcast ⟨3, ![n, 1, 126]⟩ hw)⟩,
     ⟨⟨3, ![n, 124, 126]⟩, divf (subf (extractStridedSlice ⟨3, ![n, 124, 126]⟩ ![0, 2, 0] v s2)
        (extractStridedSlice ⟨3, ![n, 124, 126]⟩ ![0, 0, 0] v s0')) (broadcast ⟨3, ![n, 124, 126]⟩ hw2)⟩,
     ⟨⟨3, ![n, 1, 126]⟩, divf (subf (extractStridedSlice ⟨3, ![n, 1, 126]⟩ ![0, 125, 0] v s125)
        (extractStridedSlice ⟨3, ![n, 1, 126]⟩ ![0, 124, 0] v s124)) (broadcast ⟨3, ![n, 1, 126]⟩ hw)⟩] hc

/-- Read at `(b, y, x)`: the difference quotient, at `y`, of column `x` of sample `b`. -/
theorem gradY_apply (hw hw2 : Ideal .f32) (v : FVec Ideal ⟨3, ![n, 126, 126]⟩ .f32)
    (s1 : (⟨3, ![n, 126, 126]⟩ : Shape).Slices ![0, 1, 0] ⟨3, ![n, 1, 126]⟩)
    (s0 : (⟨3, ![n, 126, 126]⟩ : Shape).Slices ![0, 0, 0] ⟨3, ![n, 1, 126]⟩)
    (s2 : (⟨3, ![n, 126, 126]⟩ : Shape).Slices ![0, 2, 0] ⟨3, ![n, 124, 126]⟩)
    (s0' : (⟨3, ![n, 126, 126]⟩ : Shape).Slices ![0, 0, 0] ⟨3, ![n, 124, 126]⟩)
    (s125 : (⟨3, ![n, 126, 126]⟩ : Shape).Slices ![0, 125, 0] ⟨3, ![n, 1, 126]⟩)
    (s124 : (⟨3, ![n, 126, 126]⟩ : Shape).Slices ![0, 124, 0] ⟨3, ![n, 1, 126]⟩)
    (hc : Shape.Concatenates [⟨3, ![n, 1, 126]⟩, ⟨3, ![n, 124, 126]⟩, ⟨3, ![n, 1, 126]⟩] ⟨3, ![n, 126, 126]⟩ 1)
    (b : Fin n) (y x : Fin 126) :
    gradY hw hw2 v s1 s0 s2 s0' s125 s124 hc (ix3 b y x)
      = Cert.Spec.grad1 hw hw2 (fun y' => v (ix3 b y' x)) y := by
  unfold gradY Cert.Spec.grad1
  by_cases h0 : y.val = 0
  · rw [if_pos h0]
    refine (concat3_piece0 (s0 := ⟨3, ![n, 1, 126]⟩) (s1 := ⟨3, ![n, 124, 126]⟩) (s2 := ⟨3, ![n, 1, 126]⟩) (1 : Fin 3) _ _ _ hc (ix3 b y x) rfl (ix3 b (0 : Fin 1) x) (fun c hcn => ?_) ?_).trans ?_
    · match c with
      | ⟨0, _⟩ => rfl
      | ⟨1, _⟩ => exact absurd rfl hcn
      | ⟨2, _⟩ => rfl
    · show 0 + 0 = y.val
      omega
    · show Ideal.div (extractStridedSlice ⟨3, ![n, 1, 126]⟩ ![0, 1, 0] v s1 (ix3 b (0 : Fin 1) x)
          - extractStridedSlice ⟨3, ![n, 1, 126]⟩ ![0, 0, 0] v s0 (ix3 b (0 : Fin 1) x)) hw = _
      rw [slice3_axis1_apply 1 v s1 b 0 x ⟨1, by omega⟩ rfl, slice3_axis1_apply 0 v s0 b 0 x ⟨0, by omega⟩ rfl]
  · rw [if_neg h0]
    by_cases h125 : y.val = 125
    · rw [dif_pos h125]
      refine (concat3_piece2 (s0 := ⟨3, ![n, 1, 126]⟩) (s1 := ⟨3, ![n, 124, 126]⟩) (s2 := ⟨3, ![n, 1, 126]⟩) (1 : Fin 3) _ _ _ hc (ix3 b y x) rfl 125 rfl (ix3 b (0 : Fin 1) x) (fun c hcn => ?_) ?_).trans ?_
      · match c with
        | ⟨0, _⟩ => rfl
        | ⟨1, _⟩ => exact absurd rfl hcn
        | ⟨2, _⟩ => rfl
      · show 125 + 0 = y.val
        omega
      · show Ideal.div (extractStridedSlice ⟨3, ![n, 1, 126]⟩ ![0, 125, 0] v s125 (ix3 b (0 : Fin 1) x)
            - extractStridedSlice ⟨3, ![n, 1, 126]⟩ ![0, 124, 0] v s124 (ix3 b (0 : Fin 1) x)) hw = _
        rw [slice3_axis1_apply 125 v s125 b 0 x ⟨125, by omega⟩ rfl, slice3_axis1_apply 124 v s124 b 0 x ⟨124, by omega⟩ rfl]
    · rw [dif_neg h125]
      have hy := y.isLt
      refine (concat3_piece1 (s0 := ⟨3, ![n, 1, 126]⟩) (s1 := ⟨3, ![n, 124, 126]⟩) (s2 := ⟨3, ![n, 1, 126]⟩) (1 : Fin 3) _ _ _ hc (ix3 b y x) rfl 1 rfl (ix3 b (⟨y.val - 1, by omega⟩ : Fin 124) x) (fun c hcn => ?_) ?_).trans ?_
      · match c with
        | ⟨0, _⟩ => rfl
        | ⟨1, _⟩ => exact absurd rfl hcn
        | ⟨2, _⟩ => rfl
      · show 1 + (y.val - 1) = y.val
        omega
      · show Ideal.div (extractStridedSlice ⟨3, ![n, 124, 126]⟩ ![0, 2, 0] v s2 (ix3 b (⟨y.val - 1, by omega⟩ : Fin 124) x)
            - extractStridedSlice ⟨3, ![n, 124, 126]⟩ ![0, 0, 0] v s0' (ix3 b (⟨y.val - 1, by omega⟩ : Fin 124) x)) hw2 = _
        rw [slice3_axis1_apply 2 v s2 b ⟨y.val - 1, by omega⟩ x ⟨y.val + 1, by omega⟩ (by show y.val + 1 = 2 + (y.val - 1); omega),
          slice3_axis1_apply 0 v s0' b ⟨y.val - 1, by omega⟩ x ⟨y.val - 1, by omega⟩ (by show y.val - 1 = 0 + (y.val - 1); omega)]

/-! ## The quotients of a stack whose entries are known fields -/

/-- If the stack's sample `b` is the field `f b`, its quotient along the last axis is `∂ₓ (f b)` … -/
theorem gradX_field (v : FVec Ideal ⟨3, ![n, 126, 126]⟩ .f32)
    (s1 : (⟨3, ![n, 126, 126]⟩ : Shape).Slices ![0, 0, 1] ⟨3, ![n, 126, 1]⟩)
    (s0 : (⟨3, ![n, 126, 126]⟩ : Shape).Slices ![0, 0, 0] ⟨3, ![n, 126, 1]⟩)
    (s2 : (⟨3, ![n, 126, 126]⟩ : Shape).Slices ![0, 0, 2] ⟨3, ![n, 126, 124]⟩)
    (s0' : (⟨3, ![n, 126, 126]⟩ : Shape).Slices ![0, 0, 0] ⟨3, ![n, 126, 124]⟩)
    (s125 : (⟨3, ![n, 126, 126]⟩ : Shape).Slices ![0, 0, 125] ⟨3, ![n, 126, 1]⟩)
    (s124 : (⟨3, ![n, 126, 126]⟩ : Shape).Slices ![0, 0, 124] ⟨3, ![n, 126, 1]⟩)
    (hc : Shape.Concatenates [⟨3, ![n, 126, 1]⟩, ⟨3, ![n, 126, 124]⟩, ⟨3, ![n, 126, 1]⟩] ⟨3, ![n, 126, 126]⟩ 2)
    (f : Fin n → Cert.Spec.Fld) (hf : ∀ b y x, v (ix3 b y x) = f b y x) (b : Fin n) (y x : Fin 126) :
    gradX Cert.Spec.hX Cert.Spec.hX2 v s1 s0 s2 s0' s125 s124 hc (ix3 b y x) = Cert.Spec.gx (f b) y x :=
  (gradX_apply _ _ v s1 s0 s2 s0' s125 s124 hc b y x).trans
    (congrArg (fun g => Cert.Spec.grad1 Cert.Spec.hX Cert.Spec.hX2 g x) (funext fun x' => hf b y x'))

/-- … and along the middle axis `∂ᵧ (f b)`. -/
theorem gradY_field (v : FVec Ideal ⟨3, ![n, 126, 126]⟩ .f32)
    (s1 : (⟨3, ![n, 126, 126]⟩ : Shape).Slices ![0, 1, 0] ⟨3, ![n, 1, 126]⟩)
    (s0 : (⟨3, ![n, 126, 126]⟩ : Shape).Slices ![0, 0, 0] ⟨3, ![n, 1, 126]⟩)
    (s2 : (⟨3, ![n, 126, 126]⟩ : Shape).Slices ![0, 2, 0] ⟨3, ![n, 124, 126]⟩)
    (s0' : (⟨3, ![n, 126, 126]⟩ : Shape).Slices ![0, 0, 0] ⟨3, ![n, 124, 126]⟩)
    (s125 : (⟨3, ![n, 126, 126]⟩ : Shape).Slices ![0, 125, 0] ⟨3, ![n, 1, 126]⟩)
    (s124 : (⟨3, ![n, 126, 126]⟩ : Shape).Slices ![0, 124, 0] ⟨3, ![n, 1, 126]⟩)
    (hc : Shape.Concatenates [⟨3, ![n, 1, 126]⟩, ⟨3, ![n, 124, 126]⟩, ⟨3, ![n, 1, 126]⟩] ⟨3, ![n, 126, 126]⟩ 1)
    (f : Fin n → Cert.Spec.Fld) (hf : ∀ b y x, v (ix3 b y x) = f b y x) (b : Fin n) (y x : Fin 126) :
    gradY Cert.Spec.hY Cert.Spec.hY2 v s1 s0 s2 s0' s125 s124 hc (ix3 b y x) = Cert.Spec.gy (f b) y x :=
  (gradY_apply _ _ v s1 s0 s2 s0' s125 s124 hc b y x).trans
    (congrArg (fun g => Cert.Spec.grad1 Cert.Spec.hY Cert.Spec.hY2 g y) (funext fun y' => hf b y' x))

end Cert.KStencil

end
-- ==== Proof.KFields.lean ====
/-
  The kernel body's fields, read entry by entry. A block holds eight samples; on the 126 × 126 interior the body
  takes the pressure, the two velocity components and the drag coefficient of each sample, forms their first and
  second difference quotients, and from them the continuity residual and the two momentum residuals. At entry
  (b, y, x) each of these is the corresponding quantity of sample b of the block at (y, x).
-/
import proofs.«121105_j56899726737553_2_alg».proof.Proof.KernelTerms
import proofs.«121105_j56899726737553_2_alg».proof.Proof.Samples
import proofs.«121105_j56899726737553_2_alg».proof.Proof.KStencil

noncomputable section

open scoped BigOperators

namespace Cert.KFields

open Idealize.ShloMosaic Idealize.ShloMosaic.ValueIdx Cert.KernelIdeal Cert.KernelIdeal.Gen Cert.KTerms Cert.Spec

/-! ## The fields of sample `b` of a block on the interior -/

/-- Pressure, the two velocity components and the coefficient of sample `b`, on the interior. -/
def fldP (x1 : Vec Ideal S8x3x128x128 .f32) (b : Fin 8) : Fld := inner (smp3 x1 b 0)
def fldU (x1 : Vec Ideal S8x3x128x128 .f32) (b : Fin 8) : Fld := inner (smp3 x1 b 1)
def fldV (x1 : Vec Ideal S8x3x128x128 .f32) (b : Fin 8) : Fld := inner (smp3 x1 b 2)
def fldA (x0 : Vec Ideal S8x1x128x128 .f32) (b : Fin 8) : Fld := inner (smp1 x0 b)

/-- One channel `c` of a three-channel stack of interior fields, the unit channel axis dropped. -/
theorem chan_apply {α : Type} (c : Nat) (hc : c < 3) (w : (⟨4, ![8, 3, 126, 126]⟩ : Shape).Idx → α)
    (h : (⟨4, ![8, 3, 126, 126]⟩ : Shape).Slices ![0, c, 0, 0] ⟨4, ![8, 1, 126, 126]⟩)
    (h' : (⟨4, ![8, 1, 126, 126]⟩ : Shape).ShapeCasts ⟨3, ![8, 126, 126]⟩) (b : Fin 8) (y x : Fin 126) :
    shapeCast ⟨3, ![8, 126, 126]⟩ (extractStridedSlice ⟨4, ![8, 1, 126, 126]⟩ ![0, c, 0, 0] w h) h' (ix3 b y x)
      = w (ix4 b ⟨c, hc⟩ y x) :=
  (shapeCast_apply _ h' (ix3 b y x) (ix4 b (0 : Fin 1) y x) (by
    rw [Shape.rowMajor_val_four, Shape.rowMajor_val_three]
    show ((b.val * 1 + 0) * 126 + y.val) * 126 + x.val = (b.val * 126 + y.val) * 126 + x.val
    omega)).trans
  (extractStridedSlice_apply _ w h _ (ix4 b ⟨c, hc⟩ y x) (fun ax => by
    match ax with
    | ⟨0, _⟩ => exact (Nat.zero_add _).symm
    | ⟨1, _⟩ => exact (Nat.add_zero _).symm
    | ⟨2, _⟩ => exact (Nat.zero_add _).symm
    | ⟨3, _⟩ => exact (Nat.zero_add _).symm))

variable (x0 : Vec Ideal S8x1x128x128 .f32) (x1 : Vec Ideal S8x3x128x128 .f32)

/-- The outputs' interior crop reads the block one row and one column further in. -/
theorem cropO_apply (b : Fin 8) (c : Fin 3) (y x : Fin 126) :
    cropO x1 (ix4 b c y x) = x1 (ix4 b c ⟨y.val + 1, by omega⟩ ⟨x.val + 1, by omega⟩) :=
  extractStridedSlice_apply _ x1 slices_S8x3x128x128_o0_0_1_1_S8x3x126x126 _ _ (fun ax => by
    match ax with
    | ⟨0, _⟩ => exact (Nat.zero_add _).symm
    | ⟨1, _⟩ => exact (Nat.zero_add _).symm
    | ⟨2, _⟩ => exact Nat.add_comm _ _
    | ⟨3, _⟩ => exact Nat.add_comm _ _)

/-- The inputs' interior crop likewise. -/
theorem cropA_apply (b : Fin 8) (c : Fin 1) (y x : Fin 126) :
    cropA x0 (ix4 b c y x) = x0 (ix4 b c ⟨y.val + 1, by omega⟩ ⟨x.val + 1, by omega⟩) :=
  extractStridedSlice_apply _ x0 slices_S8x1x128x128_o0_0_1_1_S8x1x126x126 _ _ (fun ax => by
    match ax with
    | ⟨0, _⟩ => exact (Nat.zero_add _).symm
    | ⟨1, _⟩ => exact (Nat.zero_add _).symm
    | ⟨2, _⟩ => exact Nat.add_comm _ _
    | ⟨3, _⟩ => exact Nat.add_comm _ _)

/-- The four fields of the block at entry `(b, y, x)` are sample `b`'s fields at `(y, x)`. -/
theorem fP_apply (b : Fin 8) (y x : Fin 126) : fP x1 (ix3 b y x) = fldP x1 b y x :=
  (chan_apply 0 (by omega) (cropO x1) slices_S8x3x126x126_o0_0_0_0_S8x1x126x126 shapeCasts_S8x1x126x126_S8x126x126 b y x).trans (cropO_apply x1 b 0 y x)

theorem fU_apply (b : Fin 8) (y x : Fin 126) : fU x1 (ix3 b y x) = fldU x1 b y x :=
  (chan_apply 1 (by omega) (cropO x1) slices_S8x3x126x126_o0_1_0_0_S8x1x126x126 shapeCasts_S8x1x126x126_S8x126x126 b y x).trans (cropO_apply x1 b 1 y x)

theorem fV_apply (b : Fin 8) (y x : Fin 126) : fV x1 (ix3 b y x) = fldV x1 b y x :=
  (chan_apply 2 (by omega) (cropO x1) slices_S8x3x126x126_o0_2_0_0_S8x1x126x126 shapeCasts_S8x1x126x126_S8x126x126 b y x).trans (cropO_apply x1 b 2 y x)

theorem fA_apply (b : Fin 8) (y x : Fin 126) : fA x0 (ix3 b y x) = fldA x0 b y x :=
  (shapeCast_apply (cropA x0) shapeCasts_S8x1x126x126_S8x126x126 (ix3 b y x) (ix4 b (0 : Fin 1) y x) (by
    rw [Shape.rowMajor_val_four, Shape.rowMajor_val_three]
    show ((b.val * 1 + 0) * 126 + y.val) * 126 + x.val = (b.val * 126 + y.val) * 126 + x.val
    omega)).trans (cropA_apply x0 b 0 y x)

/-! ## The difference quotients of the block's fields -/

/-- The quotient along a row and along a column of a stack of eight interior fields, at the grid's two spacings. -/
def gX (v : FVec Ideal S8x126x126 .f32) : FVec Ideal S8x126x126 .f32 :=
  KStencil.gradX hX hX2 v slices_S8x126x126_o0_0_1_S8x126x1 slices_S8x126x126_o0_0_0_S8x126x1
    slices_S8x126x126_o0_0_2_S8x126x124 slices_S8x126x126_o0_0_0_S8x126x124 slices_S8x126x126_o0_0_125_S8x126x1
    slices_S8x126x126_o0_0_124_S8x126x1 concatenates_S8x126x1_S8x126x124_S8x126x1_S8x126x126_d2
def gY (v : FVec Ideal S8x126x126 .f32) : FVec Ideal S8x126x126 .f32 :=
  KStencil.gradY hY hY2 v slices_S8x126x126_o0_1_0_S8x1x126 slices_S8x126x126_o0_0_0_S8x1x126
    slices_S8x126x126_o0_2_0_S8x124x126 slices_S8x126x126_o0_0_0_S8x124x126 slices_S8x126x126_o0_125_0_S8x1x126
    slices_S8x126x126_o0_124_0_S8x1x126 concatenates_S8x1x126_S8x124x126_S8x1x126_S8x126x126_d1

theorem gX_field (v : FVec Ideal S8x126x126 .f32) (f : Fin 8 → Fld) (hf : ∀ b y x, v (ix3 b y x) = f b y x)
    (b : Fin 8) (y x : Fin 126) : gX v (ix3 b y x) = gx (f b) y x :=
  KStencil.gradX_field v _ _ _ _ _ _ _ f hf b y x
theorem gY_field (v : FVec Ideal S8x126x126 .f32) (f : Fin 8 → Fld) (hf : ∀ b y x, v (ix3 b y x) = f b y x)
    (b : Fin 8) (y x : Fin 126) : gY v (ix3 b y x) = gy (f b) y x :=
  KStencil.gradY_field v _ _ _ _ _ _ _ f hf b y x

/-- Each derivative the body forms is one of the two quotients of a field or of a first derivative (the body's own
    grouping of the operations aside). -/
theorem dPx_eq : dPx x1 = gX (fP x1) := rfl
theorem dPy_eq : dPy x1 = gY (fP x1) := rfl
theorem dUx_eq : dUx x1 = gX (fU x1) := rfl
theorem dUy_eq : dUy x1 = gY (fU x1) := rfl
theorem dVx_eq : dVx x1 = gX (fV x1) := rfl
theorem dVy_eq : dVy x1 = gY (fV x1) := rfl
theorem dUxx_eq : dUxx x1 = gX (dUx x1) := rfl
theorem dUyy_eq : dUyy x1 = gY (dUy x1) := rfl
theorem dVxx_eq : dVxx x1 = gX (dVx x1) := rfl

theorem dPx_apply (b : Fin 8) (y x : Fin 126) : dPx x1 (ix3 b y x) = gx (fldP x1 b) y x := by
  rw [dPx_eq]; exact gX_field _ _ (fP_apply x1) b y x
theorem dPy_apply (b : Fin 8) (y x : Fin 126) : dPy x1 (ix3 b y x) = gy (fldP x1 b) y x := by
  rw [dPy_eq]; exact gY_field _ _ (fP_apply x1) b y x
theorem dUx_apply (b : Fin 8) (y x : Fin 126) : dUx x1 (ix3 b y x) = gx (fldU x1 b) y x := by
  rw [dUx_eq]; exact gX_field _ _ (fU_apply x1) b y x
theorem dUy_apply (b : Fin 8) (y x : Fin 126) : dUy x1 (ix3 b y x) = gy (fldU x1 b) y x := by
  rw [dUy_eq]; exact gY_field _ _ (fU_apply x1) b y x
theorem dVx_apply (b : Fin 8) (y x : Fin 126) : dVx x1 (ix3 b y x) = gx (fldV x1 b) y x := by
  rw [dVx_eq]; exact gX_field _ _ (fV_apply x1) b y x
theorem dVy_apply (b : Fin 8) (y x : Fin 126) : dVy x1 (ix3 b y x) = gy (fldV x1 b) y x := by
  rw [dVy_eq]; exact gY_field _ _ (fV_apply x1) b y x
theorem dUxx_apply (b : Fin 8) (y x : Fin 126) : dUxx x1 (ix3 b y x) = gx (gx (fldU x1 b)) y x := by
  rw [dUxx_eq]; exact gX_field _ (fun b => gx (fldU x1 b)) (dUx_apply x1) b y x
theorem dUyy_apply (b : Fin 8) (y x : Fin 126) : dUyy x1 (ix3 b y x) = gy (gy (fldU x1 b)) y x := by
  rw [dUyy_eq]; exact gY_field _ (fun b => gy (fldU x1 b)) (dUy_apply x1) b y x
theorem dVxx_apply (b : Fin 8) (y x : Fin 126) : dVxx x1 (ix3 b y x) = gx (gx (fldV x1 b)) y x := by
  rw [dVxx_eq]; exact gX_field _ (fun b => gx (fldV x1 b)) (dVx_apply x1) b y x
theorem dVyy_apply (b : Fin 8) (y x : Fin 126) : gY (dVy x1) (ix3 b y x) = gy (gy (fldV x1 b)) y x :=
  gY_field _ (fun b => gy (fldV x1 b)) (dVy_apply x1) b y x

/-! ## The residuals -/

/-- The continuity residual of the block. -/
def contF (x1 : Vec Ideal S8x3x128x128 .f32) : FVec Ideal S8x126x126 .f32 := addf (dUx x1) (dVy x1)

/-- The second momentum residual of the block, complete with its last term. -/
def resY (x0 : Vec Ideal S8x1x128x128 .f32) (x1 : Vec Ideal S8x3x128x128 .f32) : FVec Ideal S8x126x126 .f32 :=
  addf (resY0 x1) (divf (mulf (fA x0) (fV x1)) (broadcast S8x126x126 (Scalar.ofBits .f32 0x3F800000#32)))

theorem contF_apply (b : Fin 8) (y x : Fin 126) :
    contF x1 (ix3 b y x) = cont (fldU x1 b) (fldV x1 b) y x := by
  show dUx x1 (ix3 b y x) + dVy x1 (ix3 b y x) = _
  rw [dUx_apply, dVy_apply]
  rfl

theorem resX_apply (b : Fin 8) (y x : Fin 126) :
    resX x0 x1 (ix3 b y x) = mom (fldU x1 b) (fldV x1 b) (fldA x0 b) (fldU x1 b) (gx (fldP x1 b)) y x := by
  show (fU x1 (ix3 b y x) * dUx x1 (ix3 b y x) + fV x1 (ix3 b y x) * dUy x1 (ix3 b y x)
        + Ideal.div (dPx x1 (ix3 b y x)) one
        - Ideal.div (one * (dUxx x1 (ix3 b y x) + dUyy x1 (ix3 b y x))) one)
      + Ideal.div (fA x0 (ix3 b y x) * fU x1 (ix3 b y x)) one = _
  rw [fU_apply, fV_apply, fA_apply, dUx_apply, dUy_apply, dPx_apply, dUxx_apply, dUyy_apply]
  rfl

theorem resY_apply (b : Fin 8) (y x : Fin 126) :
    resY x0 x1 (ix3 b y x) = mom (fldU x1 b) (fldV x1 b) (fldA x0 b) (fldV x1 b) (gy (fldP x1 b)) y x := by
  show (fU x1 (ix3 b y x) * dVx x1 (ix3 b y x) + fV x1 (ix3 b y x) * dVy x1 (ix3 b y x)
        + Ideal.div (dPy x1 (ix3 b y x)) one
        - Ideal.div (one * (dVxx x1 (ix3 b y x) + gY (dVy x1) (ix3 b y x))) one)
      + Ideal.div (fA x0 (ix3 b y x) * fV x1 (ix3 b y x)) one = _
  rw [dVyy_apply, fU_apply, fV_apply, fA_apply, dVx_apply, dVy_apply, dPy_apply, dVxx_apply]
  rfl

end Cert.KFields

end
-- ==== Proof.KSums.lean ====
/-
  The total of a block of extended reals, formed as a vector unit forms it: one axis summed at a time — leading axes
  first, entry by entry, until a matrix is left; then each row; then the column of row sums — with the views between
  a vector, a one-column matrix and a 1 × 1 matrix in between. Read at the one index of the result, every such chain
  is the nested finite sum over the block's coordinates; addition of extended reals is commutative and associative,
  so the sums are reordered to put the leading coordinate outermost.
-/
import Idealize.ShloMosaic.PureOps.Ideal.Laws
import Idealize.ShloMosaic.Lib.ValueLayout

noncomputable section

open scoped BigOperators

namespace Cert.KSums

open Idealize.ShloMosaic Idealize.ShloMosaic.ValueIdx

/-! ## A sum over one axis, read at an index given by coordinates -/

/-- A matrix summed down its columns. -/
theorem red2_axis0 {m n : Nat} (src : FVec Ideal ⟨2, ![m, n]⟩ .f32)
    (h : (⟨2, ![m, n]⟩ : Shape).Reduces [0] ⟨1, ![n]⟩) (hφ : FKind.Formats .f32)
    (hacc : (0x00000000#32 : BitVec 32) = FKind.add.neutral .f32 hφ) (i : Fin n) :
    multiReduction .add [0] ⟨1, ![n]⟩ src 0x00000000#32 h hφ hacc (ix1 i) = ∑ k : Fin m, src (ix2 k i) :=
  (Ideal.multiReduction_add_single src _ h hφ hacc (ix1 i)).trans
    (Finset.sum_congr rfl fun k _ => congrArg src (funext fun c => by
      match c with
      | ⟨0, _⟩ => exact Fin.ext rfl
      | ⟨1, _⟩ => exact Fin.ext rfl))

/-- A matrix summed along its rows. -/
theorem red2_axis1 {m n : Nat} (src : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (i : Fin m) :
    multiReduction .add [1] ⟨1, ![m]⟩ src 0x00000000#32 h hφ hacc (ix1 i) = ∑ k : Fin n, src (ix2 i k) :=
  (Ideal.multiReduction_add_single src _ h hφ hacc (ix1 i)).trans
    (Finset.sum_congr rfl fun k _ => congrArg src (funext fun c => by
      match c with
      | ⟨0, _⟩ => exact Fin.ext rfl
      | ⟨1, _⟩ => exact Fin.ext rfl))

/-- A stack of matrices summed entry by entry. -/
theorem red3_axis0 {n0 n1 n2 : Nat} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ) (a : Fin n1) (b : Fin n2) :
    multiReduction .add [0] ⟨2, ![n1, n2]⟩ src 0x00000000#32 h hφ hacc (ix2 a b) = ∑ k : Fin n0, src (ix3 k a b) :=
  (Ideal.multiReduction_add_single src _ h hφ hacc (ix2 a b)).trans
    (Finset.sum_congr rfl fun k _ => congrArg src (funext fun c => by
      match c with
      | ⟨0, _⟩ => exact Fin.ext rfl
      | ⟨1, _⟩ => exact Fin.ext rfl
      | ⟨2, _⟩ => exact Fin.ext rfl))

/-- A stack of rank-3 blocks summed entry by entry. -/
theorem red4_axis0 {n0 n1 n2 n3 : Nat} (src : FVec Ideal ⟨4, ![n0, n1, n2, n3]⟩ .f32)
    (h : (⟨4, ![n0, n1, n2, n3]⟩ : Shape).Reduces [0] ⟨3, ![n1, n2, n3]⟩) (hφ : FKind.Formats .f32)
    (hacc : (0x00000000#32 : BitVec 32) = FKind.add.neutral .f32 hφ) (a : Fin n1) (b : Fin n2) (d : Fin n3) :
    multiReduction .add [0] ⟨3, ![n1, n2, n3]⟩ src 0x00000000#32 h hφ hacc (ix3 a b d) = ∑ k : Fin n0, src (ix4 k a b d) :=
  (Ideal.multiReduction_add_single src _ h hφ hacc (ix3 a b d)).trans
    (Finset.sum_congr rfl fun k _ => congrArg src (funext fun c => by
      match c with
      | ⟨0, _⟩ => exact Fin.ext rfl
      | ⟨1, _⟩ => exact Fin.ext rfl
      | ⟨2, _⟩ => exact Fin.ext rfl
      | ⟨3, _⟩ => exact Fin.ext rfl))

/-- A vector viewed as a one-column matrix reads its entry on each row. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The tail every total ends with: a vector of row sums, viewed as a column, summed, viewed as a 1 × 1 matrix -/

/-- The sum of a vector's entries through a column view and a 1 × 1 view. -/
def colSum {m : Nat} (r : FVec Ideal ⟨1, ![m]⟩ .f32)
    (h2 : (⟨1, ![m]⟩ : Shape).ShapeCasts ⟨2, ![m, 1]⟩)
    (h3 : (⟨2, ![m, 1]⟩ : Shape).Reduces [0] ⟨1, ![1]⟩)
    (h4 : (⟨1, ![1]⟩ : Shape).ShapeCasts ⟨2, ![1, 1]⟩) : FVec Ideal ⟨2, ![1, 1]⟩ .f32 :=
  shapeCast ⟨2, ![1, 1]⟩
    (multiReduction .add [0] ⟨1, ![1]⟩ (shapeCast ⟨2, ![m, 1]⟩ r h2) 0x00000000#32 h3 (.inl rfl) rfl) h4

theorem colSum_apply {m : Nat} (r : FVec Ideal ⟨1, ![m]⟩ .f32)
    (h2 : (⟨1, ![m]⟩ : Shape).ShapeCasts ⟨2, ![m, 1]⟩)
    (h3 : (⟨2, ![m, 1]⟩ : Shape).Reduces [0] ⟨1, ![1]⟩)
    (h4 : (⟨1, ![1]⟩ : Shape).ShapeCasts ⟨2, ![1, 1]⟩) (j : (⟨2, ![1, 1]⟩ : Shape).Idx) :
    colSum r h2 h3 h4 j = ∑ a : Fin m, r (ix1 a) := by
  obtain ⟨u, w, rfl⟩ : ∃ u w, j = ix2 u w := ⟨j 0, j 1, eq_ix2 j⟩
  unfold colSum
  refine (shapeCast_a_1a_apply _ h4 u w).trans ?_
  refine (red2_axis0 _ h3 _ _ w).trans ?_
  exact Finset.sum_congr rfl fun a _ => shapeCast_a_a1_apply r h2 a w

/-! ## The three totals -/

/-- The total of a matrix: each row summed, then the rows. -/
def sum2 {m n : Nat} (v : FVec Ideal ⟨2, ![m, n]⟩ .f32)
    (h1 : (⟨2, ![m, n]⟩ : Shape).Reduces [1] ⟨1, ![m]⟩)
    (h2 : (⟨1, ![m]⟩ : Shape).ShapeCasts ⟨2, ![m, 1]⟩)
    (h3 : (⟨2, ![m, 1]⟩ : Shape).Reduces [0] ⟨1, ![1]⟩)
    (h4 : (⟨1, ![1]⟩ : Shape).ShapeCasts ⟨2, ![1, 1]⟩) : FVec Ideal ⟨2, ![1, 1]⟩ .f32 :=
  colSum (multiReduction .add [1] ⟨1, ![m]⟩ v 0x00000000#32 h1 (.inl rfl) rfl) h2 h3 h4

theorem sum2_apply {m n : Nat} (v : FVec Ideal ⟨2, ![m, n]⟩ .f32)
    (h1 : (⟨2, ![m, n]⟩ : Shape).Reduces [1] ⟨1, ![m]⟩)
    (h2 : (⟨1, ![m]⟩ : Shape).ShapeCasts ⟨2, ![m, 1]⟩)
    (h3 : (⟨2, ![m, 1]⟩ : Shape).Reduces [0] ⟨1, ![1]⟩)
    (h4 : (⟨1, ![1]⟩ : Shape).ShapeCasts ⟨2, ![1, 1]⟩) (j : (⟨2, ![1, 1]⟩ : Shape).Idx) :
    sum2 v h1 h2 h3 h4 j = ∑ a : Fin m, ∑ b : Fin n, v (ix2 a b) := by
  unfold sum2
  refine (colSum_apply _ h2 h3 h4 j).trans ?_
  exact Finset.sum_congr rfl fun a _ => red2_axis1 v h1 _ _ a

/-- The total of a stack of matrices: the stack summed entry by entry, then as a matrix. -/
def sum3 {n0 n1 n2 : Nat} (v : FVec Ideal ⟨3, ![n0, n1, n2]⟩ .f32)
    (h0 : (⟨3, ![n0, n1, n2]⟩ : Shape).Reduces [0] ⟨2, ![n1, n2]⟩)
    (h1 : (⟨2, ![n1, n2]⟩ : Shape).Reduces [1] ⟨1, ![n1]⟩)
    (h2 : (⟨1, ![n1]⟩ : Shape).ShapeCasts ⟨2, ![n1, 1]⟩)
    (h3 : (⟨2, ![n1, 1]⟩ : Shape).Reduces [0] ⟨1, ![1]⟩)
    (h4 : (⟨1, ![1]⟩ : Shape).ShapeCasts ⟨2, ![1, 1]⟩) : FVec Ideal ⟨2, ![1, 1]⟩ .f32 :=
  sum2 (multiReduction .add [0] ⟨2, ![n1, n2]⟩ v 0x00000000#32 h0 (.inl rfl) rfl) h1 h2 h3 h4

theorem sum3_apply {n0 n1 n2 : Nat} (v : FVec Ideal ⟨3, ![n0, n1, n2]⟩ .f32)
    (h0 : (⟨3, ![n0, n1, n2]⟩ : Shape).Reduces [0] ⟨2, ![n1, n2]⟩)
    (h1 : (⟨2, ![n1, n2]⟩ : Shape).Reduces [1] ⟨1, ![n1]⟩)
    (h2 : (⟨1, ![n1]⟩ : Shape).ShapeCasts ⟨2, ![n1, 1]⟩)
    (h3 : (⟨2, ![n1, 1]⟩ : Shape).Reduces [0] ⟨1, ![1]⟩)
    (h4 : (⟨1, ![1]⟩ : Shape).ShapeCasts ⟨2, ![1, 1]⟩) (j : (⟨2, ![1, 1]⟩ : Shape).Idx) :
    sum3 v h0 h1 h2 h3 h4 j = ∑ b : Fin n0, ∑ y : Fin n1, ∑ x : Fin n2, v (ix3 b y x) := by
  unfold sum3
  refine (sum2_apply _ h1 h2 h3 h4 j).trans ?_
  have e : ∀ y : Fin n1, ∀ x : Fin n2,
      multiReduction .add [0] ⟨2, ![n1, n2]⟩ v 0x00000000#32 h0 (.inl rfl) rfl (ix2 y x) = ∑ b : Fin n0, v (ix3 b y x) :=
    fun y x => red3_axis0 v h0 _ _ y x
  simp only [e]
  rw [Finset.sum_congr rfl fun y _ => Finset.sum_comm, Finset.sum_comm]

/-- The total of a stack of stacks of matrices: two leading sums entry by entry, then as a matrix. -/
def sum4 {n0 n1 n2 n3 : Nat} (v : FVec Ideal ⟨4, ![n0, n1, n2, n3]⟩ .f32)
    (g0 : (⟨4, ![n0, n1, n2, n3]⟩ : Shape).Reduces [0] ⟨3, ![n1, n2, n3]⟩)
    (h0 : (⟨3, ![n1, n2, n3]⟩ : Shape).Reduces [0] ⟨2, ![n2, n3]⟩)
    (h1 : (⟨2, ![n2, n3]⟩ : Shape).Reduces [1] ⟨1, ![n2]⟩)
    (h2 : (⟨1, ![n2]⟩ : Shape).ShapeCasts ⟨2, ![n2, 1]⟩)
    (h3 : (⟨2, ![n2, 1]⟩ : Shape).Reduces [0] ⟨1, ![1]⟩)
    (h4 : (⟨1, ![1]⟩ : Shape).ShapeCasts ⟨2, ![1, 1]⟩) : FVec Ideal ⟨2, ![1, 1]⟩ .f32 :=
  sum3 (multiReduction .add [0] ⟨3, ![n1, n2, n3]⟩ v 0x00000000#32 g0 (.inl rfl) rfl) h0 h1 h2 h3 h4

theorem sum4_apply {n0 n1 n2 n3 : Nat} (v : FVec Ideal ⟨4, ![n0, n1, n2, n3]⟩ .f32)
    (g0 : (⟨4, ![n0, n1, n2, n3]⟩ : Shape).Reduces [0] ⟨3, ![n1, n2, n3]⟩)
    (h0 : (⟨3, ![n1, n2, n3]⟩ : Shape).Reduces [0] ⟨2, ![n2, n3]⟩)
    (h1 : (⟨2, ![n2, n3]⟩ : Shape).Reduces [1] ⟨1, ![n2]⟩)
    (h2 : (⟨1, ![n2]⟩ : Shape).ShapeCasts ⟨2, ![n2, 1]⟩)
    (h3 : (⟨2, ![n2, 1]⟩ : Shape).Reduces [0] ⟨1, ![1]⟩)
    (h4 : (⟨1, ![1]⟩ : Shape).ShapeCasts ⟨2, ![1, 1]⟩) (j : (⟨2, ![1, 1]⟩ : Shape).Idx) :
    sum4 v g0 h0 h1 h2 h3 h4 j = ∑ b : Fin n0, ∑ c : Fin n1, ∑ y : Fin n2, ∑ x : Fin n3, v (ix4 b c y x) := by
  unfold sum4
  refine (sum3_apply _ h0 h1 h2 h3 h4 j).trans ?_
  have e : ∀ (c : Fin n1) (y : Fin n2) (x : Fin n3),
      multiReduction .add [0] ⟨3, ![n1, n2, n3]⟩ v 0x00000000#32 g0 (.inl rfl) rfl (ix3 c y x) = ∑ b : Fin n0, v (ix4 b c y x) :=
    fun c y x => red4_axis0 v g0 _ _ c y x
  simp only [e]
  rw [Finset.sum_congr rfl fun c _ => Finset.sum_congr rfl fun y _ => Finset.sum_comm,
    Finset.sum_congr rfl fun c _ => Finset.sum_comm, Finset.sum_comm]

end Cert.KSums

end
-- ==== Proof.KBoundary.lean ====
/-
  The boundary residual of a block of eight samples. The body cuts fourteen segments out of the grid's border —
  for each sample a stretch of a column or a whole row of one channel — squares them (the inlet segment after
  subtracting the inlet value), totals each over the block, and adds the fourteen totals one after the other. Each
  total is the sum over the eight samples of that sample's segment sum, so the fourteen together are the sum over the
  samples of the sample's boundary residual.
-/
import proofs.«121105_j56899726737553_2_alg».proof.Proof.KernelTerms
import proofs.«121105_j56899726737553_2_alg».proof.Proof.Samples
import proofs.«121105_j56899726737553_2_alg».proof.Proof.KSums

noncomputable section

open scoped BigOperators

namespace Cert.KBoundary

open Idealize.ShloMosaic Idealize.ShloMosaic.ValueIdx Cert.KernelIdeal Cert.KernelIdeal.Gen Cert.KTerms Cert.Spec

/-! ## A border segment cut out of a block, as a matrix (sample, position) -/

/-- Rows `r0 … r0 + L − 1` of column `xc` of channel `c`: entry `(b, k)` is the block at `(b, c, r0 + k, xc)`. -/
theorem colSeg_apply {α : Type} (c r0 L xc : Nat) (hc : c < 3) (hr : r0 + L ≤ 128) (hx : xc < 128)
    (w : (⟨4, ![8, 3, 128, 128]⟩ : Shape).Idx → α)
    (h : (⟨4, ![8, 3, 128, 128]⟩ : Shape).Slices ![0, c, r0, xc] ⟨4, ![8, 1, L, 1]⟩)
    (h' : (⟨4, ![8, 1, L, 1]⟩ : Shape).ShapeCasts ⟨2, ![8, L]⟩) (b : Fin 8) (k : Fin L) :
    shapeCast ⟨2, ![8, L]⟩ (extractStridedSlice ⟨4, ![8, 1, L, 1]⟩ ![0, c, r0, xc] w h) h' (ix2 b k)
      = w (ix4 b ⟨c, hc⟩ ⟨r0 + k.val, by have := k.isLt; omega⟩ ⟨xc, hx⟩) :=
  (shapeCast_apply _ h' (ix2 b k) (ix4 b (0 : Fin 1) k (0 : Fin 1)) (by
    rw [Shape.rowMajor_val_four, Shape.rowMajor_val_two]
    show ((b.val * 1 + 0) * L + k.val) * 1 + 0 = b.val * L + k.val
    simp only [Nat.mul_one, Nat.add_zero])).trans
  (extractStridedSlice_apply _ w h _ _ (fun ax => by
    match ax with
    | ⟨0, _⟩ => exact (Nat.zero_add _).symm
    | ⟨1, _⟩ => exact (Nat.add_zero _).symm
    | ⟨2, _⟩ => rfl
    | ⟨3, _⟩ => exact (Nat.add_zero _).symm))

/-- Row `r` of channel `c`: entry `(b, k)` is the block at `(b, c, r, k)`. -/
theorem rowSeg_apply {α : Type} (c r : Nat) (hc : c < 3) (hr : r < 128)
    (w : (⟨4, ![8, 3, 128, 128]⟩ : Shape).Idx → α)
    (h : (⟨4, ![8, 3, 128, 128]⟩ : Shape).Slices ![0, c, r, 0] ⟨4, ![8, 1, 1, 128]⟩)
    (h' : (⟨4, ![8, 1, 1, 128]⟩ : Shape).ShapeCasts ⟨2, ![8, 128]⟩) (b : Fin 8) (k : Fin 128) :
    shapeCast ⟨2, ![8, 128]⟩ (extractStridedSlice ⟨4, ![8, 1, 1, 128]⟩ ![0, c, r, 0] w h) h' (ix2 b k)
      = w (ix4 b ⟨c, hc⟩ ⟨r, hr⟩ k) :=
  (shapeCast_apply _ h' (ix2 b k) (ix4 b (0 : Fin 1) (0 : Fin 1) k) (by
    rw [Shape.rowMajor_val_four, Shape.rowMajor_val_two]
    show ((b.val * 1 + 0) * 1 + 0) * 128 + k.val = b.val * 128 + k.val
    omega)).trans
  (extractStridedSlice_apply _ w h _ _ (fun ax => by
    match ax with
    | ⟨0, _⟩ => exact (Nat.zero_add _).symm
    | ⟨1, _⟩ => exact (Nat.add_zero _).symm
    | ⟨2, _⟩ => exact (Nat.add_zero _).symm
    | ⟨3, _⟩ => exact (Nat.zero_add _).symm))

/-- The total of the squares of a matrix whose entries are known. -/
theorem sqTotal {L : Nat} (w : FVec Ideal ⟨2, ![8, L]⟩ .f32)
    (h1 : (⟨2, ![8, L]⟩ : Shape).Reduces [1] ⟨1, ![8]⟩)
    (h2 : (⟨1, ![8]⟩ : Shape).ShapeCasts ⟨2, ![8, 1]⟩)
    (h3 : (⟨2, ![8, 1]⟩ : Shape).Reduces [0] ⟨1, ![1]⟩)
    (h4 : (⟨1, ![1]⟩ : Shape).ShapeCasts ⟨2, ![1, 1]⟩)
    (t : Fin 8 → Fin L → EReal) (hw : ∀ b k, w (ix2 b k) = t b k) (j : (⟨2, ![1, 1]⟩ : Shape).Idx) :
    KSums.sum2 (mulf w w) h1 h2 h3 h4 j = ∑ b : Fin 8, ∑ k : Fin L, t b k * t b k :=
  (KSums.sum2_apply _ h1 h2 h3 h4 j).trans
    (Finset.sum_congr rfl fun b _ => Finset.sum_congr rfl fun k _ => by
      show w (ix2 b k) * w (ix2 b k) = _
      rw [hw])

variable (x1 : Vec Ideal S8x3x128x128 .f32)

/-- A column segment of the block as a matrix, a row of it, and the total of a segment's squares. -/
def colV (c r0 L xc : Nat) (h : S8x3x128x128.Slices ![0, c, r0, xc] ⟨4, ![8, 1, L, 1]⟩)
    (h' : (⟨4, ![8, 1, L, 1]⟩ : Shape).ShapeCasts ⟨2, ![8, L]⟩) : FVec Ideal ⟨2, ![8, L]⟩ .f32 :=
  shapeCast ⟨2, ![8, L]⟩ (extractStridedSlice ⟨4, ![8, 1, L, 1]⟩ ![0, c, r0, xc] x1 h) h'
def rowV (c r : Nat) (h : S8x3x128x128.Slices ![0, c, r, 0] S8x1x1x128) : FVec Ideal S8x128 .f32 :=
  shapeCast S8x128 (extractStridedSlice S8x1x1x128 ![0, c, r, 0] x1 h) shapeCasts_S8x1x1x128_S8x128
def tot {L : Nat} (w : FVec Ideal ⟨2, ![8, L]⟩ .f32) (h1 : (⟨2, ![8, L]⟩ : Shape).Reduces [1] ⟨1, ![8]⟩) :
    FVec Ideal S1x1 .f32 :=
  KSums.sum2 (mulf w w) h1 shapeCasts_S8_S8x1 reduces_S8x1_S1 shapeCasts_S1_S1x1

/-- The total of a column segment's squares: the sum over the samples of the segment's sum of squares. -/
theorem colTot (c r0 L xc : Nat) (hc : c < 3) (hr : r0 + L ≤ 128) (hx : xc < 128)
    (h : S8x3x128x128.Slices ![0, c, r0, xc] ⟨4, ![8, 1, L, 1]⟩)
    (h' : (⟨4, ![8, 1, L, 1]⟩ : Shape).ShapeCasts ⟨2, ![8, L]⟩)
    (h1 : (⟨2, ![8, L]⟩ : Shape).Reduces [1] ⟨1, ![8]⟩) (j : S1x1.Idx) :
    tot (colV x1 c r0 L xc h h') h1 j
      = ∑ b : Fin 8, segSq L r0 hr (fun y => smp3 x1 b ⟨c, hc⟩ y ⟨xc, hx⟩) :=
  sqTotal _ h1 _ _ _ _ (fun b k => colSeg_apply c r0 L xc hc hr hx x1 h h' b k) j

/-- The total of a row's squares: the sum over the samples of the row's sum of squares. -/
theorem rowTot (c r : Nat) (hc : c < 3) (hr : r < 128)
    (h : S8x3x128x128.Slices ![0, c, r, 0] S8x1x1x128) (j : S1x1.Idx) :
    tot (rowV x1 c r h) reduces_S8x128_S8 j = ∑ b : Fin 8, rowSq (smp3 x1 b ⟨c, hc⟩ ⟨r, hr⟩) :=
  sqTotal _ reduces_S8x128_S8 _ _ _ _ (fun b k => rowSeg_apply c r hc hr x1 h shapeCasts_S8x1x1x128_S8x128 b k) j

/-- The inlet segment: rows 55 … 72 of the left edge of the first velocity component, less the inlet value. -/
theorem inletTot (j : S1x1.Idx) :
    tot (subf (colV x1 1 55 18 0 slices_S8x3x128x128_o0_1_55_0_S8x1x18x1 shapeCasts_S8x1x18x1_S8x18) (broadcast S8x18 cIn)) reduces_S8x18_S8 j
      = ∑ b : Fin 8, ∑ k : Fin 18, (smp3 x1 b 1 ⟨55 + k.val, by omega⟩ 0 - cIn) * (smp3 x1 b 1 ⟨55 + k.val, by omega⟩ 0 - cIn) :=
  sqTotal _ reduces_S8x18_S8 _ _ _ _ (fun b k => by
    show colV x1 1 55 18 0 slices_S8x3x128x128_o0_1_55_0_S8x1x18x1 shapeCasts_S8x1x18x1_S8x18 (ix2 b k) - cIn = _
    unfold colV
    rw [colSeg_apply 1 55 18 0 (by omega) (by omega) (by omega) x1 _ _ b k]
    rfl) j

/-- The block's boundary partial sum is the fourteen segment totals, added one after the other. -/
theorem pBnd_eq (j : S1x1.Idx) :
    pBnd x1 j = tot (subf (colV x1 1 55 18 0 slices_S8x3x128x128_o0_1_55_0_S8x1x18x1 shapeCasts_S8x1x18x1_S8x18) (broadcast S8x18 cIn)) reduces_S8x18_S8 j
      + tot (colV x1 0 55 18 127 slices_S8x3x128x128_o0_0_55_127_S8x1x18x1 shapeCasts_S8x1x18x1_S8x18) reduces_S8x18_S8 j
      + tot (rowV x1 1 0 slices_S8x3x128x128_o0_1_0_0_S8x1x1x128) reduces_S8x128_S8 j
      + tot (colV x1 1 73 55 0 slices_S8x3x128x128_o0_1_73_0_S8x1x55x1 shapeCasts_S8x1x55x1_S8x55) reduces_S8x55_S8 j
      + tot (colV x1 1 0 55 0 slices_S8x3x128x128_o0_1_0_0_S8x1x55x1 shapeCasts_S8x1x55x1_S8x55) reduces_S8x55_S8 j
      + tot (rowV x1 1 127 slices_S8x3x128x128_o0_1_127_0_S8x1x1x128) reduces_S8x128_S8 j
      + tot (colV x1 1 73 55 127 slices_S8x3x128x128_o0_1_73_127_S8x1x55x1 shapeCasts_S8x1x55x1_S8x55) reduces_S8x55_S8 j
      + tot (colV x1 1 0 55 127 slices_S8x3x128x128_o0_1_0_127_S8x1x55x1 shapeCasts_S8x1x55x1_S8x55) reduces_S8x55_S8 j
      + tot (rowV x1 2 0 slices_S8x3x128x128_o0_2_0_0_S8x1x1x128) reduces_S8x128_S8 j
      + tot (colV x1 2 73 55 0 slices_S8x3x128x128_o0_2_73_0_S8x1x55x1 shapeCasts_S8x1x55x1_S8x55) reduces_S8x55_S8 j
      + tot (colV x1 2 0 55 0 slices_S8x3x128x128_o0_2_0_0_S8x1x55x1 shapeCasts_S8x1x55x1_S8x55) reduces_S8x55_S8 j
      + tot (rowV x1 2 127 slices_S8x3x128x128_o0_2_127_0_S8x1x1x128) reduces_S8x128_S8 j
      + tot (colV x1 2 73 55 127 slices_S8x3x128x128_o0_2_73_127_S8x1x55x1 shapeCasts_S8x1x55x1_S8x55) reduces_S8x55_S8 j
      + tot (colV x1 2 0 55 127 slices_S8x3x128x128_o0_2_0_127_S8x1x55x1 shapeCasts_S8x1x55x1_S8x55) reduces_S8x55_S8 j := rfl

/-- The boundary partial sum of a block is the sum, over its eight samples, of the samples' boundary residuals. -/
theorem pBnd_apply (j : S1x1.Idx) : pBnd x1 j = ∑ b : Fin 8, bndB (smp3 x1 b) := by
  rw [pBnd_eq, inletTot,
    colTot x1 0 55 18 127 (by omega) (by omega) (by omega) slices_S8x3x128x128_o0_0_55_127_S8x1x18x1 shapeCasts_S8x1x18x1_S8x18 reduces_S8x18_S8 j,
    rowTot x1 1 0 (by omega) (by omega) slices_S8x3x128x128_o0_1_0_0_S8x1x1x128 j,
    colTot x1 1 73 55 0 (by omega) (by omega) (by omega) slices_S8x3x128x128_o0_1_73_0_S8x1x55x1 shapeCasts_S8x1x55x1_S8x55 reduces_S8x55_S8 j,
    colTot x1 1 0 55 0 (by omega) (by omega) (by omega) slices_S8x3x128x128_o0_1_0_0_S8x1x55x1 shapeCasts_S8x1x55x1_S8x55 reduces_S8x55_S8 j,
    rowTot x1 1 127 (by omega) (by omega) slices_S8x3x128x128_o0_1_127_0_S8x1x1x128 j,
    colTot x1 1 73 55 127 (by omega) (by omega) (by omega) slices_S8x3x128x128_o0_1_73_127_S8x1x55x1 shapeCasts_S8x1x55x1_S8x55 reduces_S8x55_S8 j,
    colTot x1 1 0 55 127 (by omega) (by omega) (by omega) slices_S8x3x128x128_o0_1_0_127_S8x1x55x1 shapeCasts_S8x1x55x1_S8x55 reduces_S8x55_S8 j,
    rowTot x1 2 0 (by omega) (by omega) slices_S8x3x128x128_o0_2_0_0_S8x1x1x128 j,
    colTot x1 2 73 55 0 (by omega) (by omega) (by omega) slices_S8x3x128x128_o0_2_73_0_S8x1x55x1 shapeCasts_S8x1x55x1_S8x55 reduces_S8x55_S8 j,
    colTot x1 2 0 55 0 (by omega) (by omega) (by omega) slices_S8x3x128x128_o0_2_0_0_S8x1x55x1 shapeCasts_S8x1x55x1_S8x55 reduces_S8x55_S8 j,
    rowTot x1 2 127 (by omega) (by omega) slices_S8x3x128x128_o0_2_127_0_S8x1x1x128 j,
    colTot x1 2 73 55 127 (by omega) (by omega) (by omega) slices_S8x3x128x128_o0_2_73_127_S8x1x55x1 shapeCasts_S8x1x55x1_S8x55 reduces_S8x55_S8 j,
    colTot x1 2 0 55 127 (by omega) (by omega) (by omega) slices_S8x3x128x128_o0_2_0_127_S8x1x55x1 shapeCasts_S8x1x55x1_S8x55 reduces_S8x55_S8 j]
  unfold bndB
  simp only [Finset.sum_add_distrib]
  rfl

end Cert.KBoundary

end
-- ==== Proof.KValue.lean ====
/-
  What the kernel body's five accumulating stores write at a grid point: the running total read back plus the
  point's partial sum, and the partial sum — the block's squared error, boundary residual, continuity residual and
  two momentum residuals, each totalled over the block — is the sum over the block's eight samples of the sample's
  own sum. The residual fields are read entry by entry as the samples' fields; the totals are nested finite sums with
  the sample index outermost.
-/
import proofs.«121105_j56899726737553_2_alg».proof.Proof.KFields
import proofs.«121105_j56899726737553_2_alg».proof.Proof.KBoundary

noncomputable section

open scoped BigOperators

namespace Cert.KValue

open Idealize.ShloMosaic Idealize.ShloMosaic.ValueIdx Cert.KernelIdeal Cert.KernelIdeal.Gen Cert.KTerms Cert.Spec
open Cert.KFields

/-- The total of a stack of eight interior fields, as the body forms it. -/
def tot3 (v : FVec Ideal S8x126x126 .f32) : FVec Ideal S1x1 .f32 :=
  KSums.sum3 v reduces_S8x126x126_S126x126 reduces_S126x126_S126 shapeCasts_S126_S126x1 reduces_S126x1_S1
    shapeCasts_S1_S1x1

/-- The total of the squares of a stack whose sample `b` is the field `f b`: the sum of the fields' sums of squares. -/
theorem tot3_sq (v : FVec Ideal S8x126x126 .f32) (f : Fin 8 → Fld) (hv : ∀ b y x, v (ix3 b y x) = f b y x)
    (j : S1x1.Idx) : tot3 (mulf v v) j = ∑ b : Fin 8, sqSum (f b) :=
  (KSums.sum3_apply _ _ _ _ _ _ j).trans
    (Finset.sum_congr rfl fun b _ => Finset.sum_congr rfl fun y _ => Finset.sum_congr rfl fun x _ => by
      show v (ix3 b y x) * v (ix3 b y x) = _
      rw [hv])

variable (x0 : Vec Ideal S8x1x128x128 .f32) (x1 x2 : Vec Ideal S8x3x128x128 .f32) (xo : Vec Ideal S1x1 .f32)

/-- The squared-error store. -/
theorem stSq_apply (j : S1x1.Idx) : stSq x1 x2 xo j = xo j + ∑ b : Fin 8, sqB (smp3 x1 b) (smp3 x2 b) := by
  have e : stSq x1 x2 xo j = shapeCast S1x1 xo shapeCasts_S1x1_S1x1 j
      + KSums.sum4 (mulf (subf x1 x2) (subf x1 x2)) reduces_S8x3x128x128_S3x128x128 reduces_S3x128x128_S128x128
          reduces_S128x128_S128 shapeCasts_S128_S128x1 reduces_S128x1_S1 shapeCasts_S1_S1x1 j := rfl
  rw [e, shapeCast_self, KSums.sum4_apply]
  rfl

/-- The boundary store. -/
theorem stBnd_apply (j : S1x1.Idx) : stBnd x1 xo j = xo j + ∑ b : Fin 8, bndB (smp3 x1 b) := by
  have e : stBnd x1 xo j = shapeCast S1x1 xo shapeCasts_S1x1_S1x1 j + pBnd x1 j := rfl
  rw [e, shapeCast_self, KBoundary.pBnd_apply]

/-- The continuity store. -/
theorem stCont_apply (j : S1x1.Idx) : stCont x1 xo j = xo j + ∑ b : Fin 8, contB (smp3 x1 b) := by
  have e : stCont x1 xo j = shapeCast S1x1 xo shapeCasts_S1x1_S1x1 j + tot3 (mulf (contF x1) (contF x1)) j := rfl
  rw [e, shapeCast_self, tot3_sq _ _ (contF_apply x1)]
  rfl

/-- The first momentum store. -/
theorem stNsx_apply (j : S1x1.Idx) :
    stNsx x0 x1 xo j = xo j + ∑ b : Fin 8, nsxB (smp3 x1 b) (smp1 x0 b) := by
  have e : stNsx x0 x1 xo j = shapeCast S1x1 xo shapeCasts_S1x1_S1x1 j + tot3 (mulf (resX x0 x1) (resX x0 x1)) j := rfl
  rw [e, shapeCast_self, tot3_sq _ _ (resX_apply x0 x1)]
  rfl

/-- The second momentum store. -/
theorem stNsy_apply (j : S1x1.Idx) :
    stNsy x0 x1 xo j = xo j + ∑ b : Fin 8, nsyB (smp3 x1 b) (smp1 x0 b) := by
  have e : stNsy x0 x1 xo j = shapeCast S1x1 xo shapeCasts_S1x1_S1x1 j + tot3 (mulf (resY x0 x1) (resY x0 x1)) j := rfl
  rw [e, shapeCast_self, tot3_sq _ _ (resY_apply x0 x1)]
  rfl

end Cert.KValue

end
-- ==== Proof.RefOps.lean ====
/-
  Reading tools for the three-point difference quotient and for sums over index sets.

  * A sum over the index set of a rank-1, rank-3 or rank-4 array is the iterated sum over its coordinates, and a
    reshape only renames the indices of a sum.
  * A rank-3 array cut along its last axis reads the source at the shifted last coordinate.
  * `gradLast`: the difference quotient along the last axis of a stack of 126 × 126 matrices, assembled as the
    programs assemble it — the one-sided quotient of the first two columns, the central quotients of the columns
    two apart, the one-sided quotient of the last two columns, laid side by side.  Read at `(b, y, x)` it is the
    specification's `grad1` of row `y` of matrix `b` at `x`.
-/
import proofs.«121105_j56899726737553_2_alg».proof.Proof.Spec
import Idealize.ShloMosaic.Lib.ValueLayout
import Idealize.ShloMosaic.Lib.IdealHost

noncomputable section

open scoped BigOperators

namespace Cert.RefOps

open Idealize.ShloMosaic Idealize.ShloMosaic.ValueIdx

/-! ## Sums over an index set, by coordinates -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A reshape lists the same elements under other indices, so a sum over the reshaped array is the sum over the
    array. -/
theorem sum_shapeCast {M : Type*} [AddCommMonoid M] {α : Type} {s t : Shape} (x : s.Idx → α) (h : s.ShapeCasts t)
    (g : α → M) : ∑ j : t.Idx, g (shapeCast t x h j) = ∑ k : s.Idx, g (x k) :=
  Equiv.sum_comp (Shape.reshapeEquiv h) fun k => g (x k)

/-- A sum over `a + b` consecutive positions is the sum over the first `a` plus the sum over the last `b`. -/
theorem sum_fin_split {M : Type*} [AddCommMonoid M] (N a b : Nat) (h : N = a + b) (g : Fin N → M) :
    ∑ j, g j = (∑ i : Fin a, g ⟨i.val, by omega⟩) + ∑ i : Fin b, g ⟨a + i.val, by omega⟩ := by
  subst h
  rw [Fin.sum_univ_add]
  rfl

/-! ## A rank-3 array cut along its last axis -/

variable {α : Type}

/-- A rank-3 array cut along axis 2 from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-! ## The interior of a channel -/

/-- An `[n, 1, a, b]` array cast to `[n, a, b]` reads, at `(k, i, j)`, the operand at `(k, 0, i, j)`. -/
theorem dropUnit1_apply {n a b : Nat} (x : (⟨4, ![n, 1, a, b]⟩ : Shape).Idx → α)
    (h : (⟨4, ![n, 1, a, b]⟩ : Shape).ShapeCasts ⟨3, ![n, a, b]⟩) (k : Fin n) (i : Fin a) (j : Fin b) :
    shapeCast ⟨3, ![n, a, b]⟩ x h (ix3 k i j) = x (ix4 k (0 : Fin 1) i j) :=
  shapeCast_apply x h _ _ (by
    rw [Shape.rowMajor_val_four, Shape.rowMajor_val_three]
    show ((k.val * 1 + 0) * a + i.val) * b + j.val = (k.val * a + i.val) * b + j.val
    rw [Nat.mul_one, Nat.add_zero])

/-- A `[n, C, 128, 128]` array with its outermost ring of pixels removed reads, at `(b, c, y, x)`, the array at
    `(b, c, y + 1, x + 1)`. -/
theorem interior_apply {n C : Nat} (X : (⟨4, ![n, C, 128, 128]⟩ : Shape).Idx → α)
    (h1 : (⟨4, ![n, C, 128, 128]⟩ : Shape).Slices ![0, 0, 1, 1] ⟨4, ![n, C, 126, 126]⟩)
    (b : Fin n) (c : Fin C) (y x : Fin 126) :
    extractStridedSlice ⟨4, ![n, C, 126, 126]⟩ ![0, 0, 1, 1] X h1 (ix4 b c y x)
      = X (ix4 b c ⟨y.val + 1, by omega⟩ ⟨x.val + 1, by omega⟩) :=
  extractStridedSlice_apply _ _ _ _ _ (fun ax => by
    match ax with
    | ⟨0, _⟩ => exact (Nat.zero_add _).symm
    | ⟨1, _⟩ => exact (Nat.zero_add _).symm
    | ⟨2, _⟩ => exact Nat.add_comm _ _
    | ⟨3, _⟩ => exact Nat.add_comm _ _)

/-- Channel `c` of an `[n, C, a, b]` array, as an `[n, 1, a, b]` array, reads at `(k, 0, i, j)` the array at
    `(k, c, i, j)`. -/
theorem channel_apply {n C a b : Nat} (c : Nat) (hc : c < C) (X : (⟨4, ![n, C, a, b]⟩ : Shape).Idx → α)
    (h2 : (⟨4, ![n, C, a, b]⟩ : Shape).Slices ![0, c, 0, 0] ⟨4, ![n, 1, a, b]⟩)
    (k : Fin n) (u : Fin 1) (i : Fin a) (j : Fin b) :
    extractStridedSlice ⟨4, ![n, 1, a, b]⟩ ![0, c, 0, 0] X h2 (ix4 k u i j) = X (ix4 k ⟨c, hc⟩ i j) :=
  extractStridedSlice_apply _ _ _ _ _ (fun ax => by
    match ax with
    | ⟨0, _⟩ => exact (Nat.zero_add _).symm
    | ⟨1, _⟩ => show c = c + u.val; omega
    | ⟨2, _⟩ => exact (Nat.zero_add _).symm
    | ⟨3, _⟩ => exact (Nat.zero_add _).symm)

/-! ## Border segments: a sum over a flattened segment is the double sum over samples and positions -/

/-- A column segment: the `L` rows from `s` of column `x0` of channel `c`, of every sample, flattened. -/
theorem colSeg_sum {M : Type*} [AddCommMonoid M] {n C L N : Nat} (c s x0 : Nat) (hc : c < C) (hx : x0 < 128)
    (X : (⟨4, ![n, C, 128, 128]⟩ : Shape).Idx → α)
    (h1 : (⟨4, ![n, C, 128, 128]⟩ : Shape).Slices ![0, c, s, x0] ⟨4, ![n, 1, L, 1]⟩)
    (h2 : (⟨4, ![n, 1, L, 1]⟩ : Shape).ShapeCasts ⟨2, ![n, L]⟩) (h3 : (⟨2, ![n, L]⟩ : Shape).ShapeCasts ⟨1, ![N]⟩)
    (g : α → M) :
    ∑ i : (⟨1, ![N]⟩ : Shape).Idx, g (shapeCast ⟨1, ![N]⟩ (shapeCast ⟨2, ![n, L]⟩
        (extractStridedSlice ⟨4, ![n, 1, L, 1]⟩ ![0, c, s, x0] X h1) h2) h3 i)
      = ∑ B : Fin n, ∑ j : Fin L, g (X (ix4 B ⟨c, hc⟩
          ⟨s + j.val, Nat.lt_of_lt_of_le (Nat.add_lt_add_left j.isLt s) (h1.2 2)⟩ ⟨x0, hx⟩)) := by
  rw [sum_shapeCast _ h3 g, sum_idx2]
  refine Finset.sum_congr rfl fun B _ => Finset.sum_congr rfl fun j _ => congrArg g ?_
  refine (shapeCast_apply _ h2 _ (ix4 B (0 : Fin 1) j (0 : Fin 1)) ?_).trans ?_
  · rw [Shape.rowMajor_val_four, Shape.rowMajor_val_two]
    show ((B.val * 1 + 0) * L + j.val) * 1 + 0 = B.val * L + j.val
    simp only [Nat.mul_one, Nat.add_zero]
  · exact extractStridedSlice_apply _ _ _ _ _ (fun ax => by
      match ax with
      | ⟨0, _⟩ => exact (Nat.zero_add _).symm
      | ⟨1, _⟩ => rfl
      | ⟨2, _⟩ => rfl
      | ⟨3, _⟩ => rfl)

/-- A row segment: row `r` of channel `c`, of every sample, flattened. -/
theorem rowSeg_sum {M : Type*} [AddCommMonoid M] {n C N : Nat} (c r : Nat) (hc : c < C) (hr : r < 128)
    (X : (⟨4, ![n, C, 128, 128]⟩ : Shape).Idx → α)
    (h1 : (⟨4, ![n, C, 128, 128]⟩ : Shape).Slices ![0, c, r, 0] ⟨4, ![n, 1, 1, 128]⟩)
    (h2 : (⟨4, ![n, 1, 1, 128]⟩ : Shape).ShapeCasts ⟨2, ![n, 128]⟩) (h3 : (⟨2, ![n, 128]⟩ : Shape).ShapeCasts ⟨1, ![N]⟩)
    (g : α → M) :
    ∑ i : (⟨1, ![N]⟩ : Shape).Idx, g (shapeCast ⟨1, ![N]⟩ (shapeCast ⟨2, ![n, 128]⟩
        (extractStridedSlice ⟨4, ![n, 1, 1, 128]⟩ ![0, c, r, 0] X h1) h2) h3 i)
      = ∑ B : Fin n, ∑ x : Fin 128, g (X (ix4 B ⟨c, hc⟩ ⟨r, hr⟩ x)) := by
  rw [sum_shapeCast _ h3 g, sum_idx2]
  refine Finset.sum_congr rfl fun B _ => Finset.sum_congr rfl fun x _ => congrArg g ?_
  refine (shapeCast_apply _ h2 _ (ix4 B (0 : Fin 1) (0 : Fin 1) x) ?_).trans ?_
  · rw [Shape.rowMajor_val_four, Shape.rowMajor_val_two]
    show ((B.val * 1 + 0) * 1 + 0) * 128 + x.val = B.val * 128 + x.val
    simp only [Nat.mul_one, Nat.add_zero]
  · exact extractStridedSlice_apply _ _ _ _ _ (fun ax => by
      match ax with
      | ⟨0, _⟩ => exact (Nat.zero_add _).symm
      | ⟨1, _⟩ => rfl
      | ⟨2, _⟩ => rfl
      | ⟨3, _⟩ => exact (Nat.zero_add _).symm)

/-- Piece `k` of vectors laid end to end: the sum of `g` over the positions the piece occupies is the sum of `g`
    over the piece. -/
theorem concat1_piece_sum {M : Type*} [AddCommMonoid M] {N : Nat} (xs : List ((s : Shape) × (s.Idx → α)))
    (h : Shape.Concatenates (xs.map (·.1)) ⟨1, ![N]⟩ 0) (k : Nat) (hk : k < xs.length) (L : Nat)
    (x₁ : (⟨1, ![L]⟩ : Shape).Idx → α) (hxk : xs[k] = ⟨⟨1, ![L]⟩, x₁⟩) (pre : Nat)
    (hpre : (((xs.take k).map (·.1)).map fun s : Shape =>
      if h : s.rank = (⟨1, ![N]⟩ : Shape).rank then s.size ((0 : Fin 1).cast h.symm) else 0).sum = pre)
    (hle : pre + L ≤ N) (g : α → M) :
    ∑ i : Fin L, g (concatenate ⟨1, ![N]⟩ 0 xs h (ix1 ⟨pre + i.val, by omega⟩))
      = ∑ i : (⟨1, ![L]⟩ : Shape).Idx, g (x₁ i) := by
  rw [sum_idx1]
  refine Finset.sum_congr rfl fun i _ => congrArg g ?_
  exact concatenate_apply_piece (t := ⟨1, ![N]⟩) (0 : Fin 1) xs h _ k hk _ x₁ hxk rfl pre hpre (ix1 i)
    (fun b hb => absurd (Subsingleton.elim _ _) hb) rfl

/-! ## A sum over the two matrix axes of a stack -/

/-- The host's sum over axes 1 and 2 of a stack of matrices, read at matrix `B`: the initial value plus the double
    sum over that matrix. -/
theorem reduce12_apply {n a b : Nat} (f : (⟨3, ![n, a, b]⟩ : Shape).Idx → EReal)
    (h : (⟨3, ![n, a, b]⟩ : Shape).ReducesTo [1, 2] ⟨1, ![n]⟩) (init : EReal) (B : Fin n) :
    Ideal.hostReduceAdd h f init (ix1 B) = init + ∑ y : Fin a, ∑ x : Fin b, f (ix3 B y x) := by
  have dv : ∀ (k : Fin n) (y : Fin a) (x : Fin b), ((h.drop (ix3 k y x) (0 : Fin 1) : Fin n) : Nat) = k.val :=
    fun k y x => Shape.ReducesTo.drop_apply_val_of_eq h (ix3 k y x) (0 : Fin 1) (0 : Fin 3) (show (0 : Nat) < 1 by omega) rfl
  unfold Ideal.hostReduceAdd
  refine congrArg (init + ·) ?_
  rw [Finset.sum_filter, sum_idx3, Finset.sum_eq_single B]
  · refine Finset.sum_congr rfl fun y _ => Finset.sum_congr rfl fun x _ => ?_
    rw [if_pos]
    funext d
    obtain rfl : d = 0 := Subsingleton.elim _ _
    exact Fin.ext (dv B y x)
  · intro k _ hk
    refine Finset.sum_eq_zero fun y _ => Finset.sum_eq_zero fun x _ => ?_
    rw [if_neg]
    intro hc
    exact hk (Fin.ext ((dv k y x).symm.trans (congrArg Fin.val (congrFun hc (0 : Fin 1)))))
  · intro hB
    exact absurd (Finset.mem_univ B) hB

/-! ## The difference quotient along the last axis -/

/-- The shape facts the assembly of the quotient uses, for a stack of `n` matrices. -/
structure GradShapes (n : Nat) : Prop where
  s1 : (⟨3, ![n, 126, 126]⟩ : Shape).Slices ![0, 0, 1] ⟨3, ![n, 126, 1]⟩
  s0 : (⟨3, ![n, 126, 126]⟩ : Shape).Slices ![0, 0, 0] ⟨3, ![n, 126, 1]⟩
  s2 : (⟨3, ![n, 126, 126]⟩ : Shape).Slices ![0, 0, 2] ⟨3, ![n, 126, 124]⟩
  s0w : (⟨3, ![n, 126, 126]⟩ : Shape).Slices ![0, 0, 0] ⟨3, ![n, 126, 124]⟩
  s125 : (⟨3, ![n, 126, 126]⟩ : Shape).Slices ![0, 0, 125] ⟨3, ![n, 126, 1]⟩
  s124 : (⟨3, ![n, 126, 126]⟩ : Shape).Slices ![0, 0, 124] ⟨3, ![n, 126, 1]⟩
  b1 : (⟨0, ![]⟩ : Shape).BroadcastsInDim ⟨3, ![n, 126, 1]⟩ ![]
  b124 : (⟨0, ![]⟩ : Shape).BroadcastsInDim ⟨3, ![n, 126, 124]⟩ ![]
  cc : Shape.Concatenates [⟨3, ![n, 126, 1]⟩, ⟨3, ![n, 126, 124]⟩, ⟨3, ![n, 126, 1]⟩] ⟨3, ![n, 126, 126]⟩ 2

/-- The facts hold for every number of matrices. -/
theorem gradShapes (n : Nat) : GradShapes n where
  s1 := ⟨rfl, fun a => by
    match a with
    | ⟨0, _⟩ => exact Nat.le_of_eq (Nat.zero_add _)
    | ⟨1, _⟩ => exact Nat.le_of_eq (Nat.zero_add _)
    | ⟨2, _⟩ => show 1 + 1 ≤ 126; omega⟩
  s0 := ⟨rfl, fun a => by
    match a with
    | ⟨0, _⟩ => exact Nat.le_of_eq (Nat.zero_add _)
    | ⟨1, _⟩ => exact Nat.le_of_eq (Nat.zero_add _)
    | ⟨2, _⟩ => show 0 + 1 ≤ 126; omega⟩
  s2 := ⟨rfl, fun a => by
    match a with
    | ⟨0, _⟩ => exact Nat.le_of_eq (Nat.zero_add _)
    | ⟨1, _⟩ => exact Nat.le_of_eq (Nat.zero_add _)
    | ⟨2, _⟩ => show 2 + 124 ≤ 126; omega⟩
  s0w := ⟨rfl, fun a => by
    match a with
    | ⟨0, _⟩ => exact Nat.le_of_eq (Nat.zero_add _)
    | ⟨1, _⟩ => exact Nat.le_of_eq (Nat.zero_add _)
    | ⟨2, _⟩ => show 0 + 124 ≤ 126; omega⟩
  s125 := ⟨rfl, fun a => by
    match a with
    | ⟨0, _⟩ => exact Nat.le_of_eq (Nat.zero_add _)
    | ⟨1, _⟩ => exact Nat.le_of_eq (Nat.zero_add _)
    | ⟨2, _⟩ => show 125 + 1 ≤ 126; omega⟩
  s124 := ⟨rfl, fun a => by
    match a with
    | ⟨0, _⟩ => exact Nat.le_of_eq (Nat.zero_add _)
    | ⟨1, _⟩ => exact Nat.le_of_eq (Nat.zero_add _)
    | ⟨2, _⟩ => show 124 + 1 ≤ 126; omega⟩
  b1 := ⟨fun a => a.elim0, fun a => a.elim0⟩
  b124 := ⟨fun a => a.elim0, fun a => a.elim0⟩
  cc := by
    refine ⟨(show 2 ≤ 3 by omega), ?_, rfl⟩
    intro s hs
    simp only [List.mem_cons, List.not_mem_nil, or_false] at hs
    rcases hs with rfl | rfl | rfl <;>
      exact ⟨rfl, fun b hb => by
        match b with
        | ⟨0, _⟩ => rfl
        | ⟨1, _⟩ => rfl
        | ⟨2, _⟩ => exact absurd rfl hb⟩

/-- The three pieces of the difference quotient along the last axis of a stack of `n` matrices of 126 × 126, with the words `h` of the
    spacing and `h2` of its double: first column `(v₁ − v₀) / h`, columns 1 to 124 `(v_{x+1} − v_{x−1}) / h2`, last
    column `(v₁₂₅ − v₁₂₄) / h`, laid side by side. -/
def gradPieces {n : Nat} (G : GradShapes n) (h h2 : BitVec 32) (v : FVec Ideal ⟨3, ![n, 126, 126]⟩ .f32) :
    List ((s : Shape) × (s.Idx → EReal)) :=
    [⟨⟨3, ![n, 126, 1]⟩, Host.divf (subf (extractStridedSlice ⟨3, ![n, 126, 1]⟩ ![0, 0, 1] v G.s1)
        (extractStridedSlice ⟨3, ![n, 126, 1]⟩ ![0, 0, 0] v G.s0))
        (broadcastInDim ⟨3, ![n, 126, 1]⟩ ![] G.b1 (constant (F := Ideal) ⟨0, ![]⟩ .f32 h))⟩,
     ⟨⟨3, ![n, 126, 124]⟩, Host.divf (subf (extractStridedSlice ⟨3, ![n, 126, 124]⟩ ![0, 0, 2] v G.s2)
        (extractStridedSlice ⟨3, ![n, 126, 124]⟩ ![0, 0, 0] v G.s0w))
        (broadcastInDim ⟨3, ![n, 126, 124]⟩ ![] G.b124 (constant (F := Ideal) ⟨0, ![]⟩ .f32 h2))⟩,
     ⟨⟨3, ![n, 126, 1]⟩, Host.divf (subf (extractStridedSlice ⟨3, ![n, 126, 1]⟩ ![0, 0, 125] v G.s125)
        (extractStridedSlice ⟨3, ![n, 126, 1]⟩ ![0, 0, 124] v G.s124))
        (broadcastInDim ⟨3, ![n, 126, 1]⟩ ![] G.b1 (constant (F := Ideal) ⟨0, ![]⟩ .f32 h))⟩]

/-- The three pieces laid side by side along the last axis. -/
def gradLast {n : Nat} (G : GradShapes n) (h h2 : BitVec 32) (v : FVec Ideal ⟨3, ![n, 126, 126]⟩ .f32) :
    FVec Ideal ⟨3, ![n, 126, 126]⟩ .f32 :=
  concatenate ⟨3, ![n, 126, 126]⟩ 2 (gradPieces G h h2 v) G.cc

/-- The quotient read at `(b, y, x)`: the specification's three-point quotient of row `y` of matrix `b`, at `x`. -/
theorem gradLast_apply {n : Nat} (G : GradShapes n) (h h2 : BitVec 32) (v : FVec Ideal ⟨3, ![n, 126, 126]⟩ .f32)
    (b : Fin n) (y x : Fin 126) :
    gradLast G h h2 v (ix3 b y x)
      = Cert.Spec.grad1 (Ideal.ofBits .f32 h) (Ideal.ofBits .f32 h2) (fun x' => v (ix3 b y x')) x := by
  unfold Cert.Spec.grad1 gradLast
  by_cases h0 : x.val = 0
  · rw [if_pos h0]
    refine (concatenate_apply_piece (t := ⟨3, ![n, 126, 126]⟩) (2 : Fin 3) (gradPieces G h h2 v) G.cc (ix3 b y x) 0 (show 0 < 3 by omega) _ _ rfl rfl 0 rfl
      (ix3 b y (0 : Fin 1)) (fun a ha => ?_) ?_).trans ?_
    · match a with
      | ⟨0, _⟩ => rfl
      | ⟨1, _⟩ => rfl
      | ⟨2, _⟩ => exact absurd rfl ha
    · show 0 + 0 = x.val
      omega
    · show Ideal.div (extractStridedSlice ⟨3, ![n, 126, 1]⟩ ![0, 0, 1] v G.s1 (ix3 b y (0 : Fin 1))
          - extractStridedSlice ⟨3, ![n, 126, 1]⟩ ![0, 0, 0] v G.s0 (ix3 b y (0 : Fin 1))) _ = _
      rw [slice3_axis2_apply 1 v G.s1 b y 0 ⟨1, by omega⟩ rfl, slice3_axis2_apply 0 v G.s0 b y 0 ⟨0, by omega⟩ rfl]
      rfl
  · rw [if_neg h0]
    by_cases h1 : x.val = 125
    · rw [dif_pos h1]
      refine (concatenate_apply_piece (t := ⟨3, ![n, 126, 126]⟩) (2 : Fin 3) (gradPieces G h h2 v) G.cc (ix3 b y x) 2 (show 2 < 3 by omega) _ _ rfl rfl 125 rfl
        (ix3 b y (0 : Fin 1)) (fun a ha => ?_) ?_).trans ?_
      · match a with
        | ⟨0, _⟩ => rfl
        | ⟨1, _⟩ => rfl
        | ⟨2, _⟩ => exact absurd rfl ha
      · show 125 + 0 = x.val
        omega
      · show Ideal.div (extractStridedSlice ⟨3, ![n, 126, 1]⟩ ![0, 0, 125] v G.s125 (ix3 b y (0 : Fin 1))
            - extractStridedSlice ⟨3, ![n, 126, 1]⟩ ![0, 0, 124] v G.s124 (ix3 b y (0 : Fin 1))) _ = _
        rw [slice3_axis2_apply 125 v G.s125 b y 0 ⟨125, by omega⟩ rfl,
          slice3_axis2_apply 124 v G.s124 b y 0 ⟨124, by omega⟩ rfl]
        rfl
    · rw [dif_neg h1]
      have hx := x.isLt
      refine (concatenate_apply_piece (t := ⟨3, ![n, 126, 126]⟩) (2 : Fin 3) (gradPieces G h h2 v) G.cc (ix3 b y x) 1 (show 1 < 3 by omega) _ _ rfl rfl 1 rfl
        (ix3 b y (⟨x.val - 1, by omega⟩ : Fin 124)) (fun a ha => ?_) ?_).trans ?_
      · match a with
        | ⟨0, _⟩ => rfl
        | ⟨1, _⟩ => rfl
        | ⟨2, _⟩ => exact absurd rfl ha
      · show 1 + (x.val - 1) = x.val
        omega
      · show Ideal.div (extractStridedSlice ⟨3, ![n, 126, 124]⟩ ![0, 0, 2] v G.s2 (ix3 b y (⟨x.val - 1, _⟩ : Fin 124))
            - extractStridedSlice ⟨3, ![n, 126, 124]⟩ ![0, 0, 0] v G.s0w (ix3 b y (⟨x.val - 1, _⟩ : Fin 124))) _ = _
        rw [slice3_axis2_apply 2 v G.s2 b y _ ⟨x.val + 1, by omega⟩ (by show x.val + 1 = 2 + (x.val - 1); omega),
          slice3_axis2_apply 0 v G.s0w b y _ ⟨x.val - 1, by omega⟩ (by show x.val - 1 = 0 + (x.val - 1); omega)]
        rfl

/-- The same quotient taken along the middle axis: swap the last two axes, take the quotient along the last, swap
    back.  (The inner swap is the operand `w` here: `w (b, x, y) = v (b, y, x)`.)  Read at `(b, y, x)` it is the
    three-point quotient, at `y`, of the line `y' ↦ w (b, x, y')`. -/
theorem transpose_gradLast_apply {n : Nat} (G : GradShapes n) (h h2 : BitVec 32) (w : FVec Ideal ⟨3, ![n, 126, 126]⟩ .f32)
    (ht : (⟨3, ![n, 126, 126]⟩ : Shape).Transposes [0, 2, 1] ⟨3, ![n, 126, 126]⟩) (b : Fin n) (y x : Fin 126) :
    transpose ⟨3, ![n, 126, 126]⟩ [0, 2, 1] (gradLast G h h2 w) ht (ix3 b y x)
      = Cert.Spec.grad1 (Ideal.ofBits .f32 h) (Ideal.ofBits .f32 h2) (fun y' => w (ix3 b x y')) y :=
  (transpose_ix3_021_apply (gradLast G h h2 w) ht b y x).trans (gradLast_apply G h h2 w b x y)

end Cert.RefOps

end
-- ==== Proof.RefFields.lean ====
/-
  The reference's intermediate arrays, read at an index, are the specification's fields of one sample.

  Every array here is a stack over the 256 samples.  De-normalising with unit scale and zero shift changes nothing;
  the interior of channel `c` of sample `B` is `inner (o c)`; the quotients along a row and along a column of the
  interior are `gx` and `gy` (a quotient along a column is computed as: swap the two matrix axes, quotient along
  a row, swap back); and the continuity and momentum residuals are `cont` and `mom` of those fields.
-/
import proofs.«121105_j56899726737553_2_alg».proof.Proof.Gen.ReferenceIdeal.Run
import proofs.«121105_j56899726737553_2_alg».proof.Proof.Samples
import proofs.«121105_j56899726737553_2_alg».proof.Proof.Consts
import proofs.«121105_j56899726737553_2_alg».proof.Proof.RefOps

noncomputable section

open scoped BigOperators

namespace Cert.RefValue

open Cert.ReferenceIdeal Cert.ReferenceIdeal.Gen Cert.ReferenceIdeal.Value Cert.RefOps
open Idealize.ShloMosaic Idealize.ShloMosaic.ValueIdx Idealize.SL.Sem
open Cert.Spec (Fld inner gx gy grad1 cont mom smp3 smp1 hX hX2 hY hY2)

variable (V0 : Valuation τ sig (Elt Ideal))

/-- The three argument arrays: the coefficient, the outputs, the targets. -/
abbrev A0 : S256x1x128x128.Idx → EReal := V0 (Proc.devRef .tc main_arg0)
abbrev A1 : S256x3x128x128.Idx → EReal := V0 (Proc.devRef .tc main_arg1)
abbrev A2 : S256x3x128x128.Idx → EReal := V0 (Proc.devRef .tc main_arg2)

/-- Sample `B`'s pressure, two velocity components and coefficient on the interior. -/
abbrev fP (B : Fin 256) : Fld := inner (smp3 (A1 V0) B 0)
abbrev fU (B : Fin 256) : Fld := inner (smp3 (A1 V0) B 1)
abbrev fV (B : Fin 256) : Fld := inner (smp3 (A1 V0) B 2)
abbrev fA (B : Fin 256) : Fld := inner (smp1 (A0 V0) B)

/-- An array of extended reals read at an index. -/
abbrev rd {s : Shape} (v : s.Idx → EReal) (i : s.Idx) : EReal := v i

/-! ## De-normalisation is the identity -/

/-- The outputs scaled by one and shifted by zero are the outputs. -/
theorem v19_eq : res_main_v19 V0 = A1 V0 := by
  funext i
  show A1 V0 i * Ideal.ofBits .f32 0x3F800000#32 + Ideal.ofBits .f32 0x00000000#32 = A1 V0 i
  rw [Cert.Consts.ofBits_one, Ideal.ofBits_zero_f32, mul_one, add_zero]

/-! ## The interior fields -/

theorem v68_apply (B : Fin 256) (y x : Fin 126) : res_main_v68 V0 (ix3 B y x) = fP V0 B y x :=
  (dropUnit1_apply _ _ B y x).trans ((channel_apply 0 (by omega) _ _ B 0 y x).trans
    ((interior_apply (res_main_v19 V0) _ B 0 y x).trans (congrFun (v19_eq V0) _)))

theorem v70_apply (B : Fin 256) (y x : Fin 126) : res_main_v70 V0 (ix3 B y x) = fU V0 B y x :=
  (dropUnit1_apply _ _ B y x).trans ((channel_apply 1 (by omega) _ _ B 0 y x).trans
    ((interior_apply (res_main_v19 V0) _ B 1 y x).trans (congrFun (v19_eq V0) _)))

theorem v72_apply (B : Fin 256) (y x : Fin 126) : res_main_v72 V0 (ix3 B y x) = fV V0 B y x :=
  (dropUnit1_apply _ _ B y x).trans ((channel_apply 2 (by omega) _ _ B 0 y x).trans
    ((interior_apply (res_main_v19 V0) _ B 2 y x).trans (congrFun (v19_eq V0) _)))

theorem v73_apply (B : Fin 256) (y x : Fin 126) : res_main_v73 V0 (ix3 B y x) = fA V0 B y x := by
  refine (dropUnit1_apply _ _ B y x).trans ((interior_apply _ _ B 0 y x).trans ?_)
  show A0 V0 _ * Ideal.ofBits .f32 0x3F800000#32 + Ideal.ofBits .f32 0x00000000#32 = _
  rw [Cert.Consts.ofBits_one, Ideal.ofBits_zero_f32, mul_one, add_zero]
  rfl

/-! ## Quotients along a row and along a column -/

/-- The quotient along the last axis with the row spacing, of an array whose matrix `B` is the field `f`. -/
theorem gx_read (v : FVec Ideal S256x126x126 .f32) (f : Fld) (B : Fin 256)
    (hv : ∀ y x, v (ix3 B y x) = f y x) (y x : Fin 126) :
    gradLast (gradShapes 256) 0x3C1ACF38#32 0x3C9ACF38#32 v (ix3 B y x) = gx f y x :=
  (gradLast_apply _ _ _ v B y x).trans (congrArg (fun g => grad1 hX hX2 g x) (funext fun x' => hv y x'))

/-- The quotient along the middle axis with the column spacing: `w` is the array with its matrix axes swapped, whose
    matrix `B` is the transpose of the field `f`. -/
theorem gy_read (w : FVec Ideal S256x126x126 .f32) (f : Fld) (B : Fin 256)
    (hw : ∀ y x, w (ix3 B x y) = f y x) (ht : S256x126x126.Transposes [0, 2, 1] S256x126x126) (y x : Fin 126) :
    transpose S256x126x126 [0, 2, 1] (gradLast (gradShapes 256) 0x3BCE69A0#32 0x3C4E69A0#32 w) ht (ix3 B y x)
      = gy f y x :=
  (transpose_gradLast_apply _ _ _ w ht B y x).trans
    (congrArg (fun g => grad1 hY hY2 g y) (funext fun y' => hw y' x))

/-- A swap of the matrix axes read at an index. -/
theorem swap_apply (v : FVec Ideal S256x126x126 .f32) (ht : S256x126x126.Transposes [0, 2, 1] S256x126x126)
    (B : Fin 256) (x y : Fin 126) : transpose S256x126x126 [0, 2, 1] v ht (ix3 B x y) = v (ix3 B y x) :=
  transpose_ix3_021_apply v ht B x y

/-! ## The first derivatives -/

theorem v123_apply (B : Fin 256) (y x : Fin 126) : res_main_v123 V0 (ix3 B y x) = gx (fU V0 B) y x :=
  gx_read (res_main_v70 V0) (fU V0 B) B (v70_apply V0 B) y x

theorem v157_apply (B : Fin 256) (y x : Fin 126) : res_main_v157 V0 (ix3 B y x) = gx (fV V0 B) y x :=
  gx_read (res_main_v72 V0) (fV V0 B) B (v72_apply V0 B) y x

theorem v141_apply (B : Fin 256) (y x : Fin 126) : res_main_v141 V0 (ix3 B y x) = gy (fU V0 B) y x :=
  gy_read (res_main_v124 V0) (fU V0 B) B
    (fun y x => (swap_apply (res_main_v70 V0) _ B x y).trans (v70_apply V0 B y x)) _ y x

theorem v175_apply (B : Fin 256) (y x : Fin 126) : res_main_v175 V0 (ix3 B y x) = gy (fV V0 B) y x :=
  gy_read (res_main_v158 V0) (fV V0 B) B
    (fun y x => (swap_apply (res_main_v72 V0) _ B x y).trans (v72_apply V0 B y x)) _ y x

/-! ## The residuals -/

theorem v244_apply (B : Fin 256) (y x : Fin 126) :
    res_main_v244 V0 (ix3 B y x) = cont (fU V0 B) (fV V0 B) y x := by
  show rd (res_main_v123 V0) (ix3 B y x) + rd (res_main_v175 V0) (ix3 B y x) = _
  dsimp only [rd]
  rw [v123_apply V0 B y x, v175_apply V0 B y x]
  rfl

end Cert.RefValue

end
-- ==== Proof.RefResid.lean ====
/-
  The two momentum residuals of the reference, read at an index, are the specification's `mom` of the sample's
  fields: for the first velocity component with the pressure's quotient along a row, for the second with the
  pressure's quotient along a column.  The second derivatives are the quotients of the arrays of first derivatives.
-/
import proofs.«121105_j56899726737553_2_alg».proof.Proof.RefFields

noncomputable section

open scoped BigOperators

namespace Cert.RefValue

open Cert.ReferenceIdeal Cert.ReferenceIdeal.Gen Cert.ReferenceIdeal.Value Cert.RefOps
open Idealize.ShloMosaic Idealize.ShloMosaic.ValueIdx Idealize.SL.Sem
open Cert.Spec (Fld inner gx gy grad1 cont mom smp3 smp1 hX hX2 hY hY2)

variable (V0 : Valuation τ sig (Elt Ideal))

/-- The residual of the first velocity component. -/
theorem v264_apply (B : Fin 256) (y x : Fin 126) :
    res_main_v264 V0 (ix3 B y x)
      = mom (fU V0 B) (fV V0 B) (fA V0 B) (fU V0 B) (gx (fP V0 B)) y x := by
  have e1 := gx_read (res_main_v68 V0) (fP V0 B) B (v68_apply V0 B) y x
  have e2 := gx_read (res_main_v123 V0) (gx (fU V0 B)) B (v123_apply V0 B) y x
  have e3 := gy_read (res_main_v192 V0) (gy (fU V0 B)) B
    (fun y x => (swap_apply (res_main_v141 V0) _ B x y).trans (v141_apply V0 B y x))
    transposes_S256x126x126_S256x126x126_0_2_1 y x
  show (rd (res_main_v70 V0) (ix3 B y x) * rd (res_main_v123 V0) (ix3 B y x)
        + rd (res_main_v72 V0) (ix3 B y x) * rd (res_main_v141 V0) (ix3 B y x)
        + Ideal.div (gradLast (gradShapes 256) 0x3C1ACF38#32 0x3C9ACF38#32 (res_main_v68 V0) (ix3 B y x)) Cert.Spec.one
        - Ideal.div (Cert.Spec.one * (gradLast (gradShapes 256) 0x3C1ACF38#32 0x3C9ACF38#32 (res_main_v123 V0) (ix3 B y x)
            + transpose S256x126x126 [0, 2, 1]
                (gradLast (gradShapes 256) 0x3BCE69A0#32 0x3C4E69A0#32 (res_main_v192 V0))
                transposes_S256x126x126_S256x126x126_0_2_1 (ix3 B y x))) Cert.Spec.one)
      + Ideal.div (rd (res_main_v73 V0) (ix3 B y x) * rd (res_main_v70 V0) (ix3 B y x)) Cert.Spec.one = _
  dsimp only [rd]
  rw [e1, e2, e3, v70_apply V0 B y x, v123_apply V0 B y x, v72_apply V0 B y x, v141_apply V0 B y x,
    v73_apply V0 B y x]
  rfl

/-- The residual of the second velocity component. -/
theorem v280_apply (B : Fin 256) (y x : Fin 126) :
    res_main_v280 V0 (ix3 B y x)
      = mom (fU V0 B) (fV V0 B) (fA V0 B) (fV V0 B) (gy (fP V0 B)) y x := by
  have e1 := gy_read (res_main_v90 V0) (fP V0 B) B
    (fun y x => (swap_apply (res_main_v68 V0) _ B x y).trans (v68_apply V0 B y x))
    transposes_S256x126x126_S256x126x126_0_2_1 y x
  have e2 := gx_read (res_main_v157 V0) (gx (fV V0 B)) B (v157_apply V0 B) y x
  have e3 := gy_read (res_main_v226 V0) (gy (fV V0 B)) B
    (fun y x => (swap_apply (res_main_v175 V0) _ B x y).trans (v175_apply V0 B y x))
    transposes_S256x126x126_S256x126x126_0_2_1 y x
  show (rd (res_main_v70 V0) (ix3 B y x) * rd (res_main_v157 V0) (ix3 B y x)
        + rd (res_main_v72 V0) (ix3 B y x) * rd (res_main_v175 V0) (ix3 B y x)
        + Ideal.div (transpose S256x126x126 [0, 2, 1]
            (gradLast (gradShapes 256) 0x3BCE69A0#32 0x3C4E69A0#32 (res_main_v90 V0))
            transposes_S256x126x126_S256x126x126_0_2_1 (ix3 B y x)) Cert.Spec.one
        - Ideal.div (Cert.Spec.one * (gradLast (gradShapes 256) 0x3C1ACF38#32 0x3C9ACF38#32 (res_main_v157 V0) (ix3 B y x)
            + transpose S256x126x126 [0, 2, 1]
                (gradLast (gradShapes 256) 0x3BCE69A0#32 0x3C4E69A0#32 (res_main_v226 V0))
                transposes_S256x126x126_S256x126x126_0_2_1 (ix3 B y x))) Cert.Spec.one)
      + Ideal.div (rd (res_main_v73 V0) (ix3 B y x) * rd (res_main_v72 V0) (ix3 B y x)) Cert.Spec.one = _
  dsimp only [rd]
  rw [e1, e2, e3, v70_apply V0 B y x, v157_apply V0 B y x, v72_apply V0 B y x, v175_apply V0 B y x,
    v73_apply V0 B y x]
  rfl

end Cert.RefValue

end
-- ==== Proof.RefSums.lean ====
/-
  The reference's five sums are the sums over the samples of the specification's per-sample sums.

  A sum over every entry of a stack is the sum over the samples of the sample's sum; the sum over the two matrix
  axes, read at a sample, is that sample's sum.  The boundary vector lays fourteen flattened border segments end to
  end, so its sum of squares is the sum of the fourteen segments' sums, each of which is a double sum over samples
  and positions; adding the fourteen per sample gives the sample's boundary residual.  Only commutativity and
  associativity of addition on the extended reals are used.
-/
import proofs.«121105_j56899726737553_2_alg».proof.Proof.RefResid

noncomputable section

open scoped BigOperators

namespace Cert.RefValue

open Cert.ReferenceIdeal Cert.ReferenceIdeal.Gen Cert.ReferenceIdeal.Value Cert.RefOps
open Idealize.ShloMosaic Idealize.ShloMosaic.ValueIdx Idealize.SL.Sem
open Cert.Spec (Fld inner gx gy grad1 cont mom smp3 smp1)

variable (V0 : Valuation τ sig (Elt Ideal))

/-! ## The squared error -/

theorem sq_total (i : S_.Idx) :
    Host.reduceAdd (mulf (res_main_v0 V0) (res_main_v0 V0)) (constant (F := Ideal) S_ .f32 0x00000000#32)
        reducesTo_S256x3x128x128_S_d0_1_2_3 h_S_ i
      = ∑ B : Fin 256, Cert.Spec.sqB (smp3 (A1 V0) B) (smp3 (A2 V0) B) := by
  refine (Ideal.hostReduceAdd_total reducesTo_S256x3x128x128_S_d0_1_2_3 (fun b => b.elim0) _ _ i).trans ?_
  show Ideal.ofBits .f32 0x00000000#32
      + ∑ j : S256x3x128x128.Idx, rd (mulf (res_main_v0 V0) (res_main_v0 V0)) j = _
  rw [Ideal.ofBits_zero_f32, zero_add, sum_idx4]
  rfl

/-! ## The continuity residual -/

theorem cont_total (i : S_.Idx) :
    Host.reduceAdd (mulf (res_main_v244 V0) (res_main_v244 V0)) (constant (F := Ideal) S_ .f32 0x00000000#32)
        reducesTo_S256x126x126_S_d0_1_2 h_S_ i
      = ∑ B : Fin 256, Cert.Spec.contB (smp3 (A1 V0) B) := by
  refine (Ideal.hostReduceAdd_total reducesTo_S256x126x126_S_d0_1_2 (fun b => b.elim0) _ _ i).trans ?_
  show Ideal.ofBits .f32 0x00000000#32
      + ∑ j : S256x126x126.Idx, (rd (res_main_v244 V0) j * rd (res_main_v244 V0) j) = _
  rw [Ideal.ofBits_zero_f32, zero_add, sum_idx3]
  refine Finset.sum_congr rfl fun B _ => ?_
  show _ = ∑ y : Fin 126, ∑ x : Fin 126, cont (fU V0 B) (fV V0 B) y x * cont (fU V0 B) (fV V0 B) y x
  refine Finset.sum_congr rfl fun y _ => Finset.sum_congr rfl fun x _ => ?_
  exact congrArg₂ (· * ·) (v244_apply V0 B y x) (v244_apply V0 B y x)

/-! ## The momentum residuals, per sample -/

theorem nsx_row (B : Fin 256) :
    Host.reduceAdd (mulf (res_main_v264 V0) (res_main_v264 V0)) (constant (F := Ideal) S_ .f32 0x00000000#32)
        reducesTo_S256x126x126_S256_d1_2 h_S_ (ix1 B)
      = Cert.Spec.nsxB (smp3 (A1 V0) B) (smp1 (A0 V0) B) := by
  refine (reduce12_apply _ reducesTo_S256x126x126_S256_d1_2 _ B).trans ?_
  show Ideal.ofBits .f32 0x00000000#32 + ∑ y : Fin 126, ∑ x : Fin 126,
      (rd (res_main_v264 V0) (ix3 B y x) * rd (res_main_v264 V0) (ix3 B y x))
    = ∑ y : Fin 126, ∑ x : Fin 126,
      mom (fU V0 B) (fV V0 B) (fA V0 B) (fU V0 B) (gx (fP V0 B)) y x
        * mom (fU V0 B) (fV V0 B) (fA V0 B) (fU V0 B) (gx (fP V0 B)) y x
  rw [Ideal.ofBits_zero_f32, zero_add]
  refine Finset.sum_congr rfl fun y _ => Finset.sum_congr rfl fun x _ => ?_
  exact congrArg₂ (· * ·) (v264_apply V0 B y x) (v264_apply V0 B y x)

theorem nsy_row (B : Fin 256) :
    Host.reduceAdd (mulf (res_main_v280 V0) (res_main_v280 V0)) (constant (F := Ideal) S_ .f32 0x00000000#32)
        reducesTo_S256x126x126_S256_d1_2 h_S_ (ix1 B)
      = Cert.Spec.nsyB (smp3 (A1 V0) B) (smp1 (A0 V0) B) := by
  refine (reduce12_apply _ reducesTo_S256x126x126_S256_d1_2 _ B).trans ?_
  show Ideal.ofBits .f32 0x00000000#32 + ∑ y : Fin 126, ∑ x : Fin 126,
      (rd (res_main_v280 V0) (ix3 B y x) * rd (res_main_v280 V0) (ix3 B y x))
    = ∑ y : Fin 126, ∑ x : Fin 126,
      mom (fU V0 B) (fV V0 B) (fA V0 B) (fV V0 B) (gy (fP V0 B)) y x
        * mom (fU V0 B) (fV V0 B) (fA V0 B) (fV V0 B) (gy (fP V0 B)) y x
  rw [Ideal.ofBits_zero_f32, zero_add]
  refine Finset.sum_congr rfl fun y _ => Finset.sum_congr rfl fun x _ => ?_
  exact congrArg₂ (· * ·) (v280_apply V0 B y x) (v280_apply V0 B y x)

/-- The batch's sum of the two per-sample means. -/
theorem ns_total (i : S_.Idx) :
    Host.reduceAdd
        (addf
          (Host.divf (Host.reduceAdd (mulf (res_main_v264 V0) (res_main_v264 V0)) (constant (F := Ideal) S_ .f32 0x00000000#32)
              reducesTo_S256x126x126_S256_d1_2 h_S_)
            (broadcastInDim S256 ![] bcast_S_S256 (constant (F := Ideal) S_ .f32 0x46781000#32)))
          (Host.divf (Host.reduceAdd (mulf (res_main_v280 V0) (res_main_v280 V0)) (constant (F := Ideal) S_ .f32 0x00000000#32)
              reducesTo_S256x126x126_S256_d1_2 h_S_)
            (broadcastInDim S256 ![] bcast_S_S256 (constant (F := Ideal) S_ .f32 0x46781000#32))))
        (constant (F := Ideal) S_ .f32 0x00000000#32) reducesTo_S256_S_d0 h_S_ i
      = ∑ B : Fin 256, (Ideal.div (Cert.Spec.nsxB (smp3 (A1 V0) B) (smp1 (A0 V0) B)) Cert.Spec.nPix
          + Ideal.div (Cert.Spec.nsyB (smp3 (A1 V0) B) (smp1 (A0 V0) B)) Cert.Spec.nPix) := by
  refine (Ideal.hostReduceAdd_total reducesTo_S256_S_d0 (fun b => b.elim0) _ _ i).trans ?_
  show Ideal.ofBits .f32 0x00000000#32 + ∑ j : S256.Idx,
      (Ideal.div (Host.reduceAdd (mulf (res_main_v264 V0) (res_main_v264 V0)) (constant (F := Ideal) S_ .f32 0x00000000#32)
          reducesTo_S256x126x126_S256_d1_2 h_S_ j) Cert.Spec.nPix
        + Ideal.div (Host.reduceAdd (mulf (res_main_v280 V0) (res_main_v280 V0)) (constant (F := Ideal) S_ .f32 0x00000000#32)
          reducesTo_S256x126x126_S256_d1_2 h_S_ j) Cert.Spec.nPix) = _
  rw [Ideal.ofBits_zero_f32, zero_add, sum_idx1]
  refine Finset.sum_congr rfl fun B _ => ?_
  rw [nsx_row V0 B, nsy_row V0 B]

/-! ## The boundary residual -/

/-- A flattened column segment of 18 rows from row 55. -/
def col18 (X : FVec Ideal S256x3x128x128 .f32) (c x0 : Nat) (h1 : S256x3x128x128.Slices ![0, c, 55, x0] S256x1x18x1) :
    S4608.Idx → EReal :=
  shapeCast S4608 (shapeCast S256x18 (extractStridedSlice S256x1x18x1 ![0, c, 55, x0] X h1)
    shapeCasts_S256x1x18x1_S256x18) shapeCasts_S256x18_S4608

/-- A flattened column segment of 55 rows from row `s`. -/
def col55 (X : FVec Ideal S256x3x128x128 .f32) (c s x0 : Nat) (h1 : S256x3x128x128.Slices ![0, c, s, x0] S256x1x55x1) :
    S14080.Idx → EReal :=
  shapeCast S14080 (shapeCast S256x55 (extractStridedSlice S256x1x55x1 ![0, c, s, x0] X h1)
    shapeCasts_S256x1x55x1_S256x55) shapeCasts_S256x55_S14080

/-- A flattened whole row `r`. -/
def row128 (X : FVec Ideal S256x3x128x128 .f32) (c r : Nat) (h1 : S256x3x128x128.Slices ![0, c, r, 0] S256x1x1x128) :
    S32768.Idx → EReal :=
  shapeCast S32768 (shapeCast S256x128 (extractStridedSlice S256x1x1x128 ![0, c, r, 0] X h1)
    shapeCasts_S256x1x1x128_S256x128) shapeCasts_S256x128_S32768

/-- The fourteen flattened border segments of an array of outputs, in the order they are laid end to end: the inlet
    segment shifted by the inlet value, the outlet segment of the pressure, then for each velocity component and each
    of the two opposite sides the whole row and the two column segments. -/
def bndPieces (X : FVec Ideal S256x3x128x128 .f32) : List ((s : Shape) × (s.Idx → EReal)) :=
  [⟨S4608, subf (col18 X 1 0 slices_S256x3x128x128_S256x1x18x1_0_1_55_0) (broadcastInDim S4608 ![] bcast_S_S4608 (constant (F := Ideal) S_ .f32 0x3C23D70A#32))⟩,
   ⟨S4608, col18 X 0 127 slices_S256x3x128x128_S256x1x18x1_0_0_55_127⟩,
   ⟨S32768, row128 X 1 0 slices_S256x3x128x128_S256x1x1x128_0_1_0_0⟩,
   ⟨S14080, col55 X 1 73 0 slices_S256x3x128x128_S256x1x55x1_0_1_73_0⟩,
   ⟨S14080, col55 X 1 0 0 slices_S256x3x128x128_S256x1x55x1_0_1_0_0⟩,
   ⟨S32768, row128 X 1 127 slices_S256x3x128x128_S256x1x1x128_0_1_127_0⟩,
   ⟨S14080, col55 X 1 73 127 slices_S256x3x128x128_S256x1x55x1_0_1_73_127⟩,
   ⟨S14080, col55 X 1 0 127 slices_S256x3x128x128_S256x1x55x1_0_1_0_127⟩,
   ⟨S32768, row128 X 2 0 slices_S256x3x128x128_S256x1x1x128_0_2_0_0⟩,
   ⟨S14080, col55 X 2 73 0 slices_S256x3x128x128_S256x1x55x1_0_2_73_0⟩,
   ⟨S14080, col55 X 2 0 0 slices_S256x3x128x128_S256x1x55x1_0_2_0_0⟩,
   ⟨S32768, row128 X 2 127 slices_S256x3x128x128_S256x1x1x128_0_2_127_0⟩,
   ⟨S14080, col55 X 2 73 127 slices_S256x3x128x128_S256x1x55x1_0_2_73_127⟩,
   ⟨S14080, col55 X 2 0 127 slices_S256x3x128x128_S256x1x55x1_0_2_0_127⟩]

/-- The lengths of the fourteen segments. -/
abbrev bndExtents : List Nat := [4608, 4608, 32768, 14080, 14080, 32768, 14080, 14080, 32768, 14080, 14080, 32768, 14080, 14080]

/-- The length of a vector's shape (zero for any other rank). -/
abbrev ext1 : Shape → Nat :=
  fun s => if h : s.rank = S252928.rank then s.size ((0 : Fin 1).cast h.symm) else 0

theorem bnd_extents (X : FVec Ideal S256x3x128x128 .f32) : ((bndPieces X).map (·.1)).map ext1 = bndExtents := rfl

/-- The segments before the `k`-th occupy as many positions as the first `k` lengths add up to. -/
theorem bnd_pre (X : FVec Ideal S256x3x128x128 .f32) (k : Nat) :
    ((((bndPieces X).take k).map (·.1)).map ext1).sum = (bndExtents.take k).sum := by
  rw [← bnd_extents X]
  simp only [List.map_take]

/-- The reference's boundary vector is those segments laid end to end. -/
theorem v64_fold : res_main_v64 V0 = concatenate S252928 0 (bndPieces (res_main_v19 V0)) concatenates_S4608_S4608_S32768_S14080_S14080_S32768_S14080_S14080_S32768_S14080_S14080_S32768_S14080_S14080_S252928_d0 := rfl

/-- Piece `k` of vectors laid end to end, with the positions it occupies named by `idx`: the sum of `g` over those
    positions is the sum of `g` over the piece. -/
theorem concat1_idx_sum {M : Type*} [AddCommMonoid M] {α : Type} {N : Nat} (xs : List ((s : Shape) × (s.Idx → α)))
    (h : Shape.Concatenates (xs.map (·.1)) ⟨1, ![N]⟩ 0) (k : Nat) (hk : k < xs.length) (L : Nat)
    (x₁ : (⟨1, ![L]⟩ : Shape).Idx → α) (hxk : xs[k] = ⟨⟨1, ![L]⟩, x₁⟩) (pre : Nat)
    (hpre : (((xs.take k).map (·.1)).map fun s : Shape =>
      if h : s.rank = (⟨1, ![N]⟩ : Shape).rank then s.size ((0 : Fin 1).cast h.symm) else 0).sum = pre)
    (idx : Fin L → Fin N) (hidx : ∀ i, pre + i.val = (idx i).val) (g : α → M) :
    ∑ i : Fin L, g (concatenate ⟨1, ![N]⟩ 0 xs h (ix1 (idx i))) = ∑ i : (⟨1, ![L]⟩ : Shape).Idx, g (x₁ i) := by
  rw [sum_idx1]
  refine Finset.sum_congr rfl fun i _ => congrArg g ?_
  exact concatenate_apply_piece (t := ⟨1, ![N]⟩) (0 : Fin 1) xs h _ k hk _ x₁ hxk rfl pre hpre (ix1 i)
    (fun b hb => absurd (Subsingleton.elim _ _) hb) (hidx i)

theorem add_congr' {M : Type*} [Add M] {a a' b b' : M} (h1 : a = a') (h2 : b = b') : a + b = a' + b' := by
  rw [h1, h2]

/-- A sum over the positions of the boundary vector, cut at the ends of its fourteen segments. -/
theorem sum_fin_14 {M : Type*} [AddCommMonoid M] (g : Fin 252928 → M) :
    ∑ k, g k = ((((((((((((((∑ i : Fin 4608, g ⟨i.val, by omega⟩)
      + ∑ i : Fin 4608, g ⟨4608 + i.val, by omega⟩)
      + ∑ i : Fin 32768, g ⟨9216 + i.val, by omega⟩)
      + ∑ i : Fin 14080, g ⟨41984 + i.val, by omega⟩)
      + ∑ i : Fin 14080, g ⟨56064 + i.val, by omega⟩)
      + ∑ i : Fin 32768, g ⟨70144 + i.val, by omega⟩)
      + ∑ i : Fin 14080, g ⟨102912 + i.val, by omega⟩)
      + ∑ i : Fin 14080, g ⟨116992 + i.val, by omega⟩)
      + ∑ i : Fin 32768, g ⟨131072 + i.val, by omega⟩)
      + ∑ i : Fin 14080, g ⟨163840 + i.val, by omega⟩)
      + ∑ i : Fin 14080, g ⟨177920 + i.val, by omega⟩)
      + ∑ i : Fin 32768, g ⟨192000 + i.val, by omega⟩)
      + ∑ i : Fin 14080, g ⟨224768 + i.val, by omega⟩)
      + ∑ i : Fin 14080, g ⟨238848 + i.val, by omega⟩) := by
  refine (sum_fin_split 252928 238848 14080 (by norm_num) g).trans (add_congr' ?_ rfl)
  refine (sum_fin_split 238848 224768 14080 (by norm_num) _).trans (add_congr' ?_ rfl)
  refine (sum_fin_split 224768 192000 32768 (by norm_num) _).trans (add_congr' ?_ rfl)
  refine (sum_fin_split 192000 177920 14080 (by norm_num) _).trans (add_congr' ?_ rfl)
  refine (sum_fin_split 177920 163840 14080 (by norm_num) _).trans (add_congr' ?_ rfl)
  refine (sum_fin_split 163840 131072 32768 (by norm_num) _).trans (add_congr' ?_ rfl)
  refine (sum_fin_split 131072 116992 14080 (by norm_num) _).trans (add_congr' ?_ rfl)
  refine (sum_fin_split 116992 102912 14080 (by norm_num) _).trans (add_congr' ?_ rfl)
  refine (sum_fin_split 102912 70144 32768 (by norm_num) _).trans (add_congr' ?_ rfl)
  refine (sum_fin_split 70144 56064 14080 (by norm_num) _).trans (add_congr' ?_ rfl)
  refine (sum_fin_split 56064 41984 14080 (by norm_num) _).trans (add_congr' ?_ rfl)
  refine (sum_fin_split 41984 9216 32768 (by norm_num) _).trans (add_congr' ?_ rfl)
  exact sum_fin_split 9216 4608 4608 (by norm_num) _

/-- The squares of the boundary vector of an array of outputs `X` sum to the batch's sum of the per-sample boundary
    residuals. -/
theorem bnd_pieces_total (X : FVec Ideal S256x3x128x128 .f32) :
    ∑ k : Fin 252928, (concatenate S252928 0 (bndPieces X) concatenates_S4608_S4608_S32768_S14080_S14080_S32768_S14080_S14080_S32768_S14080_S14080_S32768_S14080_S14080_S252928_d0 (ix1 k)
        * concatenate S252928 0 (bndPieces X) concatenates_S4608_S4608_S32768_S14080_S14080_S32768_S14080_S14080_S32768_S14080_S14080_S32768_S14080_S14080_S252928_d0 (ix1 k) : EReal)
      = ∑ B : Fin 256, Cert.Spec.bndB (smp3 X B) := by
  let SQ : EReal → EReal := fun t => t * t
  have e0 := (concat1_idx_sum (bndPieces X) concatenates_S4608_S4608_S32768_S14080_S14080_S32768_S14080_S14080_S32768_S14080_S14080_S32768_S14080_S14080_S252928_d0 0 (show 0 < 14 by omega) 4608 _ rfl 0 ((bnd_pre X 0).trans (by decide)) (fun i => ⟨i.val, by omega⟩) (fun i => Nat.zero_add _) SQ).trans
    (colSeg_sum 1 55 0 (by omega) (by omega) X slices_S256x3x128x128_S256x1x18x1_0_1_55_0 shapeCasts_S256x1x18x1_S256x18 shapeCasts_S256x18_S4608 (fun t : EReal => (t - Cert.Spec.cIn) * (t - Cert.Spec.cIn)))
  have e1 := (concat1_idx_sum (bndPieces X) concatenates_S4608_S4608_S32768_S14080_S14080_S32768_S14080_S14080_S32768_S14080_S14080_S32768_S14080_S14080_S252928_d0 1 (show 1 < 14 by omega) 4608 _ rfl 4608 ((bnd_pre X 1).trans (by decide)) (fun i => ⟨4608 + i.val, by omega⟩) (fun i => rfl) SQ).trans
    (colSeg_sum 0 55 127 (by omega) (by omega) X slices_S256x3x128x128_S256x1x18x1_0_0_55_127 shapeCasts_S256x1x18x1_S256x18 shapeCasts_S256x18_S4608 SQ)
  have e2 := (concat1_idx_sum (bndPieces X) concatenates_S4608_S4608_S32768_S14080_S14080_S32768_S14080_S14080_S32768_S14080_S14080_S32768_S14080_S14080_S252928_d0 2 (show 2 < 14 by omega) 32768 _ rfl 9216 ((bnd_pre X 2).trans (by decide)) (fun i => ⟨9216 + i.val, by omega⟩) (fun i => rfl) SQ).trans
    (rowSeg_sum 1 0 (by omega) (by omega) X slices_S256x3x128x128_S256x1x1x128_0_1_0_0 shapeCasts_S256x1x1x128_S256x128 shapeCasts_S256x128_S32768 SQ)
  have e3 := (concat1_idx_sum (bndPieces X) concatenates_S4608_S4608_S32768_S14080_S14080_S32768_S14080_S14080_S32768_S14080_S14080_S32768_S14080_S14080_S252928_d0 3 (show 3 < 14 by omega) 14080 _ rfl 41984 ((bnd_pre X 3).trans (by decide)) (fun i => ⟨41984 + i.val, by omega⟩) (fun i => rfl) SQ).trans
    (colSeg_sum 1 73 0 (by omega) (by omega) X slices_S256x3x128x128_S256x1x55x1_0_1_73_0 shapeCasts_S256x1x55x1_S256x55 shapeCasts_S256x55_S14080 SQ)
  have e4 := (concat1_idx_sum (bndPieces X) concatenates_S4608_S4608_S32768_S14080_S14080_S32768_S14080_S14080_S32768_S14080_S14080_S32768_S14080_S14080_S252928_d0 4 (show 4 < 14 by omega) 14080 _ rfl 56064 ((bnd_pre X 4).trans (by decide)) (fun i => ⟨56064 + i.val, by omega⟩) (fun i => rfl) SQ).trans
    (colSeg_sum 1 0 0 (by omega) (by omega) X slices_S256x3x128x128_S256x1x55x1_0_1_0_0 shapeCasts_S256x1x55x1_S256x55 shapeCasts_S256x55_S14080 SQ)
  have e5 := (concat1_idx_sum (bndPieces X) concatenates_S4608_S4608_S32768_S14080_S14080_S32768_S14080_S14080_S32768_S14080_S14080_S32768_S14080_S14080_S252928_d0 5 (show 5 < 14 by omega) 32768 _ rfl 70144 ((bnd_pre X 5).trans (by decide)) (fun i => ⟨70144 + i.val, by omega⟩) (fun i => rfl) SQ).trans
    (rowSeg_sum 1 127 (by omega) (by omega) X slices_S256x3x128x128_S256x1x1x128_0_1_127_0 shapeCasts_S256x1x1x128_S256x128 shapeCasts_S256x128_S32768 SQ)
  have e6 := (concat1_idx_sum (bndPieces X) concatenates_S4608_S4608_S32768_S14080_S14080_S32768_S14080_S14080_S32768_S14080_S14080_S32768_S14080_S14080_S252928_d0 6 (show 6 < 14 by omega) 14080 _ rfl 102912 ((bnd_pre X 6).trans (by decide)) (fun i => ⟨102912 + i.val, by omega⟩) (fun i => rfl) SQ).trans
    (colSeg_sum 1 73 127 (by omega) (by omega) X slices_S256x3x128x128_S256x1x55x1_0_1_73_127 shapeCasts_S256x1x55x1_S256x55 shapeCasts_S256x55_S14080 SQ)
  have e7 := (concat1_idx_sum (bndPieces X) concatenates_S4608_S4608_S32768_S14080_S14080_S32768_S14080_S14080_S32768_S14080_S14080_S32768_S14080_S14080_S252928_d0 7 (show 7 < 14 by omega) 14080 _ rfl 116992 ((bnd_pre X 7).trans (by decide)) (fun i => ⟨116992 + i.val, by omega⟩) (fun i => rfl) SQ).trans
    (colSeg_sum 1 0 127 (by omega) (by omega) X slices_S256x3x128x128_S256x1x55x1_0_1_0_127 shapeCasts_S256x1x55x1_S256x55 shapeCasts_S256x55_S14080 SQ)
  have e8 := (concat1_idx_sum (bndPieces X) concatenates_S4608_S4608_S32768_S14080_S14080_S32768_S14080_S14080_S32768_S14080_S14080_S32768_S14080_S14080_S252928_d0 8 (show 8 < 14 by omega) 32768 _ rfl 131072 ((bnd_pre X 8).trans (by decide)) (fun i => ⟨131072 + i.val, by omega⟩) (fun i => rfl) SQ).trans
    (rowSeg_sum 2 0 (by omega) (by omega) X slices_S256x3x128x128_S256x1x1x128_0_2_0_0 shapeCasts_S256x1x1x128_S256x128 shapeCasts_S256x128_S32768 SQ)
  have e9 := (concat1_idx_sum (bndPieces X) concatenates_S4608_S4608_S32768_S14080_S14080_S32768_S14080_S14080_S32768_S14080_S14080_S32768_S14080_S14080_S252928_d0 9 (show 9 < 14 by omega) 14080 _ rfl 163840 ((bnd_pre X 9).trans (by decide)) (fun i => ⟨163840 + i.val, by omega⟩) (fun i => rfl) SQ).trans
    (colSeg_sum 2 73 0 (by omega) (by omega) X slices_S256x3x128x128_S256x1x55x1_0_2_73_0 shapeCasts_S256x1x55x1_S256x55 shapeCasts_S256x55_S14080 SQ)
  have e10 := (concat1_idx_sum (bndPieces X) concatenates_S4608_S4608_S32768_S14080_S14080_S32768_S14080_S14080_S32768_S14080_S14080_S32768_S14080_S14080_S252928_d0 10 (show 10 < 14 by omega) 14080 _ rfl 177920 ((bnd_pre X 10).trans (by decide)) (fun i => ⟨177920 + i.val, by omega⟩) (fun i => rfl) SQ).trans
    (colSeg_sum 2 0 0 (by omega) (by omega) X slices_S256x3x128x128_S256x1x55x1_0_2_0_0 shapeCasts_S256x1x55x1_S256x55 shapeCasts_S256x55_S14080 SQ)
  have e11 := (concat1_idx_sum (bndPieces X) concatenates_S4608_S4608_S32768_S14080_S14080_S32768_S14080_S14080_S32768_S14080_S14080_S32768_S14080_S14080_S252928_d0 11 (show 11 < 14 by omega) 32768 _ rfl 192000 ((bnd_pre X 11).trans (by decide)) (fun i => ⟨192000 + i.val, by omega⟩) (fun i => rfl) SQ).trans
    (rowSeg_sum 2 127 (by omega) (by omega) X slices_S256x3x128x128_S256x1x1x128_0_2_127_0 shapeCasts_S256x1x1x128_S256x128 shapeCasts_S256x128_S32768 SQ)
  have e12 := (concat1_idx_sum (bndPieces X) concatenates_S4608_S4608_S32768_S14080_S14080_S32768_S14080_S14080_S32768_S14080_S14080_S32768_S14080_S14080_S252928_d0 12 (show 12 < 14 by omega) 14080 _ rfl 224768 ((bnd_pre X 12).trans (by decide)) (fun i => ⟨224768 + i.val, by omega⟩) (fun i => rfl) SQ).trans
    (colSeg_sum 2 73 127 (by omega) (by omega) X slices_S256x3x128x128_S256x1x55x1_0_2_73_127 shapeCasts_S256x1x55x1_S256x55 shapeCasts_S256x55_S14080 SQ)
  have e13 := (concat1_idx_sum (bndPieces X) concatenates_S4608_S4608_S32768_S14080_S14080_S32768_S14080_S14080_S32768_S14080_S14080_S32768_S14080_S14080_S252928_d0 13 (show 13 < 14 by omega) 14080 _ rfl 238848 ((bnd_pre X 13).trans (by decide)) (fun i => ⟨238848 + i.val, by omega⟩) (fun i => rfl) SQ).trans
    (colSeg_sum 2 0 127 (by omega) (by omega) X slices_S256x3x128x128_S256x1x55x1_0_2_0_127 shapeCasts_S256x1x55x1_S256x55 shapeCasts_S256x55_S14080 SQ)
  refine (sum_fin_14 _).trans ?_
  refine ((add_congr' (add_congr' (add_congr' (add_congr' (add_congr' (add_congr' (add_congr' (add_congr' (add_congr' (add_congr' (add_congr' (add_congr' (add_congr' e0 e1) e2) e3) e4) e5) e6) e7) e8) e9) e10) e11) e12) e13)).trans ?_
  repeat rw [← Finset.sum_add_distrib]
  rfl

theorem bnd_total (i : S_.Idx) :
    Host.reduceAdd (mulf (res_main_v64 V0) (res_main_v64 V0)) (constant (F := Ideal) S_ .f32 0x00000000#32)
        reducesTo_S252928_S_d0 h_S_ i
      = ∑ B : Fin 256, Cert.Spec.bndB (smp3 (A1 V0) B) := by
  refine (Ideal.hostReduceAdd_total reducesTo_S252928_S_d0 (fun b => b.elim0) _ _ i).trans ?_
  show Ideal.ofBits .f32 0x00000000#32
      + ∑ j : S252928.Idx, (rd (res_main_v64 V0) j * rd (res_main_v64 V0) j) = _
  rw [Ideal.ofBits_zero_f32, zero_add, sum_idx1, v64_fold, v19_eq]
  exact bnd_pieces_total (A1 V0)

end Cert.RefValue

end
-- ==== Proof.RefValue.lean ====
/-
  The reference's result is the specification's loss of the batch's five sums.

  The result is the weighted sum of four normalised terms; each term's sum has been identified with the sum over
  the samples of the per-sample sums, and the combination is the specification's `lossR`, operation by operation.
-/
import proofs.«121105_j56899726737553_2_alg».proof.Proof.RefSums

noncomputable section

open scoped BigOperators

namespace Cert.RefValue

open Cert.ReferenceIdeal Cert.ReferenceIdeal.Gen Cert.ReferenceIdeal.Value Cert.RefOps
open Idealize.ShloMosaic Idealize.ShloMosaic.ValueIdx Idealize.SL.Sem
open Cert.Spec (smp3 smp1)

/-- The reference's result, as the specification's loss of the sums over the 256 samples. -/
theorem ref_value_aux (V0 : Valuation τ sig (Elt Ideal)) :
    Cert.ReferenceIdeal.Value.val7 V0 (Proc.devRef .tc main_v304)
      = fun _ => Cert.Spec.lossR
          (∑ B : Fin 256, Cert.Spec.sqB (smp3 (A1 V0) B) (smp3 (A2 V0) B))
          (∑ B : Fin 256, Cert.Spec.bndB (smp3 (A1 V0) B))
          (∑ B : Fin 256, Cert.Spec.contB (smp3 (A1 V0) B))
          (∑ B : Fin 256, (Ideal.div (Cert.Spec.nsxB (smp3 (A1 V0) B) (smp1 (A0 V0) B)) Cert.Spec.nPix
            + Ideal.div (Cert.Spec.nsyB (smp3 (A1 V0) B) (smp1 (A0 V0) B)) Cert.Spec.nPix)) := by
  refine (val7_main_v304 V0).trans ?_
  funext i
  show Cert.Spec.wBase * Ideal.div
        (Host.reduceAdd (mulf (res_main_v0 V0) (res_main_v0 V0)) (constant (F := Ideal) S_ .f32 0x00000000#32)
          reducesTo_S256x3x128x128_S_d0_1_2_3 h_S_ i) Cert.Spec.sBase
      + Cert.Spec.wRes * Ideal.div (Ideal.div
        (Host.reduceAdd (mulf (res_main_v244 V0) (res_main_v244 V0)) (constant (F := Ideal) S_ .f32 0x00000000#32)
          reducesTo_S256x126x126_S_d0_1_2 h_S_ i) Cert.Spec.nInt) Cert.Spec.sDiv
      + Cert.Spec.wRes * Ideal.div (Ideal.div (Ideal.div
        (Host.reduceAdd
          (addf
            (Host.divf (Host.reduceAdd (mulf (res_main_v264 V0) (res_main_v264 V0)) (constant (F := Ideal) S_ .f32 0x00000000#32)
                reducesTo_S256x126x126_S256_d1_2 h_S_)
              (broadcastInDim S256 ![] bcast_S_S256 (constant (F := Ideal) S_ .f32 0x46781000#32)))
            (Host.divf (Host.reduceAdd (mulf (res_main_v280 V0) (res_main_v280 V0)) (constant (F := Ideal) S_ .f32 0x00000000#32)
                reducesTo_S256x126x126_S256_d1_2 h_S_)
              (broadcastInDim S256 ![] bcast_S_S256 (constant (F := Ideal) S_ .f32 0x46781000#32))))
          (constant (F := Ideal) S_ .f32 0x00000000#32) reducesTo_S256_S_d0 h_S_ i) Cert.Spec.nBatch) Cert.Spec.two) Cert.Spec.sNs
      + Cert.Spec.wRes * Ideal.div (Ideal.div
        (Host.reduceAdd (mulf (res_main_v64 V0) (res_main_v64 V0)) (constant (F := Ideal) S_ .f32 0x00000000#32)
          reducesTo_S252928_S_d0 h_S_ i) Cert.Spec.nBnd) Cert.Spec.one = _
  rw [sq_total V0 i, cont_total V0 i, ns_total V0 i, bnd_total V0 i]
  rfl

/-- The same, with the three argument arrays written out. -/
theorem ref_value (V0 : Valuation τ sig (Elt Ideal)) :
    Cert.ReferenceIdeal.Value.val7 V0 (Proc.devRef .tc main_v304)
      = fun _ => Cert.Spec.lossR
          (∑ B : Fin 256, Cert.Spec.sqB (smp3 (V0 (Proc.devRef .tc main_arg1)) B) (smp3 (V0 (Proc.devRef .tc main_arg2)) B))
          (∑ B : Fin 256, Cert.Spec.bndB (smp3 (V0 (Proc.devRef .tc main_arg1)) B))
          (∑ B : Fin 256, Cert.Spec.contB (smp3 (V0 (Proc.devRef .tc main_arg1)) B))
          (∑ B : Fin 256, (Ideal.div (Cert.Spec.nsxB (smp3 (V0 (Proc.devRef .tc main_arg1)) B) (smp1 (V0 (Proc.devRef .tc main_arg0)) B)) Cert.Spec.nPix
            + Ideal.div (Cert.Spec.nsyB (smp3 (V0 (Proc.devRef .tc main_arg1)) B) (smp1 (V0 (Proc.devRef .tc main_arg0)) B)) Cert.Spec.nPix)) :=
  ref_value_aux V0

end Cert.RefValue

end
-- ==== Proof.lean ====
/-
  The certificate of a physics-informed loss: a Pallas kernel that streams the batch eight samples at a time and
  accumulates five sums (squared error, boundary residual, continuity and the two momentum residuals of a
  finite-difference Navier–Stokes stencil) against the jnp reference that forms the same loss from whole-batch
  arrays. Read on the extended reals with exact operations the two return the same number:

  * the frames of the two kernel programs are the generated ones, the reference's its generated run;
  * the idealization rewrote nothing;
  * the kernel's result is the loss of its five totals (the run, the fold over the 32 grid points, the host lines
    after the region: `KRun`, `KTotal`), each total the sum over the 256 samples of the sample's quantity (the
    body's arithmetic read at the samples: `KValue`);
  * the reference's result is the loss of the same sums in its own arrangement (`RefValue`), and the two
    arrangements agree because dividing by 15876 and then by 256 is dividing by 4064256 and multiplication by a
    nonnegative real distributes over sums of extended reals (`Law`) — no finiteness of the inputs is used.
-/
import proofs.«121105_j56899726737553_2_alg».proof.Defs
import proofs.«121105_j56899726737553_2_alg».proof.Proof.Gen.Kernel
import proofs.«121105_j56899726737553_2_alg».proof.Proof.Gen.Kernel.Skeleton
import proofs.«121105_j56899726737553_2_alg».proof.Proof.Gen.Kernel.Launch
import proofs.«121105_j56899726737553_2_alg».proof.Proof.Gen.Kernel.Points
import proofs.«121105_j56899726737553_2_alg».proof.Proof.Gen.Kernel.Frame
import proofs.«121105_j56899726737553_2_alg».proof.Proof.Gen.KernelIdeal
import proofs.«121105_j56899726737553_2_alg».proof.Proof.Gen.KernelIdeal.Skeleton
import proofs.«121105_j56899726737553_2_alg».proof.Proof.Gen.KernelIdeal.Launch
import proofs.«121105_j56899726737553_2_alg».proof.Proof.Gen.KernelIdeal.Points
import proofs.«121105_j56899726737553_2_alg».proof.Proof.Gen.KernelIdeal.Frame
import proofs.«121105_j56899726737553_2_alg».proof.Proof.Gen.ReferenceIdeal
import proofs.«121105_j56899726737553_2_alg».proof.Proof.Gen.Pre_finite_inputs
import proofs.«121105_j56899726737553_2_alg».proof.Proof.Gen.ReferenceIdeal.Run
import proofs.«121105_j56899726737553_2_alg».proof.Proof.Assemble
import proofs.«121105_j56899726737553_2_alg».proof.Proof.KValue
import proofs.«121105_j56899726737553_2_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Assemble.algebraic_of Cert.KValue.stSq_apply Cert.KValue.stBnd_apply Cert.KValue.stCont_apply Cert.KValue.stNsx_apply
    Cert.KValue.stNsy_apply Cert.RefValue.ref_value⟩

end Cert.Proof

end
